-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_tau" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x768 : Shape := ⟨3, ![16, 8, 768]⟩
abbrev S768x512 : Shape := ⟨2, ![768, 512]⟩
abbrev S512 : Shape := ⟨1, ![512]⟩
abbrev S49408x512 : Shape := ⟨2, ![49408, 512]⟩
abbrev S_ : Shape := ⟨0, ![]⟩

class Facts : Prop where
  bcast_S_S16x8x768 : S_.BroadcastsInDim S16x8x768 (![] : Fin 0 → Fin S16x8x768.rank)
  reducesTo_S16x8x768_S_d0_1_2 : S16x8x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S49408x512 : S_.BroadcastsInDim S49408x512 (![] : Fin 0 → Fin S49408x512.rank)
  reducesTo_S49408x512_S_d0_1 : S49408x512.ReducesTo [0, 1] S_

variable [Facts]

def fn_part1 {F : FTy → Type} [FloatOps F] (main_v13 : IVec S_ 1) (main_v16 : IVec S49408x512 1) : IVec S_ 1 :=
  let main_c_5 : IVec S_ 1 := constantI S_ 1 1#1
  let main_v17 : IVec S_ 1 := (fun x v => Host.reduce IntOp.andi x v reducesTo_S49408x512_S_d0_1 h_S_) main_v16 main_c_5
  let main_v18 : IVec S_ 1 := andi main_v13 main_v17
  main_v18

def fn {F : FTy → Type} [FloatOps F] (main_arg0 : FVec F S16x8x768 .f32) (main_arg1 : FVec F S768x512 .f32) (main_arg2 : FVec F S512 .f32) (main_arg3 : FVec F S49408x512 .f32) : IVec S_ 1 :=
  let main_v0 : FVec F S16x8x768 .f32 := Host.absf main_arg0
  let main_cst : FVec F S_ .f32 := constant S_ .f32 0x7F800000#32
  let main_v1 : FVec F S16x8x768 .f32 := broadcastInDim S16x8x768 ![] bcast_S_S16x8x768 main_cst
  let main_v2 : IVec S16x8x768 1 := cmpf .olt main_v0 main_v1
  let main_c : IVec S_ 1 := constantI S_ 1 1#1
  let main_v3 : IVec S_ 1 := (fun x v => Host.reduce IntOp.andi x v reducesTo_S16x8x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S49408x512 .f32 := Host.absf main_arg3
  let main_cst_4 : FVec F S_ .f32 := constant S_ .f32 0x7F800000#32
  let main_v15 : FVec F S49408x512 .f32 := broadcastInDim S49408x512 ![] bcast_S_S49408x512 main_cst_4
  let main_v16 : IVec S49408x512 1 := cmpf .olt main_v14 main_v15
  fn_part1 (F := F) main_v13 main_v16
-- ==== Kernel.lean ====
abbrev S16x8x768 : Shape := ⟨3, ![16, 8, 768]⟩
abbrev S768x512 : Shape := ⟨2, ![768, 512]⟩
abbrev S512 : Shape := ⟨1, ![512]⟩
abbrev S49408x512 : Shape := ⟨2, ![49408, 512]⟩
abbrev S128x768 : Shape := ⟨2, ![128, 768]⟩
abbrev S1x512 : Shape := ⟨2, ![1, 512]⟩
abbrev S2x512 : Shape := ⟨2, ![2, 512]⟩
abbrev S256x512 : Shape := ⟨2, ![256, 512]⟩
abbrev S128x49408 : Shape := ⟨2, ![128, 49408]⟩
abbrev S128x512 : Shape := ⟨2, ![128, 512]⟩
abbrev S128x256 : Shape := ⟨2, ![128, 256]⟩
abbrev S128x1 : Shape := ⟨2, ![128, 1]⟩
abbrev S128 : Shape := ⟨1, ![128]⟩
abbrev S256 : Shape := ⟨1, ![256]⟩
abbrev S256x1 : Shape := ⟨2, ![256, 1]⟩
abbrev S1x256 : Shape := ⟨2, ![1, 256]⟩
abbrev S16x8x512 : Shape := ⟨3, ![16, 8, 512]⟩
abbrev S16x8x49408 : Shape := ⟨3, ![16, 8, 49408]⟩

abbrev nBuf : Space → Nat
  | .hbm => 11
  | .vmem => 15
  | .smem => 0
  | _ => 0

abbrev bufTy : (tb : Table) → Fin (tcTables nBuf tb) → BufTy
  | .hbm, ⟨0, _⟩ => ⟨S16x8x768, .f32⟩
  | .hbm, ⟨1, _⟩ => ⟨S768x512, .f32⟩
  | .hbm, ⟨2, _⟩ => ⟨S512, .f32⟩
  | .hbm, ⟨3, _⟩ => ⟨S49408x512, .f32⟩
  | .hbm, ⟨4, _⟩ => ⟨S128x768, .f32⟩
  | .hbm, ⟨5, _⟩ => ⟨S1x512, .f32⟩
  | .hbm, ⟨6, _⟩ => ⟨S2x512, .f32⟩
  | .hbm, ⟨7, _⟩ => ⟨S128x49408, .f32⟩
  | .hbm, ⟨8, _⟩ => ⟨S128x512, .f32⟩
  | .hbm, ⟨9, _⟩ => ⟨S16x8x512, .f32⟩
  | .hbm, ⟨10, _⟩ => ⟨S16x8x49408, .f32⟩
  | .local _ .vmem, ⟨0, _⟩ => ⟨S256x512, .f32⟩
  | .local _ .vmem, ⟨1, _⟩ => ⟨S256x512, .f32⟩
  | .local _ .vmem, ⟨2, _⟩ => ⟨S2x512, .f32⟩
  | .local _ .vmem, ⟨3, _⟩ => ⟨S128x768, .f32⟩
  | .local _ .vmem, ⟨4, _⟩ => ⟨S768x512, .f32⟩
  | .local _ .vmem, ⟨5, _⟩ => ⟨S1x512, .f32⟩
  | .local _ .vmem, ⟨6, _⟩ => ⟨S2x512, .f32⟩
  | .local _ .vmem, ⟨7, _⟩ => ⟨S256x512, .f32⟩
  | .local _ .vmem, ⟨8, _⟩ => ⟨S256x512, .f32⟩
  | .local _ .vmem, ⟨9, _⟩ => ⟨S128x256, .f32⟩
  | .local _ .vmem, ⟨10, _⟩ => ⟨S128x256, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x1, .f32⟩
  | _, _ => ⟨S16x8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem4_1 : DmaSem sig := 8
abbrev cc1_sem5_0 : DmaSem sig := 9
abbrev cc1_sem5_1 : DmaSem sig := 10
abbrev cc1_sem6_0 : DmaSem sig := 11

abbrev nD : Nat := 1
abbrev τ : Topo := Topo.v7x

variable {F : FTy → Type} [FloatOps F]

abbrev grid0 : Pipeline.Grid := ⟨1, ![193], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_2 : BitVec 32 := 0#32
  let v9 : BitVec 1 := Scalar.cmpi .ne v8 c0_i32_2
  v9

def k0_cond2 (i : grid0.Coords) : BitVec 1 :=
  let arg0 : BitVec 32 := BitVec.ofNat 32 (i 0).val
  let c0_i32_3 : BitVec 32 := 0#32
  let v10 : BitVec 1 := Scalar.cmpi .sgt arg0 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![193], ![false]⟩

def k1_cond2 (i : grid1.Coords) : BitVec 1 :=
  let arg0 : BitVec 32 := BitVec.ofNat 32 (i 0).val
  let c192_i32 : BitVec 32 := 192#32
  let v32 : BitVec 1 := Scalar.cmpi .eq arg0 c192_i32
  let v33 : BitVec 32 := Scalar.extui v32
  let c0_i32_19 : BitVec 32 := 0#32
  let v34 : BitVec 1 := Scalar.cmpi .ne v33 c0_i32_19
  v34

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S768x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  shapeCasts_S16x8x768_S128x768 : S16x8x768.ShapeCasts S128x768
  shapeCasts_S512_S1x512 : S512.ShapeCasts S1x512
  inb_S256x512_S256x512_0_0 : ∀ a, (![0, 0] : Fin 2 → Nat) a + S256x512.size a ≤ S256x512.size a
  h_S256x512 : 0 < S256x512.numel
  reduces_S256x512_S512 : S256x512.Reduces [0] S512
  concatenates_S1x512_S1x512_S2x512_d0 : Shape.Concatenates [S1x512, S1x512] S2x512 0
  inb_S2x512_S2x512_0_0 : ∀ a, (![0, 0] : Fin 2 → Nat) a + S2x512.size a ≤ S2x512.size a
  h_S2x512 : 0 < S2x512.numel
  shapeCasts_S2x512_S2x512 : S2x512.ShapeCasts S2x512
  slices_S2x512_o0_0_S1x512 : S2x512.Slices ![0, 0] S1x512
  slices_S2x512_o1_0_S1x512 : S2x512.Slices ![1, 0] S1x512
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S768x512_S768x512_0_0 : ∀ a, (![0, 0] : Fin 2 → Nat) a + S768x512.size a ≤ S768x512.size a
  h_S768x512 : 0 < S768x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  reduces_S128x512_S512 : S128x512.Reduces [0] S512
  reduces_S128x512_S128 : S128x512.Reduces [1] S128
  shapeCasts_S128_S128x1 : S128.ShapeCasts S128x1
  broadcasts_S128x1_S128x512 : S128x1.Broadcasts S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S256x512_S256 : S256x512.Reduces [1] S256
  shapeCasts_S256_S256x1 : S256.ShapeCasts S256x1
  transposes_S256x1_p1_0_S1x256 : S256x1.Transposes [1, 0] S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  reduces_S128x256_S128 : S128x256.Reduces [1] S128
  shapeCasts_S128x512_S16x8x512 : S128x512.ShapeCasts S16x8x512
  shapeCasts_S128x49408_S16x8x49408 : S128x49408.ShapeCasts S16x8x49408
  dot_S128x768_S768x512_S128x512_1_0_0_1_n_n_wf : DotDims.WF S128x768 S768x512 S128x512 [1] [0] [0] [1] [] []
  dot_S128x512_S256x512_S128x256_1_1_0_0_n_n_wf : DotDims.WF S128x512 S256x512 S128x256 [1] [1] [0] [0] [] []
  dot_S128x256_S256x512_S128x512_1_0_0_1_n_n_wf : DotDims.WF S128x256 S256x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S49408x512.size a
  hwx0_0 : ∀ i : grid0.Coords, EltTy.bits .f32 = 32 ∨ (Rect.block (s := S49408x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x512.size a ≤ S2x512.size a
  hwx0_1 : ∀ i : grid0.Coords, EltTy.bits .f32 = 32 ∨ (Rect.block (s := S2x512) S2x512.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x768.size a ≤ S128x768.size a
  hwx1_0 : ∀ i : grid1.Coords, EltTy.bits .f32 = 32 ∨ (Rect.block (s := S128x768) S128x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x512.size a ≤ S768x512.size a
  hwx1_1 : ∀ i : grid1.Coords, EltTy.bits .f32 = 32 ∨ (Rect.block (s := S768x512) S768x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x512.size a ≤ S2x512.size a
  hwx1_3 : ∀ i : grid1.Coords, EltTy.bits .f32 = 32 ∨ (Rect.block (s := S2x512) S2x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S49408x512.size a
  hwx1_4 : ∀ i : grid1.Coords, EltTy.bits .f32 = 32 ∨ (Rect.block (s := S49408x512) S256x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x49408.size a
  hwx1_5 : ∀ i : grid1.Coords, EltTy.bits .f32 = 32 ∨ (Rect.block (s := S128x49408) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x512.size a ≤ S128x512.size a
  hwx1_6 : ∀ i : grid1.Coords, EltTy.bits .f32 = 32 ∨ (Rect.block (s := S128x512) S128x512.size (cc1_transform_6 i) (hinb1_6 i)).WholeWords (EltTy.packing .f32)

variable [Facts₀]

def dot_S128x768_S768x512_S128x512_1_0_0_1_n_n : DotDims S128x768 S768x512 S128x512 where
  lhsContracting := [1]
  rhsContracting := [0]
  lhsNonContracting := [0]
  rhsNonContracting := [1]
  lhsBatch := []
  rhsBatch := []
  wf := dot_S128x768_S768x512_S128x512_1_0_0_1_n_n_wf
def dot_S128x512_S256x512_S128x256_1_1_0_0_n_n : DotDims S128x512 S256x512 S128x256 where
  lhsContracting := [1]
  rhsContracting := [1]
  lhsNonContracting := [0]
  rhsNonContracting := [0]
  lhsBatch := []
  rhsBatch := []
  wf := dot_S128x512_S256x512_S128x256_1_1_0_0_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf

abbrev win0_0 : Pipeline.Window sig grid0 :=
  Pipeline.Window.ofSpec (Memref.whole main_arg3) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_v0) S128x768.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S768x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S128x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S128x512.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S16x8x768 : Shape := ⟨3, ![16, 8, 768]⟩
abbrev S768x512 : Shape := ⟨2, ![768, 512]⟩
abbrev S512 : Shape := ⟨1, ![512]⟩
abbrev S49408x512 : Shape := ⟨2, ![49408, 512]⟩
abbrev S16x8x512 : Shape := ⟨3, ![16, 8, 512]⟩
abbrev S1x1x512 : Shape := ⟨3, ![1, 1, 512]⟩
abbrev S_ : Shape := ⟨0, ![]⟩
abbrev S1x512 : Shape := ⟨2, ![1, 512]⟩
abbrev S128x512 : Shape := ⟨2, ![128, 512]⟩
abbrev S16x8 : Shape := ⟨2, ![16, 8]⟩
abbrev S16x8x1 : Shape := ⟨3, ![16, 8, 1]⟩
abbrev S49408 : Shape := ⟨1, ![49408]⟩
abbrev S49408x1 : Shape := ⟨2, ![49408, 1]⟩
abbrev S16x8x49408 : Shape := ⟨3, ![16, 8, 49408]⟩

abbrev nBuf : Space → Nat
  | .hbm => 125
  | .vmem => 0
  | .smem => 0
  | _ => 0

abbrev bufTy : (tb : Table) → Fin (tcTables nBuf tb) → BufTy
  | .hbm, ⟨0, _⟩ => ⟨S16x8x768, .f32⟩
  | .hbm, ⟨1, _⟩ => ⟨S768x512, .f32⟩
  | .hbm, ⟨2, _⟩ => ⟨S512, .f32⟩
  | .hbm, ⟨3, _⟩ => ⟨S49408x512, .f32⟩
  | .hbm, ⟨4, _⟩ => ⟨S16x8x512, .f32⟩
  | .hbm, ⟨5, _⟩ => ⟨S1x1x512, .f32⟩
  | .hbm, ⟨6, _⟩ => ⟨S16x8x512, .f32⟩
  | .hbm, ⟨7, _⟩ => ⟨S16x8x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .i32⟩
  | .hbm, ⟨14, _⟩ => ⟨S_, .f32⟩
  | .hbm, ⟨15, _⟩ => ⟨S512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S49408x512, .f32⟩
  | .hbm, ⟨21, _⟩ => ⟨S49408x512, .f32⟩
  | .hbm, ⟨22, _⟩ => ⟨S49408x512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S128x512, .f32⟩
  | .hbm, ⟨38, _⟩ => ⟨S_, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S_, .i32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S1x512, .f32⟩
  | .hbm, ⟨49, _⟩ => ⟨S1x512, .f32⟩
  | .hbm, ⟨50, _⟩ => ⟨S128x512, .f32⟩
  | .hbm, ⟨51, _⟩ => ⟨S128x512, .f32⟩
  | .hbm, ⟨52, _⟩ => ⟨S128x512, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S512, .f32⟩
  | .hbm, ⟨65, _⟩ => ⟨S512, .f32⟩
  | .hbm, ⟨66, _⟩ => ⟨S1x512, .f32⟩
  | .hbm, ⟨67, _⟩ => ⟨S128x512, .f32⟩
  | .hbm, ⟨68, _⟩ => ⟨S128x512, .f32⟩
  | .hbm, ⟨69, _⟩ => ⟨S_, .f32⟩
  | .hbm, ⟨70, _⟩ => ⟨S512, .f32⟩
  | .hbm, ⟨71, _⟩ => ⟨S512, .f32⟩
  | .hbm, ⟨72, _⟩ => ⟨S512, .f32⟩
  | .hbm, ⟨73, _⟩ => ⟨S1x512, .f32⟩
  | .hbm, ⟨74, _⟩ => ⟨S128x512, .f32⟩
  | .hbm, ⟨75, _⟩ => ⟨S128x512, .f32⟩
  | .hbm, ⟨76, _⟩ => ⟨S_, .f32⟩
  | .hbm, ⟨77, _⟩ => ⟨S512, .f32⟩
  | .hbm, ⟨78, _⟩ => ⟨S512, .f32⟩
  | .hbm, ⟨79, _⟩ => ⟨S1x512, .f32⟩
  | .hbm, ⟨80, _⟩ => ⟨S128x512, .f32⟩
  | .hbm, ⟨81, _⟩ => ⟨S128x512, .f32⟩
  | .hbm, ⟨82, _⟩ => ⟨S1x512, .f32⟩
  | .hbm, ⟨83, _⟩ => ⟨S128x512, .f32⟩
  | .hbm, ⟨84, _⟩ => ⟨S128x512, .f32⟩
  | .hbm, ⟨85, _⟩ => ⟨S16x8x512, .f32⟩
  | .hbm, ⟨86, _⟩ => ⟨S16x8x512, .f32⟩
  | .hbm, ⟨87, _⟩ => ⟨S_, .f32⟩
  | .hbm, ⟨88, _⟩ => ⟨S16x8, .f32⟩
  | .hbm, ⟨89, _⟩ => ⟨S16x8x1, .f32⟩
  | .hbm, ⟨90, _⟩ => ⟨S16x8x1, .f32⟩
  | .hbm, ⟨91, _⟩ => ⟨S_, .f32⟩
  | .hbm, ⟨92, _⟩ => ⟨S16x8x1, .f32⟩
  | .hbm, ⟨93, _⟩ => ⟨S16x8x1, .f32⟩
  | .hbm, ⟨94, _⟩ => ⟨S16x8x512, .f32⟩
  | .hbm, ⟨95, _⟩ => ⟨S16x8x512, .f32⟩
  | .hbm, ⟨96, _⟩ => ⟨S49408x512, .f32⟩
  | .hbm, ⟨97, _⟩ => ⟨S_, .f32⟩
  | .hbm, ⟨98, _⟩ => ⟨S49408, .f32⟩
  | .hbm, ⟨99, _⟩ => ⟨S49408x1, .f32⟩
  | .hbm, ⟨100, _⟩ => ⟨S49408x1, .f32⟩
  | .hbm, ⟨101, _⟩ => ⟨S_, .f32⟩
  | .hbm, ⟨102, _⟩ => ⟨S49408x1, .f32⟩
  | .hbm, ⟨103, _⟩ => ⟨S49408x1, .f32⟩
  | .hbm, ⟨104, _⟩ => ⟨S49408x512, .f32⟩
  | .hbm, ⟨105, _⟩ => ⟨S49408x512, .f32⟩
  | .hbm, ⟨106, _⟩ => ⟨S16x8x49408, .f32⟩
  | .hbm, ⟨107, _⟩ => ⟨S_, .f32⟩
  | .hbm, ⟨108, _⟩ => ⟨S16x8x49408, .f32⟩
  | .hbm, ⟨109, _⟩ => ⟨S16x8x49408, .f32⟩
  | .hbm, ⟨110, _⟩ => ⟨S_, .f32⟩
  | .hbm, ⟨111, _⟩ => ⟨S16x8, .f32⟩
  | .hbm, ⟨112, _⟩ => ⟨S_, .f32⟩
  | .hbm, ⟨113, _⟩ => ⟨S16x8, .f32⟩
  | .hbm, ⟨114, _⟩ => ⟨S16x8, .f32⟩
  | .hbm, ⟨115, _⟩ => ⟨S16x8x1, .f32⟩
  | .hbm, ⟨116, _⟩ => ⟨S16x8x49408, .f32⟩
  | .hbm, ⟨117, _⟩ => ⟨S16x8x49408, .f32⟩
  | .hbm, ⟨118, _⟩ => ⟨S16x8x49408, .f32⟩
  | .hbm, ⟨119, _⟩ => ⟨S_, .f32⟩
  | .hbm, ⟨120, _⟩ => ⟨S16x8, .f32⟩
  | .hbm, ⟨121, _⟩ => ⟨S16x8x1, .f32⟩
  | .hbm, ⟨122, _⟩ => ⟨S16x8x49408, .f32⟩
  | .hbm, ⟨123, _⟩ => ⟨S16x8x49408, .f32⟩
  | .hbm, ⟨124, _⟩ => ⟨S16x8x512, .f32⟩
  | _, _ => ⟨S16x8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_cst_0 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_cst_1 : Ref sig .tc := ⟨.hbm, 24, rfl⟩
abbrev main_call0_call0_v8 : Ref sig .tc := ⟨.hbm, 25, rfl⟩
abbrev main_call0_call0_cst_2 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_cst_3 : Ref sig .tc := ⟨.hbm, 30, rfl⟩
abbrev main_call0_call0_v12 : Ref sig .tc := ⟨.hbm, 31, rfl⟩
abbrev main_call0_call0_cst_4 : Ref sig .tc := ⟨.hbm, 32, rfl⟩
abbrev main_call0_call0_call0_v0 : Ref sig .tc := ⟨.hbm, 33, rfl⟩
abbrev main_call0_call0_call0_v1 : Ref sig .tc := ⟨.hbm, 34, rfl⟩
abbrev main_call0_v0 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_cst_2 : Ref sig .tc := ⟨.hbm, 40, rfl⟩
abbrev main_v10 : Ref sig .tc := ⟨.hbm, 41, rfl⟩
abbrev main_v11 : Ref sig .tc := ⟨.hbm, 42, rfl⟩
abbrev main_c_3 : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_cst_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_cst_2 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_cst_3 : Ref sig .tc := ⟨.hbm, 60, rfl⟩
abbrev main_call1_v12 : Ref sig .tc := ⟨.hbm, 61, rfl⟩
abbrev main_call1_cst_4 : Ref sig .tc := ⟨.hbm, 62, rfl⟩
abbrev main_call1_call0_v0 : Ref sig .tc := ⟨.hbm, 63, rfl⟩
abbrev main_call1_call0_v1 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_cst_4 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_cst_5 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_call2_v0 : Ref sig .tc := ⟨.hbm, 86, rfl⟩
abbrev main_call2_cst : Ref sig .tc := ⟨.hbm, 87, rfl⟩
abbrev main_call2_v1 : Ref sig .tc := ⟨.hbm, 88, rfl⟩
abbrev main_call2_v2 : Ref sig .tc := ⟨.hbm, 89, rfl⟩
abbrev main_v31 : Ref sig .tc := ⟨.hbm, 90, rfl⟩
abbrev main_cst_6 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_call3_v0 : Ref sig .tc := ⟨.hbm, 96, rfl⟩
abbrev main_call3_cst : Ref sig .tc := ⟨.hbm, 97, rfl⟩
abbrev main_call3_v1 : Ref sig .tc := ⟨.hbm, 98, rfl⟩
abbrev main_call3_v2 : Ref sig .tc := ⟨.hbm, 99, rfl⟩
abbrev main_v36 : Ref sig .tc := ⟨.hbm, 100, rfl⟩
abbrev main_cst_7 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_8 : Ref sig .tc := ⟨.hbm, 107, rfl⟩
abbrev main_v42 : Ref sig .tc := ⟨.hbm, 108, rfl⟩
abbrev main_v43 : Ref sig .tc := ⟨.hbm, 109, rfl⟩
abbrev main_cst_9 : Ref sig .tc := ⟨.hbm, 110, rfl⟩
abbrev main_v44 : Ref sig .tc := ⟨.hbm, 111, rfl⟩
abbrev main_cst_10 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_cst_11 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x8x512_0_1_2 : S1x1x512.BroadcastsInDim S16x8x512 (![0, 1, 2] : Fin 3 → Fin S16x8x512.rank)
  reducesTo_S49408x512_S512_d0 : S49408x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S49408x512_0_1 : S1x512.BroadcastsInDim S49408x512 (![0, 1] : Fin 2 → Fin S49408x512.rank)
  shapeCasts_S16x8x512_S128x512 : S16x8x512.ShapeCasts S128x512
  reducesTo_S128x512_S512_d0 : S128x512.ReducesTo [0] S512
  bcast_S1x512_S128x512_0_1 : S1x512.BroadcastsInDim S128x512 (![0, 1] : Fin 2 → Fin S128x512.rank)
  shapeCasts_S128x512_S16x8x512 : S128x512.ShapeCasts S16x8x512
  reducesTo_S16x8x512_S16x8_d2 : S16x8x512.ReducesTo [2] S16x8
  bcast_S16x8_S16x8x1_0_1 : S16x8.BroadcastsInDim S16x8x1 (![0, 1] : Fin 2 → Fin S16x8x1.rank)
  bcast_S_S16x8x1 : S_.BroadcastsInDim S16x8x1 (![] : Fin 0 → Fin S16x8x1.rank)
  bcast_S16x8x1_S16x8x512_0_1_2 : S16x8x1.BroadcastsInDim S16x8x512 (![0, 1, 2] : Fin 3 → Fin S16x8x512.rank)
  reducesTo_S49408x512_S49408_d1 : S49408x512.ReducesTo [1] S49408
  bcast_S49408_S49408x1_0 : S49408.BroadcastsInDim S49408x1 (![0] : Fin 1 → Fin S49408x1.rank)
  bcast_S_S49408x1 : S_.BroadcastsInDim S49408x1 (![] : Fin 0 → Fin S49408x1.rank)
  bcast_S49408x1_S49408x512_0_1 : S49408x1.BroadcastsInDim S49408x512 (![0, 1] : Fin 2 → Fin S49408x512.rank)
  bcast_S_S16x8x49408 : S_.BroadcastsInDim S16x8x49408 (![] : Fin 0 → Fin S16x8x49408.rank)
  reducesTo_S16x8x49408_S16x8_d2 : S16x8x49408.ReducesTo [2] S16x8
  bcast_S_S16x8 : S_.BroadcastsInDim S16x8 (![] : Fin 0 → Fin S16x8.rank)
  bcast_S16x8x1_S16x8x49408_0_1_2 : S16x8x1.BroadcastsInDim S16x8x49408 (![0, 1, 2] : Fin 3 → Fin S16x8x49408.rank)
  dot_S16x8x768_S768x512_S16x8x512_2_0_01_1_n_n_wf : DotDims.WF S16x8x768 S768x512 S16x8x512 [2] [0] [0, 1] [1] [] []
  dot_S16x8x512_S49408x512_S16x8x49408_2_1_01_0_n_n_wf : DotDims.WF S16x8x512 S49408x512 S16x8x49408 [2] [1] [0, 1] [0] [] []
  dot_S16x8x49408_S49408x512_S16x8x512_2_0_01_1_n_n_wf : DotDims.WF S16x8x49408 S49408x512 S16x8x512 [2] [0] [0, 1] [1] [] []

variable [Facts₀]

def dot_S16x8x768_S768x512_S16x8x512_2_0_01_1_n_n : DotDims S16x8x768 S768x512 S16x8x512 where
  lhsContracting := [2]
  rhsContracting := [0]
  lhsNonContracting := [0, 1]
  rhsNonContracting := [1]
  lhsBatch := []
  rhsBatch := []
  wf := dot_S16x8x768_S768x512_S16x8x512_2_0_01_1_n_n_wf
def dot_S16x8x512_S49408x512_S16x8x49408_2_1_01_0_n_n : DotDims S16x8x512 S49408x512 S16x8x49408 where
  lhsContracting := [2]
  rhsContracting := [1]
  lhsNonContracting := [0, 1]
  rhsNonContracting := [0]
  lhsBatch := []
  rhsBatch := []
  wf := dot_S16x8x512_S49408x512_S16x8x49408_2_1_01_0_n_n_wf
def dot_S16x8x49408_S49408x512_S16x8x512_2_0_01_1_n_n : DotDims S16x8x49408 S49408x512 S16x8x512 where
  lhsContracting := [2]
  rhsContracting := [0]
  lhsNonContracting := [0, 1]
  rhsNonContracting := [1]
  lhsBatch := []
  rhsBatch := []
  wf := dot_S16x8x49408_S49408x512_S16x8x512_2_0_01_1_n_n_wf

class Facts : Prop extends Facts₀ where

variable [Facts]
-- ==== Proof.StatsBodyB.lean ====
import proofs.«131505_g24936580120849_cont_9to1_1340_2_alg».proof.Proof.Gen.Kernel.Launch
import proofs.«131505_g24936580120849_cont_9to1_1340_2_alg».proof.Proof.Gen.Kernel.Skeleton
import proofs.«131505_g24936580120849_cont_9to1_1340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The column-statistics region: what the 2x512 accumulator holds after each grid point

  The body sums a 256-row tile of the codebook column by column (row 0 of its result) and sums the squares (row 1).
  At the first grid point it stores that pair; at every later point it adds the pair to what the accumulator holds.
  The accumulator's block never moves, so it is written back once, after the last point. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input tile's staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first branch is taken at the first point only, the second at every other point. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
/-- No window is idle at any coordinates. -/
theorem live0 : ∀ (w : Fin cfg0.W) (i : grid0.Coords), cfg0.idle w i = false := by decide +kernel

theorem hz2 : (![0, 0] : Fin 2 → Nat) = fun _ => 0 := by funext a; fin_cases a <;> rfl

/-- The accumulator after point `n`: the first tile's pair, then each later tile's pair added. -/
def acc0 (c : Dev nD) : (n : ℕ) → n < cfg0.N → Vec F S2x512 .f32
  | 0, hn => k0_pay1 (iblk0 V c 0 ⟨0, hn⟩)
  | n + 1, hn => k0_pay2 (iblk0 V c 0 ⟨n + 1, hn⟩) (acc0 c n (Nat.lt_of_succ_lt hn))

theorem acc0_zero (c : Dev nD) (t : Fin cfg0.N) (h : t.val = 0) : acc0 V c t.val t.isLt = k0_pay1 (iblk0 V c 0 t) := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = k0_pay2 (iblk0 V c 0 t) (acc0 V c (t.val - 1) (Nat.lt_of_le_of_lt (Nat.sub_le _ _) t.isLt)) := by
  obtain ⟨n, hn⟩ := t
  cases n with
  | zero => exact absurd rfl h
  | succ n => rfl

set_option maxHeartbeats 1000000 in
/-- The body at the first point: the tile's pair is stored whatever the accumulator held. -/
theorem sound_first (c : Dev nD) (E : Set ℕ) (i : grid0.Coords) (arg1 : Memref sig .tc .vmem S256x512 .f32) (harg1 : arg1.IsWhole)
    (arg2 : Memref sig .tc .vmem S2x512 .f32) (harg2 : arg2.IsWhole) (hc1 : k0_cond1 i = 1#1) (hc2 : ¬ k0_cond2 i = 1#1)
    (x0 : Vec F S256x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__stats_body i arg1 harg1 arg2 harg2) K := by
  simp only [cc0__stats_body_eq_skeleton]; unfold cc0__stats_body_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  rw [View.read_writes_eq_canon _ _ _ (View.cover_of_tiled _ S2x512.size (by rfl)), View.canon_unit_zero hz2]
  simp only [View.readAt_eq_ld, View.ld_unit_zero (S := S256x512) hz2]

set_option maxHeartbeats 1000000 in
/-- The body at a later point: the tile's pair is added to what the accumulator held. -/
theorem sound_later (c : Dev nD) (E : Set ℕ) (i : grid0.Coords) (arg1 : Memref sig .tc .vmem S256x512 .f32) (harg1 : arg1.IsWhole)
    (arg2 : Memref sig .tc .vmem S2x512 .f32) (harg2 : arg2.IsWhole) (hc1 : ¬ k0_cond1 i = 1#1) (hc2 : k0_cond2 i = 1#1)
    (x0 : Vec F S256x512 .f32) (xs : Vec F S2x512 .f32) (K : PUnit → sProp 𝕄) :
    iprop(owns (c : Thread nD τ) arg1 fullShare x0 ∗ owns (c : Thread nD τ) arg2 fullShare xs
        ∗ (iprop(owns (c : Thread nD τ) arg1 fullShare x0 ∗ owns (c : Thread nD τ) arg2 fullShare (k0_pay2 x0 xs)) -∗ K ⟨⟩))
      ⊢ wp frame (wpE (defs₀ (F := F)) Variants.none c none) E (cc0__stats_body i arg1 harg1 arg2 harg2) K := by
  simp only [cc0__stats_body_eq_skeleton]; unfold cc0__stats_body_skel
  unfold owns
  iintro ⟨⟨%f0, %hf0, H0⟩, ⟨%f1, %hf1, H1⟩, Hk⟩
  subst hf0; subst hf1
  sl_exec (disch := first | exact hc1 | exact hc2)
  sl_step
  iapply Hk
  isplitl [H0]
  · iexists f0; isplitr; · ipureintro; rfl
    iexact H0
  iexists _; isplitr
  swap; · iexact H1
  ipureintro
  rw [View.read_writes_eq_canon _ _ _ (View.cover_of_tiled _ S2x512.size (by rfl)), View.canon_unit_zero hz2]
  simp only [View.readAt_eq_ld, View.ld_unit_zero (S := S256x512) hz2, View.ld_unit_zero (S := S2x512) hz2]

end

end Cert.Kernel.Stats

end
-- ==== Proof.StatsDatB.lean ====
import proofs.«131505_g24936580120849_cont_9to1_1340_2_alg».proof.Proof.StatsBodyB

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The column-statistics region: the proof data and the body obligation -/

section
variable (V : (c : Dev nD) → (b : Ref sig .tc) → Buf (Elt F) ((c : Thread nD τ).loc b))

/-- The proof data: the arrays as the region finds them; after the body the tile's buffer at the tile, the
    accumulator's at the running sums; nothing owed, full shares, the scoped rest untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- At the first point the accumulator's buffer is fresh. -/
theorem before0_1_first (c : Dev nD) (t : Fin cfg0.N) (h0 : t.val = 0) (d) : (dat0 V c).before 1 t d = d :=
  (dat0 V c).before_out_reset 1 rfl t (.inl h0) d

/-- At a later point it holds the running sums the point before left: the block is not written back in between. -/
theorem before0_1_later (c : Dev nD) (t : Fin cfg0.N) (ht : t.val ≠ 0) (d) :
    (dat0 V c).before 1 t d = acc0 V c (t.val - 1) (Nat.lt_of_le_of_lt (Nat.sub_le _ _) t.isLt) := by
  have hN : t.val < 193 := lt_of_lt_of_eq t.isLt N_0
  have hfl : (cfg0.win 1).flush ⟨t.val - 1, Nat.lt_of_le_of_lt (Nat.sub_le _ _) t.isLt⟩ = false := by
    apply Bool.eq_false_iff.mpr
    intro h
    have := (flush0_1 ⟨t.val - 1, Nat.lt_of_le_of_lt (Nat.sub_le _ _) t.isLt⟩).mp h
    dsimp only at this
    omega
  exact ((dat0 V c).before_out_kept 1 rfl t ht hfl (live0 1) (fun _ _ => rfl) d).trans (after0_1 V c _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

/-- The body at any point, by the case the point is in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).leavesExact 0 t = owns (c : Thread nD τ) (st0_0 t) fullShare ((dat0 V c).after 0 t) from by
      unfold Dat.leavesExact; rw [live0 0 (grid0.coords t)],
    show (dat0 V c).leavesExact 1 t = owns (c : Thread nD τ) (st0_1 t) fullShare ((dat0 V c).after 1 t) from by
      unfold Dat.leavesExact; rw [live0 1 (grid0.coords t)]]
  rw [show (dat0 V c).Φ t.succ = (dat0 V c).Φ t.castSucc from rfl,
    show (dat0 V c).owesAt () t.succ = (dat0 V c).owesAt () t.castSucc from rfl,
    after0_0, after0_1]
  by_cases h0 : t.val = 0
  · simp only [before0_1_first V c t h0]
    rw [acc0_zero V c t h0]
    iintro ⟨HΦ, Ho, ⟨%d0, H0⟩, ⟨%d1, H1⟩⟩
    iapply (sound_first c Set.univ _ _ _ _ _ ((hcond1 t).mpr h0) (fun h => (hcond2 t).mp h h0) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · simp only [before0_1_later V c t h0]
    rw [acc0_pos V c t h0]
    iintro ⟨HΦ, Ho, ⟨%d0, H0⟩, ⟨%d1, H1⟩⟩
    iapply (sound_later c Set.univ _ _ _ _ _ (fun h => h0 ((hcond1 t).mp h)) ((hcond2 t).mpr h0) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Stats

end
-- ==== Proof.FlashBodyB.lean ====
import proofs.«131505_g24936580120849_cont_9to1_1340_2_alg».proof.Proof.Gen.Kernel.Launch
import proofs.«131505_g24936580120849_cont_9to1_1340_2_alg».proof.Proof.Gen.Kernel.Skeleton
import proofs.«131505_g24936580120849_cont_9to1_1340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The scoring region: what one run of the body leaves, case by case

  At the first grid point the body first computes the row-normalised keyword features from the audio block, the
  projection, the bias and the codebook statistics, stores them in its first scratch buffer and zeroes the two
  accumulators. At every point it then scores the features against the codebook tile (stored into the score block),
  adds the tile's exponentiated scores to the denominator accumulator and their product with the tile to the numerator
  accumulator. At the last point it finally stores numerator over denominator into the keyword block. -/

/-- The prologue's branch condition (taken at the first grid point only). -/
abbrev condP (i : grid1.Coords) : Prop := (Scalar.cmpi .ne (Scalar.extui (Scalar.cmpi .eq (BitVec.ofNat 32 (i 0).val) 0#32)) 0#32) = 1#1
/-- The epilogue's branch condition (taken at the last grid point only). -/
abbrev condE (i : grid1.Coords) : Prop := k1_cond2 i = 1#1

theorem hz2 : (![0, 0] : Fin 2 → Nat) = fun _ => 0 := by funext a; fin_cases a <;> rfl

/-- A list of stores whose last one is to the whole buffer covers the buffer. -/
theorem cover_head {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self .., by show y ∈ (Rect.whole S).set; rw [Rect.set_whole]; exact Finset.mem_univ y⟩

/-- The row-normalised keyword features, from the audio block, the projection, the bias and the statistics. -/
def fnOf (x1 : Vec F S128x768 .f32) (x2 : Vec F S768x512 .f32) (x3 : Vec F S1x512 .f32) (x4 : Vec F S2x512 .f32) : FVec F S128x512 .f32 :=
  k1_pay7 (k1_pay3 x4) (k1_pay4 x4) (k1_pay5 x1 x2 x3) (k1_pay6 (F := F))

set_option maxHeartbeats 4000000 in
/-- A middle point: scores stored, both accumulators advanced, everything else as found. -/
theorem sound_mid (c : Dev nD) (E : Set ℕ) (i : grid1.Coords) (arg1 : Memref sig .tc .vmem S128x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S2x512 .f32) (harg4 : arg4.IsWhole) (arg5 : Memref sig .tc .vmem S256x512 .f32) (harg5 : arg5.IsWhole) (arg6 : Memref sig .tc .vmem S128x256 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x1 .f32) (harg10 : arg10.IsWhole)
    (hP : ¬ condP i) (hE : ¬ condE i) (x1 : Vec F S128x768 .f32) (x2 : Vec F S768x512 .f32) (x3 : Vec F S1x512 .f32) (x4 : Vec F S2x512 .f32) (x5 : Vec F S256x512 .f32)
    (x7 : Vec F S128x512 .f32) (s8 : Vec F S128x512 .f32) (s9 : Vec F S128x512 .f32) (s10 : Vec F S128x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ owns (c : Thread nD τ) arg7 fullShare x7
        ∗ owns (c : Thread nD τ) arg8 fullShare s8
        ∗ owns (c : Thread nD τ) arg9 fullShare s9
        ∗ owns (c : Thread nD τ) arg10 fullShare s10
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare (k1_pay10 x5 s8)
        ∗ owns (c : Thread nD τ) arg7 fullShare x7
        ∗ owns (c : Thread nD τ) arg8 fullShare s8
        ∗ owns (c : Thread nD τ) arg9 fullShare (k1_pay13 x5 s8 s9)
        ∗ owns (c : Thread nD τ) arg10 fullShare (k1_pay12 x5 s8 s10)) -∗ K ⟨⟩))
      ⊢ wp frame (wpE (defs₀ (F := F)) Variants.none c none) E (cc1__flash_body i arg1 harg1 arg2 harg2 arg3 harg3 arg4 harg4 arg5 harg5 arg6 harg6 arg7 harg7 arg8 harg8 arg9 harg9 arg10 harg10) K := by
  simp only [cc1__flash_body_eq_skeleton]; unfold cc1__flash_body_skel
  simp only [k1_part2_eq_skeleton, k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1; subst hf2; subst hf3; subst hf4; subst hf5; subst hf7; subst hf8; subst hf9; subst hf10
  sl_exec (disch := first | exact hP | exact hE)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl
  · iexists _; isplitr
    swap; · iexact H10
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl

set_option maxHeartbeats 4000000 in
/-- The first point: the features computed and stored, the accumulators started from zero, scores stored. -/
theorem sound_first (c : Dev nD) (E : Set ℕ) (i : grid1.Coords) (arg1 : Memref sig .tc .vmem S128x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S2x512 .f32) (harg4 : arg4.IsWhole) (arg5 : Memref sig .tc .vmem S256x512 .f32) (harg5 : arg5.IsWhole) (arg6 : Memref sig .tc .vmem S128x256 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x1 .f32) (harg10 : arg10.IsWhole)
    (hP : condP i) (hE : ¬ condE i) (x1 : Vec F S128x768 .f32) (x2 : Vec F S768x512 .f32) (x3 : Vec F S1x512 .f32) (x4 : Vec F S2x512 .f32) (x5 : Vec F S256x512 .f32) (x7 : Vec F S128x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ owns (c : Thread nD τ) arg7 fullShare x7
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare (k1_pay10 x5 (fnOf x1 x2 x3 x4))
        ∗ owns (c : Thread nD τ) arg7 fullShare x7
        ∗ owns (c : Thread nD τ) arg8 fullShare (fnOf x1 x2 x3 x4)
        ∗ owns (c : Thread nD τ) arg9 fullShare (k1_pay13 x5 (fnOf x1 x2 x3 x4) (k1_pay8 (F := F)))
        ∗ owns (c : Thread nD τ) arg10 fullShare (k1_pay12 x5 (fnOf x1 x2 x3 x4) (k1_pay9 (F := F)))) -∗ K ⟨⟩))
      ⊢ wp frame (wpE (defs₀ (F := F)) Variants.none c none) E (cc1__flash_body i arg1 harg1 arg2 harg2 arg3 harg3 arg4 harg4 arg5 harg5 arg6 harg6 arg7 harg7 arg8 harg8 arg9 harg9 arg10 harg10) K := by
  simp only [cc1__flash_body_eq_skeleton]; unfold cc1__flash_body_skel
  simp only [k1_part2_eq_skeleton, k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, Hk⟩
  subst hf1; subst hf2; subst hf3; subst hf4; subst hf5; subst hf7
  sl_exec (disch := first | exact hP | exact hE)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2, fnOf]
    try rfl
  isplitl [H7]
  · iexists f7; isplitr; · ipureintro; rfl
    iexact H7
  isplitl [H8]
  · iexists _; isplitr
    swap; · iexact H8
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2, fnOf]
    try rfl
  isplitl [H9]
  · iexists _; isplitr
    swap; · iexact H9
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2, fnOf]
    try rfl
  · iexists _; isplitr
    swap; · iexact H10
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2, fnOf]
    try rfl

set_option maxHeartbeats 4000000 in
/-- The last point: as a middle point, then numerator over denominator stored into the keyword block. -/
theorem sound_last (c : Dev nD) (E : Set ℕ) (i : grid1.Coords) (arg1 : Memref sig .tc .vmem S128x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S2x512 .f32) (harg4 : arg4.IsWhole) (arg5 : Memref sig .tc .vmem S256x512 .f32) (harg5 : arg5.IsWhole) (arg6 : Memref sig .tc .vmem S128x256 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x1 .f32) (harg10 : arg10.IsWhole)
    (hP : ¬ condP i) (hE : condE i) (x1 : Vec F S128x768 .f32) (x2 : Vec F S768x512 .f32) (x3 : Vec F S1x512 .f32) (x4 : Vec F S2x512 .f32) (x5 : Vec F S256x512 .f32)
    (s8 : Vec F S128x512 .f32) (s9 : Vec F S128x512 .f32) (s10 : Vec F S128x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ (∃ d, owns (c : Thread nD τ) arg7 fullShare d)
        ∗ owns (c : Thread nD τ) arg8 fullShare s8
        ∗ owns (c : Thread nD τ) arg9 fullShare s9
        ∗ owns (c : Thread nD τ) arg10 fullShare s10
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare (k1_pay10 x5 s8)
        ∗ owns (c : Thread nD τ) arg7 fullShare (k1_pay1 (k1_pay13 x5 s8 s9) (k1_pay12 x5 s8 s10))
        ∗ owns (c : Thread nD τ) arg8 fullShare s8
        ∗ owns (c : Thread nD τ) arg9 fullShare (k1_pay13 x5 s8 s9)
        ∗ owns (c : Thread nD τ) arg10 fullShare (k1_pay12 x5 s8 s10)) -∗ K ⟨⟩))
      ⊢ wp frame (wpE (defs₀ (F := F)) Variants.none c none) E (cc1__flash_body i arg1 harg1 arg2 harg2 arg3 harg3 arg4 harg4 arg5 harg5 arg6 harg6 arg7 harg7 arg8 harg8 arg9 harg9 arg10 harg10) K := by
  simp only [cc1__flash_body_eq_skeleton]; unfold cc1__flash_body_skel
  simp only [k1_part2_eq_skeleton, k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  subst hf1; subst hf2; subst hf3; subst hf4; subst hf5; subst hf8; subst hf9; subst hf10
  sl_exec (disch := first | exact hP | exact hE)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl
  isplitl [H7]
  · iexists _; isplitr
    swap; · iexact H7
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl
  isplitl [H8]
  · iexists f8; isplitr; · ipureintro; rfl
    iexact H8
  isplitl [H9]
  · iexists _; isplitr
    swap; · iexact H9
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl
  · iexists _; isplitr
    swap; · iexact H10
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl

end Cert.Kernel.Flash

end
-- ==== Proof.FlashDatB.lean ====
import proofs.«131505_g24936580120849_cont_9to1_1340_2_alg».proof.Proof.FlashBodyB

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The scoring region: the proof data and the body obligation

  Between grid points the three scratch buffers hold the row-normalised features (fixed after the first point) and the
  two running sums; the score block is written back after every point, the keyword block after the last point only. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem hcondP : ∀ t : Fin cfg1.N, condP (grid1.coords t) ↔ t.val = 0 :=
  (by decide +kernel : ∀ t : Fin grid1.N, condP (grid1.coords t) ↔ t.val = 0)
theorem hcondE : ∀ t : Fin cfg1.N, condE (grid1.coords t) ↔ t.val = 192 :=
  (by decide +kernel : ∀ t : Fin grid1.N, condE (grid1.coords t) ↔ t.val = 192)
/-- The keyword block is idle, and not written back, at every point but the last. -/
theorem idle6 : ∀ t : Fin cfg1.N, ¬ condE (grid1.coords t) → cfg1.idle 6 (grid1.coords t) = true := by decide +kernel
theorem live6 : ∀ t : Fin cfg1.N, condE (grid1.coords t) → cfg1.idle 6 (grid1.coords t) = false := by decide +kernel
theorem noFlush6 : ∀ t : Fin cfg1.N, ¬ condE (grid1.coords t) → (cfg1.win 6).flush t = false := by decide +kernel

theorem N_pos : 0 < cfg1.N := by decide

/-- The row-normalised keyword features, computed at the first point from the four constant blocks. -/
def FN (c : Dev nD) : FVec F S128x512 .f32 :=
  fnOf (iblk1 V c 0 ⟨0, N_pos⟩) (iblk1 V c 1 ⟨0, N_pos⟩) (iblk1 V c 2 ⟨0, N_pos⟩) (iblk1 V c 3 ⟨0, N_pos⟩)

/-- The numerator and denominator accumulators after point `n`. -/
def accs (c : Dev nD) : (n : ℕ) → n < cfg1.N → FVec F S128x512 .f32 × FVec F S128x1 .f32
  | 0, hn => (k1_pay13 (iblk1 V c 4 ⟨0, hn⟩) (FN V c) (k1_pay8 (F := F)), k1_pay12 (iblk1 V c 4 ⟨0, hn⟩) (FN V c) (k1_pay9 (F := F)))
  | n + 1, hn => (k1_pay13 (iblk1 V c 4 ⟨n + 1, hn⟩) (FN V c) (accs c n (Nat.lt_of_succ_lt hn)).1,
      k1_pay12 (iblk1 V c 4 ⟨n + 1, hn⟩) (FN V c) (accs c n (Nat.lt_of_succ_lt hn)).2)

theorem accs_zero (c : Dev nD) (t : Fin cfg1.N) (h : t.val = 0) :
    accs V c t.val t.isLt = (k1_pay13 (iblk1 V c 4 t) (FN V c) (k1_pay8 (F := F)), k1_pay12 (iblk1 V c 4 t) (FN V c) (k1_pay9 (F := F))) := by
  obtain ⟨n, hn⟩ := t
  cases n with
  | zero => rfl
  | succ n => exact absurd h (Nat.succ_ne_zero n)

theorem accs_pos (c : Dev nD) (t : Fin cfg1.N) (h : t.val ≠ 0) :
    accs V c t.val t.isLt = (k1_pay13 (iblk1 V c 4 t) (FN V c) (accs V c (t.val - 1) (Nat.lt_of_le_of_lt (Nat.sub_le _ _) t.isLt)).1,
      k1_pay12 (iblk1 V c 4 t) (FN V c) (accs V c (t.val - 1) (Nat.lt_of_le_of_lt (Nat.sub_le _ _) t.isLt)).2) := by
  obtain ⟨n, hn⟩ := t
  cases n with
  | zero => exact absurd rfl h
  | succ n => rfl

abbrev scM0 : Memref sig .tc .vmem S128x512 .f32 := Memref.whole cc1_scratch0
abbrev scM1 : Memref sig .tc .vmem S128x512 .f32 := Memref.whole cc1_scratch1
abbrev scM2 : Memref sig .tc .vmem S128x1 .f32 := Memref.whole cc1_scratch2

/-- The other region's staging buffers, each whole at some contents. -/
def rest3 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f))

/-- The class invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

/-- The region invariant before position `n`: before the first point the class's; afterwards the scratch buffers at the
    features and at the accumulators the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM0 fullShare (FN V c) ∗ owns (c : Thread nD τ) scM1 fullShare (accs V c n hn).1 ∗ owns (c : Thread nD τ) scM2 fullShare (accs V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM0 fullShare (FN V c) ∗ owns (c : Thread nD τ) scM1 fullShare (accs V c n hn).1 ∗ owns (c : Thread nD τ) scM2 fullShare (accs V c n hn).2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM0 fullShare (FN V c) ∗ owns (c : Thread nD τ) scM1 fullShare (accs V c (n - 1) (by omega)).1 ∗ owns (c : Thread nD τ) scM2 fullShare (accs V c (n - 1) (by omega)).2) ∗ (∃ r, prngReg c r)) := by
  cases n with
  | zero => exact absurd rfl hz
  | succ n => rfl

/-- The proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay10 (iblk1 V c 4 t) (FN V c)
    | ⟨6, _⟩ => k1_pay1 (accs V c t.val t.isLt).1 (accs V c t.val t.isLt).2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay10 (iblk1 V c 4 t) (FN V c) := by dsimp only [dat1]
theorem after1_6 (c : Dev nD) (t : Fin cfg1.N) : (dat1 V c).after 6 t = k1_pay1 (accs V c t.val t.isLt).1 (accs V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem PhiS_castSucc (c : Dev nD) (t : Fin cfg1.N) :
    (dat1 V c).Φ t.castSucc = PhiS V c t.val (Nat.le_of_lt t.isLt) := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem fin_zero (t : Fin cfg1.N) (h : t.val = 0) : t = ⟨0, N_pos⟩ := Fin.ext h

set_option maxHeartbeats 4000000 in
/-- The body at any point, by the case the point is in. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    show (dat1 V c).leavesExact 3 t = owns (c : Thread nD τ) (st1_3 t) fullShare ((dat1 V c).after 3 t) from rfl,
    show (dat1 V c).leavesExact 4 t = owns (c : Thread nD τ) (st1_4 t) fullShare ((dat1 V c).after 4 t) from rfl,
    show (dat1 V c).leavesExact 5 t = owns (c : Thread nD τ) (st1_5 t) fullShare ((dat1 V c).after 5 t) from rfl]
  rw [after1_0, after1_1, after1_2, after1_3, after1_4, after1_5]
  have hN : t.val < 193 := lt_of_lt_of_eq t.isLt N_1
  by_cases h0 : t.val = 0
  · have hE : ¬ condE (grid1.coords t) := fun h => by have := (hcondE t).mp h; omega
    rw [Dat.leavesExact_idle (dat1 V c) 6 t (idle6 t hE) (noFlush6 t hE)]
    rw [accs_zero V c t h0]
    rw [PhiS_castSucc V c t, PhiS_zero V c _ _ h0, PhiA1_eq]
    have hFN : FN V c = fnOf (iblk1 V c 0 t) (iblk1 V c 1 t) (iblk1 V c 2 t) (iblk1 V c 3 t) := by
      obtain rfl := fin_zero t h0; rfl
    rw [hFN]
    iintro ⟨⟨⟨HR0, HR1, HR2, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (sound_first c Set.univ (grid1.coords t) _ _ _ _ _ _ _ _ _ _ _ _ _ _ _ _ _ _ _ _ ((hcondP t).mpr h0) hE (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HR0 HR1 HR2 HS0 HS1 HS2 Hg]
    · isplitl [HR0 HR1 HR2 HS0 HS1 HS2]
      · isplitl [HR0]; · iexact HR0
        isplitl [HR1]; · iexact HR1
        isplitl [HR2]; · iexact HR2
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [accs_pos V c t h0]
    rw [PhiS_castSucc V c t, PhiS_pos V c _ _ h0]
    by_cases hL : t.val = 192
    · have hE : condE (grid1.coords t) := (hcondE t).mpr hL
      rw [show (dat1 V c).leavesExact 6 t = owns (c : Thread nD τ) (st1_6 t) fullShare ((dat1 V c).after 6 t) from by
        unfold Dat.leavesExact; rw [live6 t hE], after1_6, accs_pos V c t h0]
      iintro ⟨⟨⟨HR0, HR1, HR2, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (sound_last c Set.univ (grid1.coords t) _ _ _ _ _ _ _ _ _ _ _ _ _ _ _ _ _ _ _ _ (fun h => h0 ((hcondP t).mp h)) hE (iblk1 V c 0 t) (iblk1 V c 1 t) (iblk1 V c 2 t) (iblk1 V c 3 t) (iblk1 V c 4 t) _ _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HR0 HR1 HR2 HS0 HS1 HS2 Hg]
      · isplitl [HR0 HR1 HR2 HS0 HS1 HS2]
        · isplitl [HR0]; · iexact HR0
          isplitl [HR1]; · iexact HR1
          isplitl [HR2]; · iexact HR2
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hE : ¬ condE (grid1.coords t) := fun h => hL ((hcondE t).mp h)
      rw [Dat.leavesExact_idle (dat1 V c) 6 t (idle6 t hE) (noFlush6 t hE)]
      iintro ⟨⟨⟨HR0, HR1, HR2, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (sound_mid c Set.univ (grid1.coords t) _ _ _ _ _ _ _ _ _ _ _ _ _ _ _ _ _ _ _ _ (fun h => h0 ((hcondP t).mp h)) hE (iblk1 V c 0 t) (iblk1 V c 1 t) (iblk1 V c 2 t) (iblk1 V c 3 t) (iblk1 V c 4 t) _ _ _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HR0 HR1 HR2 HS0 HS1 HS2 Hg]
      · isplitl [HR0 HR1 HR2 HS0 HS1 HS2]
        · isplitl [HR0]; · iexact HR0
          isplitl [HR1]; · iexact HR1
          isplitl [HR2]; · iexact HR2
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 193 := N_1; omega), PhiA1_eq]
  iintro ⟨⟨HR0, HR1, HR2, HS0, HS1, HS2⟩, Hg⟩
  isplitl [HR0 HR1 HR2 HS0 HS1 HS2]
  · isplitl [HR0]; · iexact HR0
    isplitl [HR1]; · iexact HR1
    isplitl [HR2]; · iexact HR2
    isplitl [HS0]; · iexists _; iexact HS0
    isplitl [HS1]; · iexists _; iexact HS1
    iexists _; iexact HS2
  iexact Hg

end

end Cert.Kernel.Flash

end
-- ==== Proof.RunB.lean ====
import proofs.«131505_g24936580120849_cont_9to1_1340_2_alg».proof.Proof.StatsDatB
import proofs.«131505_g24936580120849_cont_9to1_1340_2_alg».proof.Proof.FlashDatB
import proofs.«131505_g24936580120849_cont_9to1_1340_2_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Stats Cert.Kernel.Flash

variable {F : FTy → Type} [FloatOps F]

local notation "𝕄" => MT nD τ sig Unit (Elt F) ℕ (UR sig nD τ) ℕ

/-! # The whole run: @main's four segments from the launch to the return

  The buffer contents at each segment boundary form a fold from the launch memory: the two reshapes before the first
  region, the first region's accumulator array at what its write-back leaves, the second region's two result arrays
  at what their write-backs leave, the two reshapes after it. Every weakly fair execution ends with every unscoped
  buffer at the last boundary's contents. -/

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)
/-- After the two reshapes before the regions. -/
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
/-- At the first region's exit. -/
def B2 (c : Dev nD) : Valuation τ sig (Elt F) :=
  Pipeline.withArrays spec0 c (B1 m ρ c) fun w => (dat0 (U1 m ρ) c).arrAt w cfg0.N
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hF0 (c : Dev nD) (w : Fin cfg0.W) : (dat0 (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)
/-- At the second region's exit. -/
def B3 (c : Dev nD) : Valuation τ sig (Elt F) :=
  Pipeline.withArrays spec1 c (B2 m ρ c) fun w => (dat1 (U2 m ρ) c).arrAt w cfg1.N
theorem B3_arr (c : Dev nD) (w : Fin cfg1.W) :
    B3 m ρ c (Proc.devRef .tc (Pipeline.arrRef spec1 w)) = (dat1 (U2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev U3 : (c : Dev nD) → (b : Ref sig .tc) → Buf (Elt F) ((c : Thread nD τ).loc b) := fun c b => B3 m ρ c b
theorem hF1 (c : Dev nD) (w : Fin cfg1.W) : (dat1 (U2 m ρ) c).arrAt w cfg1.N = U3 m ρ c (Pipeline.arrRef spec1 w) :=
  (B3_arr m ρ c w).symm
theorem hrest1 (c : Dev nD) : ∀ b, b ∉ Finset.univ.image (Pipeline.arrRef spec1) → U3 m ρ c b = U2 m ρ c b :=
  fun b hb => B3_of_ne m ρ c b fun w e => hb (Finset.mem_image.mpr ⟨w, Finset.mem_univ _, e⟩)
/-- After the two reshapes that follow the regions. -/
abbrev B4 : Dev nD → Valuation τ sig (Elt F) := fun c => StableHlo.after hostOps2 (B3 m ρ c)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

set_option backward.isDefEq.respectTransparency.types false in
/-- Region 0 over the thread state: entered from every unscoped buffer at the boundary before it, left at the one
    after it; its arrays are split out of the unscoped buffers on entry and put back at their final contents on exit;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it; its arrays are split out of the unscoped buffers on entry and put back at their final contents on exit;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (U2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four segments in order. -/
abbrev segsR : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)) ]
theorem main_run (c : Dev nD) : main (F := F) c = Pipeline.Seg.run (segsR m ρ) := (main_chain c).trans (by chain_rfl)

theorem hlast (c : Dev nD) :
    iprop(StableHlo.held (c : Thread nD τ) (Pipeline.ucRefs τ sig) (B4 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- Every weakly fair execution of @main from memory `m` with zero counters terminates, nothing faulting, and every
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segsR m ρ)
    (fun c Q => by rw [main_run m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

end Cert.Kernel.Run

end
-- ==== Proof.ArrB.lean ====
import proofs.«131505_g24936580120849_cont_9to1_1340_2_alg».proof.Proof.StatsDatB
import Idealize.ShloMosaic.Lib.ValueIdx
import proofs.«131505_g24936580120849_cont_9to1_1340_2_alg».proof.Proof.FlashDatB

set_option maxRecDepth 16384

noncomputable section

namespace Cert.Kernel.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Stats Cert.Kernel.Flash

variable {F : FTy → Type} [FloatOps F]

local notation "𝕄" => MT nD τ sig Unit (Elt F) ℕ (UR sig nD τ) ℕ

/-! # What the regions' result arrays hold after the run

  The statistics array and the keyword array are each one block, written back once after the last grid point; the
  score array is tiled by 193 column blocks of width 256, each written back after its own point. -/

section
variable (V : (c : Dev nD) → (b : Ref sig .tc) → Buf (Elt F) ((c : Thread nD τ).loc b))

abbrev tL0 : Fin cfg0.N := ⟨192, by decide⟩
abbrev tL1 : Fin cfg1.N := ⟨192, by decide⟩

/-- The statistics array after the run: the accumulator after the last point. -/
def G1 (c : Dev nD) : Buf (Elt F) ((c : Thread nD τ).loc main_v2) := acc0 V c 192 (by decide)

theorem flushed0_1 (c : Dev nD) (t : Fin cfg0.N) (hf : (cfg0.win 1).flush t = true) :
    (dat0 V c).flushed 1 t = ((cfg0.win 1).blk t).view.read (Elt F) (G1 V c) := by
  have hN : t.val < 193 := lt_of_lt_of_eq t.isLt N_0
  have h1 : t.val = 192 := by have := (flush0_1 t).mp hf; omega
  obtain rfl : t = tL0 := Fin.ext h1
  show (cfg0.win 1).cut (grid0.coords tL0) ((dat0 V c).after 1 tL0) = _
  rw [after0_1]
  have hz' : (fun a => win0_1.index tL0 a * main_v2.ty.shape.size a) = fun _ => 0 := funext fun a => by fin_cases a <;> decide
  exact (Memref.read_access_unit_zero (Elt F) main_v2 hz' (fun a => by rw [congrFun hz' a]; simp) (G1 V c)).symm

theorem final0_1 (c : Dev nD) : (dat0 V c).arrAt 1 cfg0.N = G1 V c :=
  (dat0 V c).arrAt_eq_of_cover 1 (G1 V c) (flushed0_1 V c) fun i =>
    ⟨tL0, (flush0_1 tL0).mpr rfl, by
      show i ∈ ((View.whole main_v2).slice (win0_1.rect tL0)).set
      rw [View.set_slice_whole, Rect.mem_set_unit]
      intro a
      have h0 : (i 0 : Nat) < 2 := (i 0).isLt
      have h1 : (i 1 : Nat) < 512 := (i 1).isLt
      match a with
      | ⟨0, _⟩ => show win0_1.index tL0 0 * win0_1.size 0 ≤ (i 0 : Nat) ∧ (i 0 : Nat) < win0_1.index tL0 0 * win0_1.size 0 + win0_1.xsize (grid0.coords tL0) 0
                  rw [show win0_1.index tL0 0 * win0_1.size 0 = 0 from by decide +kernel, show win0_1.xsize (grid0.coords tL0) 0 = 2 from by decide +kernel]; omega
      | ⟨1, _⟩ => show win0_1.index tL0 1 * win0_1.size 1 ≤ (i 1 : Nat) ∧ (i 1 : Nat) < win0_1.index tL0 1 * win0_1.size 1 + win0_1.xsize (grid0.coords tL0) 1
                  rw [show win0_1.index tL0 1 * win0_1.size 1 = 0 from by decide +kernel, show win0_1.xsize (grid0.coords tL0) 1 = 512 from by decide +kernel]; omega⟩

/-- The keyword array after the run: numerator over denominator after the last point. -/
def G6 (c : Dev nD) : Buf (Elt F) ((c : Thread nD τ).loc main_v3_1) :=
  k1_pay1 (accs V c 192 (by decide)).1 (accs V c 192 (by decide)).2

theorem flushed1_6 (c : Dev nD) (t : Fin cfg1.N) (hf : (cfg1.win 6).flush t = true) :
    (dat1 V c).flushed 6 t = ((cfg1.win 6).blk t).view.read (Elt F) (G6 V c) := by
  have hN : t.val < 193 := lt_of_lt_of_eq t.isLt N_1
  have h1 : t.val = 192 := by have := (flush1_6 t).mp hf; omega
  obtain rfl : t = tL1 := Fin.ext h1
  show (cfg1.win 6).cut (grid1.coords tL1) ((dat1 V c).after 6 tL1) = _
  rw [after1_6]
  have hz' : (fun a => win1_6.index tL1 a * main_v3_1.ty.shape.size a) = fun _ => 0 := funext fun a => by fin_cases a <;> decide
  exact (Memref.read_access_unit_zero (Elt F) main_v3_1 hz' (fun a => by rw [congrFun hz' a]; simp) (G6 V c)).symm

theorem final1_6 (c : Dev nD) : (dat1 V c).arrAt 6 cfg1.N = G6 V c :=
  (dat1 V c).arrAt_eq_of_cover 6 (G6 V c) (flushed1_6 V c) fun i =>
    ⟨tL1, (flush1_6 tL1).mpr rfl, by
      show i ∈ ((View.whole main_v3_1).slice (win1_6.rect tL1)).set
      rw [View.set_slice_whole, Rect.mem_set_unit]
      intro a
      have h0 : (i 0 : Nat) < 128 := (i 0).isLt
      have h1 : (i 1 : Nat) < 512 := (i 1).isLt
      match a with
      | ⟨0, _⟩ => show win1_6.index tL1 0 * win1_6.size 0 ≤ (i 0 : Nat) ∧ (i 0 : Nat) < win1_6.index tL1 0 * win1_6.size 0 + win1_6.xsize (grid1.coords tL1) 0
                  rw [show win1_6.index tL1 0 * win1_6.size 0 = 0 from by decide +kernel, show win1_6.xsize (grid1.coords tL1) 0 = 128 from by decide +kernel]; omega
      | ⟨1, _⟩ => show win1_6.index tL1 1 * win1_6.size 1 ≤ (i 1 : Nat) ∧ (i 1 : Nat) < win1_6.index tL1 1 * win1_6.size 1 + win1_6.xsize (grid1.coords tL1) 1
                  rw [show win1_6.index tL1 1 * win1_6.size 1 = 0 from by decide +kernel, show win1_6.xsize (grid1.coords tL1) 1 = 512 from by decide +kernel]; omega⟩

/-- Facts about the score window's block index and extents, decided over the grid. -/
theorem idx5 : ∀ t : Fin cfg1.N, win1_5.index t 0 = 0 ∧ win1_5.index t 1 = t.val :=
  (by decide +kernel : ∀ t : Fin grid1.N, win1_5.index t 0 = 0 ∧ win1_5.index t 1 = t.val)
theorem xsize5 : ∀ t : Fin cfg1.N, win1_5.xsize (grid1.coords t) 0 = 128 ∧ win1_5.xsize (grid1.coords t) 1 = 256 :=
  (by decide +kernel : ∀ t : Fin grid1.N, win1_5.xsize (grid1.coords t) 0 = 128 ∧ win1_5.xsize (grid1.coords t) 1 = 256)

/-- The scores of keyword row `p` against row `j` of the codebook tile of point `t`. -/
def cosAt (c : Dev nD) (t : Fin cfg1.N) (p : Fin 128) (j : Fin 256) : Elt F .f32 :=
  k1_pay10 (iblk1 V c 4 t) (FN V c) (ValueIdx.ix2 p j)

/-- The score array after the run: column `v` comes from tile `v / 256`, row `v % 256` of the tile. -/
def G5 (c : Dev nD) : Buf (Elt F) ((c : Thread nD τ).loc main_v3_0) := fun (i : S128x49408.Idx) =>
  cosAt V c ⟨(i 1 : Nat) / 256, by have h1 : (i 1 : Nat) < 49408 := (i 1).isLt; have : cfg1.N = 193 := N_1; omega⟩
    ⟨(i 0 : Nat), (i 0).isLt⟩ ⟨(i 1 : Nat) % 256, Nat.mod_lt _ (by decide)⟩

theorem G5_at (c : Dev nD) (t : Fin cfg1.N) (i : S128x49408.Idx) (x : S128x256.Idx)
    (h0 : (i 0 : Nat) = (x 0 : Nat)) (h1 : (i 1 : Nat) = 256 * t.val + (x 1 : Nat)) :
    G5 V c i = k1_pay10 (iblk1 V c 4 t) (FN V c) x := by
  have hx1 : (x 1 : Nat) < 256 := (x 1).isLt
  have e1 : (⟨(i 1 : Nat) / 256, by have h1 : (i 1 : Nat) < 49408 := (i 1).isLt; have : cfg1.N = 193 := N_1; omega⟩ : Fin cfg1.N) = t :=
    Fin.ext (by show (i 1 : Nat) / 256 = t.val; omega)
  have e2 : (⟨(i 0 : Nat), (i 0).isLt⟩ : Fin 128) = ⟨(x 0 : Nat), (x 0).isLt⟩ := Fin.ext h0
  have e3 : (⟨(i 1 : Nat) % 256, Nat.mod_lt _ (by decide)⟩ : Fin 256) = ⟨(x 1 : Nat), (x 1).isLt⟩ :=
    Fin.ext (by show (i 1 : Nat) % 256 = (x 1 : Nat); omega)
  unfold G5
  rw [e1, e2, e3]
  unfold cosAt
  exact congrArg _ (ValueIdx.eq_ix2 x).symm

theorem flushed1_5 (c : Dev nD) (t : Fin cfg1.N) (hf : (cfg1.win 5).flush t = true) :
    (dat1 V c).flushed 5 t = ((cfg1.win 5).blk t).view.read (Elt F) (G5 V c) := by
  show (cfg1.win 5).cut (grid1.coords t) ((dat1 V c).after 5 t) = _
  rw [after1_5]
  funext x
  rw [View.read_apply]
  show k1_pay10 (iblk1 V c 4 t) (FN V c) x = G5 V c (((cfg1.win 5).blk t).view.emb x)
  refine (G5_at V c t _ x ?_ ?_).symm
  · show win1_5.index t 0 * 128 + 1 * (x 0 : Nat) = (x 0 : Nat); rw [(idx5 t).1]; omega
  · show win1_5.index t 1 * 256 + 1 * (x 1 : Nat) = 256 * t.val + (x 1 : Nat); rw [(idx5 t).2]; omega

theorem final1_5 (c : Dev nD) : (dat1 V c).arrAt 5 cfg1.N = G5 V c :=
  (dat1 V c).arrAt_eq_of_cover 5 (G5 V c) (flushed1_5 V c) fun i => by
    have h0 : (i 0 : Nat) < 128 := (i 0).isLt
    have h1 : (i 1 : Nat) < 49408 := (i 1).isLt
    have hN : cfg1.N = 193 := N_1
    let T : Fin cfg1.N := ⟨(i 1 : Nat) / 256, by omega⟩
    refine ⟨T, flush1_5 T, ?_⟩
    show i ∈ ((View.whole main_v3_0).slice (win1_5.rect T)).set
    rw [View.set_slice_whole, Rect.mem_set_unit]
    intro a
    match a with
    | ⟨0, _⟩ =>
      show win1_5.index T 0 * 128 ≤ (i 0 : Nat) ∧ (i 0 : Nat) < win1_5.index T 0 * 128 + win1_5.xsize (grid1.coords T) 0
      rw [(idx5 T).1, (xsize5 T).1]; omega
    | ⟨1, _⟩ =>
      show win1_5.index T 1 * 256 ≤ (i 1 : Nat) ∧ (i 1 : Nat) < win1_5.index T 1 * 256 + win1_5.xsize (grid1.coords T) 1
      rw [(idx5 T).2, (xsize5 T).2]; show (i 1 : Nat) / 256 * 256 ≤ (i 1 : Nat) ∧ (i 1 : Nat) < (i 1 : Nat) / 256 * 256 + 256; omega

end

end Cert.Kernel.Arr

end
-- ==== Proof.ReadB.lean ====
import proofs.«131505_g24936580120849_cont_9to1_1340_2_alg».proof.Proof.RunB
import proofs.«131505_g24936580120849_cont_9to1_1340_2_alg».proof.Proof.ArrB

set_option maxRecDepth 16384

noncomputable section

namespace Cert.Kernel.Read

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Stats Cert.Kernel.Flash Cert.Kernel.Run Cert.Kernel.Arr

variable {F : FTy → Type} [FloatOps F]

local notation "𝕄" => MT nD τ sig Unit (Elt F) ℕ (UR sig nD τ) ℕ

/-! # The last boundary's contents, buffer by buffer

  No segment writes an argument array; the two result arrays are reshapes of the second region's result arrays; the
  regions find the reshaped audio features and bias, the projection, the codebook, and (the second region) the
  statistics the first region left. -/

variable (m : (ℓ : Loc nD τ sig) → Buf (Elt F) ℓ) (ρ : Dev nD → PrngReg)

theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B4_of (c : Dev nD) (r : Ref sig .tc) (h : r ∉ hostOps2_W) : B4 m ρ c (Proc.devRef .tc r) = B3 m ρ c (Proc.devRef .tc r) :=
  StableHlo.after_of_writes_sub hostOps2 _ hostOps2_writes h

/-! ## The arguments end as launched -/

theorem B4_arg0 (c : Dev nD) : B4 m ρ c (Proc.devRef .tc main_arg0) = m ((c : Thread nD τ).loc main_arg0) :=
  (B4_of m ρ c main_arg0 (by decide)).trans <| (B3_of_ne m ρ c main_arg0 (by decide)).trans <| (B2_of_ne m ρ c main_arg0 (by decide)).trans <| (B1_of m ρ c main_arg0 (by decide)).trans rfl
theorem B4_arg2 (c : Dev nD) : B4 m ρ c (Proc.devRef .tc main_arg2) = m ((c : Thread nD τ).loc main_arg2) :=
  (B4_of m ρ c main_arg2 (by decide)).trans <| (B3_of_ne m ρ c main_arg2 (by decide)).trans <| (B2_of_ne m ρ c main_arg2 (by decide)).trans <| (B1_of m ρ c main_arg2 (by decide)).trans rfl
/-- What the regions find in the codebook's buffer: the launch contents. -/
theorem U1_arg3 (c : Dev nD) : U1 m ρ c main_arg3 = m ((c : Thread nD τ).loc main_arg3) :=
  (B1_of m ρ c main_arg3 (by decide)).trans rfl
theorem U2_arg3 (c : Dev nD) : U2 m ρ c main_arg3 = m ((c : Thread nD τ).loc main_arg3) :=
  ((B2_arr m ρ c 0).trans (((dat0 (U1 m ρ) c).arrAt_in 0 rfl _).trans (A_eq0 (U1 m ρ) c 0))).trans (U1_arg3 m ρ c)
theorem U2_arg1 (c : Dev nD) : U2 m ρ c main_arg1 = m ((c : Thread nD τ).loc main_arg1) :=
  (B2_of_ne m ρ c main_arg1 (by decide)).trans <| (B1_of m ρ c main_arg1 (by decide)).trans rfl
theorem B4_arg1 (c : Dev nD) : B4 m ρ c (Proc.devRef .tc main_arg1) = m ((c : Thread nD τ).loc main_arg1) :=
  (B4_of m ρ c main_arg1 (by decide)).trans <| ((B3_arr m ρ c 1).trans (((dat1 (U2 m ρ) c).arrAt_in 1 rfl _).trans (A_eq1 (U2 m ρ) c 1))).trans (U2_arg1 m ρ c)
theorem B4_arg3 (c : Dev nD) : B4 m ρ c (Proc.devRef .tc main_arg3) = m ((c : Thread nD τ).loc main_arg3) :=
  (B4_of m ρ c main_arg3 (by decide)).trans <| ((B3_arr m ρ c 4).trans (((dat1 (U2 m ρ) c).arrAt_in 4 rfl _).trans (A_eq1 (U2 m ρ) c 4))).trans (U2_arg3 m ρ c)

/-! ## What the second region finds -/

/-- The statistics array: what the first region left. -/
theorem U2_v2 (c : Dev nD) : U2 m ρ c main_v2 = G1 (U1 m ρ) c :=
  (B2_arr m ρ c 1).trans (final0_1 (U1 m ρ) c)

/-- The flattened audio features: the reshape of the argument. -/
theorem U2_v0 (c : Dev nD) : (U2 m ρ c main_v0 : S128x768.Idx → Elt F .f32)
    = shapeCast S128x768 (m ((c : Thread nD τ).loc main_arg0) : S16x8x768.Idx → Elt F .f32) shapeCasts_S16x8x768_S128x768 := by
  refine (B2_of_ne m ρ c main_v0 (by decide)).trans ?_
  show StableHlo.after hostOps0 (B0 m ρ c) (Proc.devRef .tc main_v0) = _
  after_results
  rfl

/-- The bias as a row: the reshape of the argument. -/
theorem U2_v1 (c : Dev nD) : (U2 m ρ c main_v1 : S1x512.Idx → Elt F .f32)
    = shapeCast S1x512 (m ((c : Thread nD τ).loc main_arg2) : S512.Idx → Elt F .f32) shapeCasts_S512_S1x512 := by
  refine (B2_of_ne m ρ c main_v1 (by decide)).trans ?_
  show StableHlo.after hostOps0 (B0 m ρ c) (Proc.devRef .tc main_v1) = _
  after_results
  rfl

/-! ## The results -/

theorem B3_v3_1 (c : Dev nD) : B3 m ρ c (Proc.devRef .tc main_v3_1) = G6 (U2 m ρ) c :=
  (B3_arr m ρ c 6).trans (final1_6 (U2 m ρ) c)
theorem B3_v3_0 (c : Dev nD) : B3 m ρ c (Proc.devRef .tc main_v3_0) = G5 (U2 m ρ) c :=
  (B3_arr m ρ c 5).trans (final1_5 (U2 m ρ) c)

theorem B4_v4 (c : Dev nD) : (B4 m ρ c (Proc.devRef .tc main_v4) : S16x8x512.Idx → Elt F .f32)
    = shapeCast S16x8x512 (G6 (U2 m ρ) c : S128x512.Idx → Elt F .f32) shapeCasts_S128x512_S16x8x512 := by
  rw [← B3_v3_1 m ρ c]
  show StableHlo.after hostOps2 (B3 m ρ c) (Proc.devRef .tc main_v4) = _
  after_results
  rfl

theorem B4_v5 (c : Dev nD) : (B4 m ρ c (Proc.devRef .tc main_v5) : S16x8x49408.Idx → Elt F .f32)
    = shapeCast S16x8x49408 (G5 (U2 m ρ) c : S128x49408.Idx → Elt F .f32) shapeCasts_S128x49408_S16x8x49408 := by
  rw [← B3_v3_0 m ρ c]
  show StableHlo.after hostOps2 (B3 m ρ c) (Proc.devRef .tc main_v5) = _
  after_results
  rfl

end Cert.Kernel.Read

end
-- ==== Proof.StatsBodyI.lean ====
import proofs.«131505_g24936580120849_cont_9to1_1340_2_alg».proof.Proof.Gen.KernelIdeal.Launch
import proofs.«131505_g24936580120849_cont_9to1_1340_2_alg».proof.Proof.Gen.KernelIdeal.Skeleton
import proofs.«131505_g24936580120849_cont_9to1_1340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The column-statistics region: what the 2x512 accumulator holds after each grid point

  The body sums a 256-row tile of the codebook column by column (row 0 of its result) and sums the squares (row 1).
  At the first grid point it stores that pair; at every later point it adds the pair to what the accumulator holds.
  The accumulator's block never moves, so it is written back once, after the last point. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input tile's staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first branch is taken at the first point only, the second at every other point. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
/-- No window is idle at any coordinates. -/
theorem live0 : ∀ (w : Fin cfg0.W) (i : grid0.Coords), cfg0.idle w i = false := by decide +kernel

theorem hz2 : (![0, 0] : Fin 2 → Nat) = fun _ => 0 := by funext a; fin_cases a <;> rfl

/-- The accumulator after point `n`: the first tile's pair, then each later tile's pair added. -/
def acc0 (c : Dev nD) : (n : ℕ) → n < cfg0.N → Vec F S2x512 .f32
  | 0, hn => k0_pay1 (iblk0 V c 0 ⟨0, hn⟩)
  | n + 1, hn => k0_pay2 (iblk0 V c 0 ⟨n + 1, hn⟩) (acc0 c n (Nat.lt_of_succ_lt hn))

theorem acc0_zero (c : Dev nD) (t : Fin cfg0.N) (h : t.val = 0) : acc0 V c t.val t.isLt = k0_pay1 (iblk0 V c 0 t) := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = k0_pay2 (iblk0 V c 0 t) (acc0 V c (t.val - 1) (Nat.lt_of_le_of_lt (Nat.sub_le _ _) t.isLt)) := by
  obtain ⟨n, hn⟩ := t
  cases n with
  | zero => exact absurd rfl h
  | succ n => rfl

set_option maxHeartbeats 1000000 in
/-- The body at the first point: the tile's pair is stored whatever the accumulator held. -/
theorem sound_first (c : Dev nD) (E : Set ℕ) (i : grid0.Coords) (arg1 : Memref sig .tc .vmem S256x512 .f32) (harg1 : arg1.IsWhole)
    (arg2 : Memref sig .tc .vmem S2x512 .f32) (harg2 : arg2.IsWhole) (hc1 : k0_cond1 i = 1#1) (hc2 : ¬ k0_cond2 i = 1#1)
    (x0 : Vec F S256x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__stats_body i arg1 harg1 arg2 harg2) K := by
  simp only [cc0__stats_body_eq_skeleton]; unfold cc0__stats_body_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  rw [View.read_writes_eq_canon _ _ _ (View.cover_of_tiled _ S2x512.size (by rfl)), View.canon_unit_zero hz2]
  simp only [View.readAt_eq_ld, View.ld_unit_zero (S := S256x512) hz2]

set_option maxHeartbeats 1000000 in
/-- The body at a later point: the tile's pair is added to what the accumulator held. -/
theorem sound_later (c : Dev nD) (E : Set ℕ) (i : grid0.Coords) (arg1 : Memref sig .tc .vmem S256x512 .f32) (harg1 : arg1.IsWhole)
    (arg2 : Memref sig .tc .vmem S2x512 .f32) (harg2 : arg2.IsWhole) (hc1 : ¬ k0_cond1 i = 1#1) (hc2 : k0_cond2 i = 1#1)
    (x0 : Vec F S256x512 .f32) (xs : Vec F S2x512 .f32) (K : PUnit → sProp 𝕄) :
    iprop(owns (c : Thread nD τ) arg1 fullShare x0 ∗ owns (c : Thread nD τ) arg2 fullShare xs
        ∗ (iprop(owns (c : Thread nD τ) arg1 fullShare x0 ∗ owns (c : Thread nD τ) arg2 fullShare (k0_pay2 x0 xs)) -∗ K ⟨⟩))
      ⊢ wp frame (wpE (defs₀ (F := F)) Variants.none c none) E (cc0__stats_body i arg1 harg1 arg2 harg2) K := by
  simp only [cc0__stats_body_eq_skeleton]; unfold cc0__stats_body_skel
  unfold owns
  iintro ⟨⟨%f0, %hf0, H0⟩, ⟨%f1, %hf1, H1⟩, Hk⟩
  subst hf0; subst hf1
  sl_exec (disch := first | exact hc1 | exact hc2)
  sl_step
  iapply Hk
  isplitl [H0]
  · iexists f0; isplitr; · ipureintro; rfl
    iexact H0
  iexists _; isplitr
  swap; · iexact H1
  ipureintro
  rw [View.read_writes_eq_canon _ _ _ (View.cover_of_tiled _ S2x512.size (by rfl)), View.canon_unit_zero hz2]
  simp only [View.readAt_eq_ld, View.ld_unit_zero (S := S256x512) hz2, View.ld_unit_zero (S := S2x512) hz2]

end

end Cert.KernelIdeal.Stats

end
-- ==== Proof.StatsDatI.lean ====
import proofs.«131505_g24936580120849_cont_9to1_1340_2_alg».proof.Proof.StatsBodyI

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The column-statistics region: the proof data and the body obligation -/

section
variable (V : (c : Dev nD) → (b : Ref sig .tc) → Buf (Elt F) ((c : Thread nD τ).loc b))

/-- The proof data: the arrays as the region finds them; after the body the tile's buffer at the tile, the
    accumulator's at the running sums; nothing owed, full shares, the scoped rest untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- At the first point the accumulator's buffer is fresh. -/
theorem before0_1_first (c : Dev nD) (t : Fin cfg0.N) (h0 : t.val = 0) (d) : (dat0 V c).before 1 t d = d :=
  (dat0 V c).before_out_reset 1 rfl t (.inl h0) d

/-- At a later point it holds the running sums the point before left: the block is not written back in between. -/
theorem before0_1_later (c : Dev nD) (t : Fin cfg0.N) (ht : t.val ≠ 0) (d) :
    (dat0 V c).before 1 t d = acc0 V c (t.val - 1) (Nat.lt_of_le_of_lt (Nat.sub_le _ _) t.isLt) := by
  have hN : t.val < 193 := lt_of_lt_of_eq t.isLt N_0
  have hfl : (cfg0.win 1).flush ⟨t.val - 1, Nat.lt_of_le_of_lt (Nat.sub_le _ _) t.isLt⟩ = false := by
    apply Bool.eq_false_iff.mpr
    intro h
    have := (flush0_1 ⟨t.val - 1, Nat.lt_of_le_of_lt (Nat.sub_le _ _) t.isLt⟩).mp h
    dsimp only at this
    omega
  exact ((dat0 V c).before_out_kept 1 rfl t ht hfl (live0 1) (fun _ _ => rfl) d).trans (after0_1 V c _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

/-- The body at any point, by the case the point is in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).leavesExact 0 t = owns (c : Thread nD τ) (st0_0 t) fullShare ((dat0 V c).after 0 t) from by
      unfold Dat.leavesExact; rw [live0 0 (grid0.coords t)],
    show (dat0 V c).leavesExact 1 t = owns (c : Thread nD τ) (st0_1 t) fullShare ((dat0 V c).after 1 t) from by
      unfold Dat.leavesExact; rw [live0 1 (grid0.coords t)]]
  rw [show (dat0 V c).Φ t.succ = (dat0 V c).Φ t.castSucc from rfl,
    show (dat0 V c).owesAt () t.succ = (dat0 V c).owesAt () t.castSucc from rfl,
    after0_0, after0_1]
  by_cases h0 : t.val = 0
  · simp only [before0_1_first V c t h0]
    rw [acc0_zero V c t h0]
    iintro ⟨HΦ, Ho, ⟨%d0, H0⟩, ⟨%d1, H1⟩⟩
    iapply (sound_first c Set.univ _ _ _ _ _ ((hcond1 t).mpr h0) (fun h => (hcond2 t).mp h h0) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · simp only [before0_1_later V c t h0]
    rw [acc0_pos V c t h0]
    iintro ⟨HΦ, Ho, ⟨%d0, H0⟩, ⟨%d1, H1⟩⟩
    iapply (sound_later c Set.univ _ _ _ _ _ (fun h => h0 ((hcond1 t).mp h)) ((hcond2 t).mpr h0) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Stats

end
-- ==== Proof.FlashBodyI.lean ====
import proofs.«131505_g24936580120849_cont_9to1_1340_2_alg».proof.Proof.Gen.KernelIdeal.Launch
import proofs.«131505_g24936580120849_cont_9to1_1340_2_alg».proof.Proof.Gen.KernelIdeal.Skeleton
import proofs.«131505_g24936580120849_cont_9to1_1340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The scoring region: what one run of the body leaves, case by case

  At the first grid point the body first computes the row-normalised keyword features from the audio block, the
  projection, the bias and the codebook statistics, stores them in its first scratch buffer and zeroes the two
  accumulators. At every point it then scores the features against the codebook tile (stored into the score block),
  adds the tile's exponentiated scores to the denominator accumulator and their product with the tile to the numerator
  accumulator. At the last point it finally stores numerator over denominator into the keyword block. -/

/-- The prologue's branch condition (taken at the first grid point only). -/
abbrev condP (i : grid1.Coords) : Prop := (Scalar.cmpi .ne (Scalar.extui (Scalar.cmpi .eq (BitVec.ofNat 32 (i 0).val) 0#32)) 0#32) = 1#1
/-- The epilogue's branch condition (taken at the last grid point only). -/
abbrev condE (i : grid1.Coords) : Prop := k1_cond2 i = 1#1

theorem hz2 : (![0, 0] : Fin 2 → Nat) = fun _ => 0 := by funext a; fin_cases a <;> rfl

/-- A list of stores whose last one is to the whole buffer covers the buffer. -/
theorem cover_head {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self .., by show y ∈ (Rect.whole S).set; rw [Rect.set_whole]; exact Finset.mem_univ y⟩

/-- The row-normalised keyword features, from the audio block, the projection, the bias and the statistics. -/
def fnOf (x1 : Vec F S128x768 .f32) (x2 : Vec F S768x512 .f32) (x3 : Vec F S1x512 .f32) (x4 : Vec F S2x512 .f32) : FVec F S128x512 .f32 :=
  k1_pay7 (k1_pay3 x4) (k1_pay4 x4) (k1_pay5 x1 x2 x3) (k1_pay6 (F := F))

set_option maxHeartbeats 4000000 in
/-- A middle point: scores stored, both accumulators advanced, everything else as found. -/
theorem sound_mid (c : Dev nD) (E : Set ℕ) (i : grid1.Coords) (arg1 : Memref sig .tc .vmem S128x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S2x512 .f32) (harg4 : arg4.IsWhole) (arg5 : Memref sig .tc .vmem S256x512 .f32) (harg5 : arg5.IsWhole) (arg6 : Memref sig .tc .vmem S128x256 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x1 .f32) (harg10 : arg10.IsWhole)
    (hP : ¬ condP i) (hE : ¬ condE i) (x1 : Vec F S128x768 .f32) (x2 : Vec F S768x512 .f32) (x3 : Vec F S1x512 .f32) (x4 : Vec F S2x512 .f32) (x5 : Vec F S256x512 .f32)
    (x7 : Vec F S128x512 .f32) (s8 : Vec F S128x512 .f32) (s9 : Vec F S128x512 .f32) (s10 : Vec F S128x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ owns (c : Thread nD τ) arg7 fullShare x7
        ∗ owns (c : Thread nD τ) arg8 fullShare s8
        ∗ owns (c : Thread nD τ) arg9 fullShare s9
        ∗ owns (c : Thread nD τ) arg10 fullShare s10
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare (k1_pay10 x5 s8)
        ∗ owns (c : Thread nD τ) arg7 fullShare x7
        ∗ owns (c : Thread nD τ) arg8 fullShare s8
        ∗ owns (c : Thread nD τ) arg9 fullShare (k1_pay13 x5 s8 s9)
        ∗ owns (c : Thread nD τ) arg10 fullShare (k1_pay12 x5 s8 s10)) -∗ K ⟨⟩))
      ⊢ wp frame (wpE (defs₀ (F := F)) Variants.none c none) E (cc1__flash_body i arg1 harg1 arg2 harg2 arg3 harg3 arg4 harg4 arg5 harg5 arg6 harg6 arg7 harg7 arg8 harg8 arg9 harg9 arg10 harg10) K := by
  simp only [cc1__flash_body_eq_skeleton]; unfold cc1__flash_body_skel
  simp only [k1_part2_eq_skeleton, k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1; subst hf2; subst hf3; subst hf4; subst hf5; subst hf7; subst hf8; subst hf9; subst hf10
  sl_exec (disch := first | exact hP | exact hE)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl
  · iexists _; isplitr
    swap; · iexact H10
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl

set_option maxHeartbeats 4000000 in
/-- The first point: the features computed and stored, the accumulators started from zero, scores stored. -/
theorem sound_first (c : Dev nD) (E : Set ℕ) (i : grid1.Coords) (arg1 : Memref sig .tc .vmem S128x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S2x512 .f32) (harg4 : arg4.IsWhole) (arg5 : Memref sig .tc .vmem S256x512 .f32) (harg5 : arg5.IsWhole) (arg6 : Memref sig .tc .vmem S128x256 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x1 .f32) (harg10 : arg10.IsWhole)
    (hP : condP i) (hE : ¬ condE i) (x1 : Vec F S128x768 .f32) (x2 : Vec F S768x512 .f32) (x3 : Vec F S1x512 .f32) (x4 : Vec F S2x512 .f32) (x5 : Vec F S256x512 .f32) (x7 : Vec F S128x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ owns (c : Thread nD τ) arg7 fullShare x7
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare (k1_pay10 x5 (fnOf x1 x2 x3 x4))
        ∗ owns (c : Thread nD τ) arg7 fullShare x7
        ∗ owns (c : Thread nD τ) arg8 fullShare (fnOf x1 x2 x3 x4)
        ∗ owns (c : Thread nD τ) arg9 fullShare (k1_pay13 x5 (fnOf x1 x2 x3 x4) (k1_pay8 (F := F)))
        ∗ owns (c : Thread nD τ) arg10 fullShare (k1_pay12 x5 (fnOf x1 x2 x3 x4) (k1_pay9 (F := F)))) -∗ K ⟨⟩))
      ⊢ wp frame (wpE (defs₀ (F := F)) Variants.none c none) E (cc1__flash_body i arg1 harg1 arg2 harg2 arg3 harg3 arg4 harg4 arg5 harg5 arg6 harg6 arg7 harg7 arg8 harg8 arg9 harg9 arg10 harg10) K := by
  simp only [cc1__flash_body_eq_skeleton]; unfold cc1__flash_body_skel
  simp only [k1_part2_eq_skeleton, k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, Hk⟩
  subst hf1; subst hf2; subst hf3; subst hf4; subst hf5; subst hf7
  sl_exec (disch := first | exact hP | exact hE)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2, fnOf]
    try rfl
  isplitl [H7]
  · iexists f7; isplitr; · ipureintro; rfl
    iexact H7
  isplitl [H8]
  · iexists _; isplitr
    swap; · iexact H8
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2, fnOf]
    try rfl
  isplitl [H9]
  · iexists _; isplitr
    swap; · iexact H9
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2, fnOf]
    try rfl
  · iexists _; isplitr
    swap; · iexact H10
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2, fnOf]
    try rfl

set_option maxHeartbeats 4000000 in
/-- The last point: as a middle point, then numerator over denominator stored into the keyword block. -/
theorem sound_last (c : Dev nD) (E : Set ℕ) (i : grid1.Coords) (arg1 : Memref sig .tc .vmem S128x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S2x512 .f32) (harg4 : arg4.IsWhole) (arg5 : Memref sig .tc .vmem S256x512 .f32) (harg5 : arg5.IsWhole) (arg6 : Memref sig .tc .vmem S128x256 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x1 .f32) (harg10 : arg10.IsWhole)
    (hP : ¬ condP i) (hE : condE i) (x1 : Vec F S128x768 .f32) (x2 : Vec F S768x512 .f32) (x3 : Vec F S1x512 .f32) (x4 : Vec F S2x512 .f32) (x5 : Vec F S256x512 .f32)
    (s8 : Vec F S128x512 .f32) (s9 : Vec F S128x512 .f32) (s10 : Vec F S128x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ (∃ d, owns (c : Thread nD τ) arg7 fullShare d)
        ∗ owns (c : Thread nD τ) arg8 fullShare s8
        ∗ owns (c : Thread nD τ) arg9 fullShare s9
        ∗ owns (c : Thread nD τ) arg10 fullShare s10
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare (k1_pay10 x5 s8)
        ∗ owns (c : Thread nD τ) arg7 fullShare (k1_pay1 (k1_pay13 x5 s8 s9) (k1_pay12 x5 s8 s10))
        ∗ owns (c : Thread nD τ) arg8 fullShare s8
        ∗ owns (c : Thread nD τ) arg9 fullShare (k1_pay13 x5 s8 s9)
        ∗ owns (c : Thread nD τ) arg10 fullShare (k1_pay12 x5 s8 s10)) -∗ K ⟨⟩))
      ⊢ wp frame (wpE (defs₀ (F := F)) Variants.none c none) E (cc1__flash_body i arg1 harg1 arg2 harg2 arg3 harg3 arg4 harg4 arg5 harg5 arg6 harg6 arg7 harg7 arg8 harg8 arg9 harg9 arg10 harg10) K := by
  simp only [cc1__flash_body_eq_skeleton]; unfold cc1__flash_body_skel
  simp only [k1_part2_eq_skeleton, k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  subst hf1; subst hf2; subst hf3; subst hf4; subst hf5; subst hf8; subst hf9; subst hf10
  sl_exec (disch := first | exact hP | exact hE)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl
  isplitl [H7]
  · iexists _; isplitr
    swap; · iexact H7
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl
  isplitl [H8]
  · iexists f8; isplitr; · ipureintro; rfl
    iexact H8
  isplitl [H9]
  · iexists _; isplitr
    swap; · iexact H9
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl
  · iexists _; isplitr
    swap; · iexact H10
    ipureintro
    sl_unfold_run_names
    rw [View.read_writes_eq_canon _ _ _ (cover_head hz2 _ _ _), View.canon_cons_unit_zero hz2]
    simp only [View.readAt_eq_ld, View.readCov_cons_toLoadRect, View.ld_unit_zero (S := S128x768) hz2, View.ld_unit_zero (S := S768x512) hz2, View.ld_unit_zero (S := S1x512) hz2, View.ld_unit_zero (S := S2x512) hz2, View.ld_unit_zero (S := S256x512) hz2, View.ld_unit_zero (S := S128x512) hz2, View.ld_unit_zero (S := S128x1) hz2, View.ld_unit_zero (S := S128x256) hz2]
    try rfl

end Cert.KernelIdeal.Flash

end
-- ==== Proof.FlashDatI.lean ====
import proofs.«131505_g24936580120849_cont_9to1_1340_2_alg».proof.Proof.FlashBodyI

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The scoring region: the proof data and the body obligation

  Between grid points the three scratch buffers hold the row-normalised features (fixed after the first point) and the
  two running sums; the score block is written back after every point, the keyword block after the last point only. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem hcondP : ∀ t : Fin cfg1.N, condP (grid1.coords t) ↔ t.val = 0 :=
  (by decide +kernel : ∀ t : Fin grid1.N, condP (grid1.coords t) ↔ t.val = 0)
theorem hcondE : ∀ t : Fin cfg1.N, condE (grid1.coords t) ↔ t.val = 192 :=
  (by decide +kernel : ∀ t : Fin grid1.N, condE (grid1.coords t) ↔ t.val = 192)
/-- The keyword block is idle, and not written back, at every point but the last. -/
theorem idle6 : ∀ t : Fin cfg1.N, ¬ condE (grid1.coords t) → cfg1.idle 6 (grid1.coords t) = true := by decide +kernel
theorem live6 : ∀ t : Fin cfg1.N, condE (grid1.coords t) → cfg1.idle 6 (grid1.coords t) = false := by decide +kernel
theorem noFlush6 : ∀ t : Fin cfg1.N, ¬ condE (grid1.coords t) → (cfg1.win 6).flush t = false := by decide +kernel

theorem N_pos : 0 < cfg1.N := by decide

/-- The row-normalised keyword features, computed at the first point from the four constant blocks. -/
def FN (c : Dev nD) : FVec F S128x512 .f32 :=
  fnOf (iblk1 V c 0 ⟨0, N_pos⟩) (iblk1 V c 1 ⟨0, N_pos⟩) (iblk1 V c 2 ⟨0, N_pos⟩) (iblk1 V c 3 ⟨0, N_pos⟩)

/-- The numerator and denominator accumulators after point `n`. -/
def accs (c : Dev nD) : (n : ℕ) → n < cfg1.N → FVec F S128x512 .f32 × FVec F S128x1 .f32
  | 0, hn => (k1_pay13 (iblk1 V c 4 ⟨0, hn⟩) (FN V c) (k1_pay8 (F := F)), k1_pay12 (iblk1 V c 4 ⟨0, hn⟩) (FN V c) (k1_pay9 (F := F)))
  | n + 1, hn => (k1_pay13 (iblk1 V c 4 ⟨n + 1, hn⟩) (FN V c) (accs c n (Nat.lt_of_succ_lt hn)).1,
      k1_pay12 (iblk1 V c 4 ⟨n + 1, hn⟩) (FN V c) (accs c n (Nat.lt_of_succ_lt hn)).2)

theorem accs_zero (c : Dev nD) (t : Fin cfg1.N) (h : t.val = 0) :
    accs V c t.val t.isLt = (k1_pay13 (iblk1 V c 4 t) (FN V c) (k1_pay8 (F := F)), k1_pay12 (iblk1 V c 4 t) (FN V c) (k1_pay9 (F := F))) := by
  obtain ⟨n, hn⟩ := t
  cases n with
  | zero => rfl
  | succ n => exact absurd h (Nat.succ_ne_zero n)

theorem accs_pos (c : Dev nD) (t : Fin cfg1.N) (h : t.val ≠ 0) :
    accs V c t.val t.isLt = (k1_pay13 (iblk1 V c 4 t) (FN V c) (accs V c (t.val - 1) (Nat.lt_of_le_of_lt (Nat.sub_le _ _) t.isLt)).1,
      k1_pay12 (iblk1 V c 4 t) (FN V c) (accs V c (t.val - 1) (Nat.lt_of_le_of_lt (Nat.sub_le _ _) t.isLt)).2) := by
  obtain ⟨n, hn⟩ := t
  cases n with
  | zero => exact absurd rfl h
  | succ n => rfl

abbrev scM0 : Memref sig .tc .vmem S128x512 .f32 := Memref.whole cc1_scratch0
abbrev scM1 : Memref sig .tc .vmem S128x512 .f32 := Memref.whole cc1_scratch1
abbrev scM2 : Memref sig .tc .vmem S128x1 .f32 := Memref.whole cc1_scratch2

/-- The other region's staging buffers, each whole at some contents. -/
def rest3 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f))

/-- The class invariant with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

/-- The region invariant before position `n`: before the first point the class's; afterwards the scratch buffers at the
    features and at the accumulators the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM0 fullShare (FN V c) ∗ owns (c : Thread nD τ) scM1 fullShare (accs V c n hn).1 ∗ owns (c : Thread nD τ) scM2 fullShare (accs V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM0 fullShare (FN V c) ∗ owns (c : Thread nD τ) scM1 fullShare (accs V c n hn).1 ∗ owns (c : Thread nD τ) scM2 fullShare (accs V c n hn).2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM0 fullShare (FN V c) ∗ owns (c : Thread nD τ) scM1 fullShare (accs V c (n - 1) (by omega)).1 ∗ owns (c : Thread nD τ) scM2 fullShare (accs V c (n - 1) (by omega)).2) ∗ (∃ r, prngReg c r)) := by
  cases n with
  | zero => exact absurd rfl hz
  | succ n => rfl

/-- The proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay10 (iblk1 V c 4 t) (FN V c)
    | ⟨6, _⟩ => k1_pay1 (accs V c t.val t.isLt).1 (accs V c t.val t.isLt).2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay10 (iblk1 V c 4 t) (FN V c) := by dsimp only [dat1]
theorem after1_6 (c : Dev nD) (t : Fin cfg1.N) : (dat1 V c).after 6 t = k1_pay1 (accs V c t.val t.isLt).1 (accs V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem PhiS_castSucc (c : Dev nD) (t : Fin cfg1.N) :
    (dat1 V c).Φ t.castSucc = PhiS V c t.val (Nat.le_of_lt t.isLt) := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem fin_zero (t : Fin cfg1.N) (h : t.val = 0) : t = ⟨0, N_pos⟩ := Fin.ext h

set_option maxHeartbeats 4000000 in
/-- The body at any point, by the case the point is in. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    show (dat1 V c).leavesExact 3 t = owns (c : Thread nD τ) (st1_3 t) fullShare ((dat1 V c).after 3 t) from rfl,
    show (dat1 V c).leavesExact 4 t = owns (c : Thread nD τ) (st1_4 t) fullShare ((dat1 V c).after 4 t) from rfl,
    show (dat1 V c).leavesExact 5 t = owns (c : Thread nD τ) (st1_5 t) fullShare ((dat1 V c).after 5 t) from rfl]
  rw [after1_0, after1_1, after1_2, after1_3, after1_4, after1_5]
  have hN : t.val < 193 := lt_of_lt_of_eq t.isLt N_1
  by_cases h0 : t.val = 0
  · have hE : ¬ condE (grid1.coords t) := fun h => by have := (hcondE t).mp h; omega
    rw [Dat.leavesExact_idle (dat1 V c) 6 t (idle6 t hE) (noFlush6 t hE)]
    rw [accs_zero V c t h0]
    rw [PhiS_castSucc V c t, PhiS_zero V c _ _ h0, PhiA1_eq]
    have hFN : FN V c = fnOf (iblk1 V c 0 t) (iblk1 V c 1 t) (iblk1 V c 2 t) (iblk1 V c 3 t) := by
      obtain rfl := fin_zero t h0; rfl
    rw [hFN]
    iintro ⟨⟨⟨HR0, HR1, HR2, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (sound_first c Set.univ (grid1.coords t) _ _ _ _ _ _ _ _ _ _ _ _ _ _ _ _ _ _ _ _ ((hcondP t).mpr h0) hE (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HR0 HR1 HR2 HS0 HS1 HS2 Hg]
    · isplitl [HR0 HR1 HR2 HS0 HS1 HS2]
      · isplitl [HR0]; · iexact HR0
        isplitl [HR1]; · iexact HR1
        isplitl [HR2]; · iexact HR2
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [accs_pos V c t h0]
    rw [PhiS_castSucc V c t, PhiS_pos V c _ _ h0]
    by_cases hL : t.val = 192
    · have hE : condE (grid1.coords t) := (hcondE t).mpr hL
      rw [show (dat1 V c).leavesExact 6 t = owns (c : Thread nD τ) (st1_6 t) fullShare ((dat1 V c).after 6 t) from by
        unfold Dat.leavesExact; rw [live6 t hE], after1_6, accs_pos V c t h0]
      iintro ⟨⟨⟨HR0, HR1, HR2, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (sound_last c Set.univ (grid1.coords t) _ _ _ _ _ _ _ _ _ _ _ _ _ _ _ _ _ _ _ _ (fun h => h0 ((hcondP t).mp h)) hE (iblk1 V c 0 t) (iblk1 V c 1 t) (iblk1 V c 2 t) (iblk1 V c 3 t) (iblk1 V c 4 t) _ _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HR0 HR1 HR2 HS0 HS1 HS2 Hg]
      · isplitl [HR0 HR1 HR2 HS0 HS1 HS2]
        · isplitl [HR0]; · iexact HR0
          isplitl [HR1]; · iexact HR1
          isplitl [HR2]; · iexact HR2
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hE : ¬ condE (grid1.coords t) := fun h => hL ((hcondE t).mp h)
      rw [Dat.leavesExact_idle (dat1 V c) 6 t (idle6 t hE) (noFlush6 t hE)]
      iintro ⟨⟨⟨HR0, HR1, HR2, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (sound_mid c Set.univ (grid1.coords t) _ _ _ _ _ _ _ _ _ _ _ _ _ _ _ _ _ _ _ _ (fun h => h0 ((hcondP t).mp h)) hE (iblk1 V c 0 t) (iblk1 V c 1 t) (iblk1 V c 2 t) (iblk1 V c 3 t) (iblk1 V c 4 t) _ _ _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HR0 HR1 HR2 HS0 HS1 HS2 Hg]
      · isplitl [HR0 HR1 HR2 HS0 HS1 HS2]
        · isplitl [HR0]; · iexact HR0
          isplitl [HR1]; · iexact HR1
          isplitl [HR2]; · iexact HR2
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 193 := N_1; omega), PhiA1_eq]
  iintro ⟨⟨HR0, HR1, HR2, HS0, HS1, HS2⟩, Hg⟩
  isplitl [HR0 HR1 HR2 HS0 HS1 HS2]
  · isplitl [HR0]; · iexact HR0
    isplitl [HR1]; · iexact HR1
    isplitl [HR2]; · iexact HR2
    isplitl [HS0]; · iexists _; iexact HS0
    isplitl [HS1]; · iexists _; iexact HS1
    iexists _; iexact HS2
  iexact Hg

end

end Cert.KernelIdeal.Flash

end
-- ==== Proof.RunI.lean ====
import proofs.«131505_g24936580120849_cont_9to1_1340_2_alg».proof.Proof.StatsDatI
import proofs.«131505_g24936580120849_cont_9to1_1340_2_alg».proof.Proof.FlashDatI
import proofs.«131505_g24936580120849_cont_9to1_1340_2_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Stats Cert.KernelIdeal.Flash

variable {F : FTy → Type} [FloatOps F] [Named F]

local notation "𝕄" => MT nD τ sig Unit (Elt F) ℕ (UR sig nD τ) ℕ

/-! # The whole run: @main's four segments from the launch to the return

  The buffer contents at each segment boundary form a fold from the launch memory: the two reshapes before the first
  region, the first region's accumulator array at what its write-back leaves, the second region's two result arrays
  at what their write-backs leave, the two reshapes after it. Every weakly fair execution ends with every unscoped
  buffer at the last boundary's contents. -/

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)
/-- After the two reshapes before the regions. -/
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
/-- At the first region's exit. -/
def B2 (c : Dev nD) : Valuation τ sig (Elt F) :=
  Pipeline.withArrays spec0 c (B1 m ρ c) fun w => (dat0 (U1 m ρ) c).arrAt w cfg0.N
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hF0 (c : Dev nD) (w : Fin cfg0.W) : (dat0 (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)
/-- At the second region's exit. -/
def B3 (c : Dev nD) : Valuation τ sig (Elt F) :=
  Pipeline.withArrays spec1 c (B2 m ρ c) fun w => (dat1 (U2 m ρ) c).arrAt w cfg1.N
theorem B3_arr (c : Dev nD) (w : Fin cfg1.W) :
    B3 m ρ c (Proc.devRef .tc (Pipeline.arrRef spec1 w)) = (dat1 (U2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev U3 : (c : Dev nD) → (b : Ref sig .tc) → Buf (Elt F) ((c : Thread nD τ).loc b) := fun c b => B3 m ρ c b
theorem hF1 (c : Dev nD) (w : Fin cfg1.W) : (dat1 (U2 m ρ) c).arrAt w cfg1.N = U3 m ρ c (Pipeline.arrRef spec1 w) :=
  (B3_arr m ρ c w).symm
theorem hrest1 (c : Dev nD) : ∀ b, b ∉ Finset.univ.image (Pipeline.arrRef spec1) → U3 m ρ c b = U2 m ρ c b :=
  fun b hb => B3_of_ne m ρ c b fun w e => hb (Finset.mem_image.mpr ⟨w, Finset.mem_univ _, e⟩)
/-- After the two reshapes that follow the regions. -/
abbrev B4 : Dev nD → Valuation τ sig (Elt F) := fun c => StableHlo.after hostOps2 (B3 m ρ c)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

set_option backward.isDefEq.respectTransparency.types false in
/-- Region 0 over the thread state: entered from every unscoped buffer at the boundary before it, left at the one
    after it; its arrays are split out of the unscoped buffers on entry and put back at their final contents on exit;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it; its arrays are split out of the unscoped buffers on entry and put back at their final contents on exit;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (U2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four segments in order. -/
abbrev segsR : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)) ]
theorem main_run (c : Dev nD) : main (F := F) c = Pipeline.Seg.run (segsR m ρ) := (main_chain c).trans (by chain_rfl)

theorem hlast (c : Dev nD) :
    iprop(StableHlo.held (c : Thread nD τ) (Pipeline.ucRefs τ sig) (B4 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- Every weakly fair execution of @main from memory `m` with zero counters terminates, nothing faulting, and every
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segsR m ρ)
    (fun c Q => by rw [main_run m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

end Cert.KernelIdeal.Run

end
-- ==== Proof.ArrI.lean ====
import proofs.«131505_g24936580120849_cont_9to1_1340_2_alg».proof.Proof.StatsDatI
import Idealize.ShloMosaic.Lib.ValueIdx
import proofs.«131505_g24936580120849_cont_9to1_1340_2_alg».proof.Proof.FlashDatI

set_option maxRecDepth 16384

noncomputable section

namespace Cert.KernelIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Stats Cert.KernelIdeal.Flash

variable {F : FTy → Type} [FloatOps F] [Named F]

local notation "𝕄" => MT nD τ sig Unit (Elt F) ℕ (UR sig nD τ) ℕ

/-! # What the regions' result arrays hold after the run

  The statistics array and the keyword array are each one block, written back once after the last grid point; the
  score array is tiled by 193 column blocks of width 256, each written back after its own point. -/

section
variable (V : (c : Dev nD) → (b : Ref sig .tc) → Buf (Elt F) ((c : Thread nD τ).loc b))

abbrev tL0 : Fin cfg0.N := ⟨192, by decide⟩
abbrev tL1 : Fin cfg1.N := ⟨192, by decide⟩

/-- The statistics array after the run: the accumulator after the last point. -/
def G1 (c : Dev nD) : Buf (Elt F) ((c : Thread nD τ).loc main_v2) := acc0 V c 192 (by decide)

theorem flushed0_1 (c : Dev nD) (t : Fin cfg0.N) (hf : (cfg0.win 1).flush t = true) :
    (dat0 V c).flushed 1 t = ((cfg0.win 1).blk t).view.read (Elt F) (G1 V c) := by
  have hN : t.val < 193 := lt_of_lt_of_eq t.isLt N_0
  have h1 : t.val = 192 := by have := (flush0_1 t).mp hf; omega
  obtain rfl : t = tL0 := Fin.ext h1
  show (cfg0.win 1).cut (grid0.coords tL0) ((dat0 V c).after 1 tL0) = _
  rw [after0_1]
  have hz' : (fun a => win0_1.index tL0 a * main_v2.ty.shape.size a) = fun _ => 0 := funext fun a => by fin_cases a <;> decide
  exact (Memref.read_access_unit_zero (Elt F) main_v2 hz' (fun a => by rw [congrFun hz' a]; simp) (G1 V c)).symm

theorem final0_1 (c : Dev nD) : (dat0 V c).arrAt 1 cfg0.N = G1 V c :=
  (dat0 V c).arrAt_eq_of_cover 1 (G1 V c) (flushed0_1 V c) fun i =>
    ⟨tL0, (flush0_1 tL0).mpr rfl, by
      show i ∈ ((View.whole main_v2).slice (win0_1.rect tL0)).set
      rw [View.set_slice_whole, Rect.mem_set_unit]
      intro a
      have h0 : (i 0 : Nat) < 2 := (i 0).isLt
      have h1 : (i 1 : Nat) < 512 := (i 1).isLt
      match a with
      | ⟨0, _⟩ => show win0_1.index tL0 0 * win0_1.size 0 ≤ (i 0 : Nat) ∧ (i 0 : Nat) < win0_1.index tL0 0 * win0_1.size 0 + win0_1.xsize (grid0.coords tL0) 0
                  rw [show win0_1.index tL0 0 * win0_1.size 0 = 0 from by decide +kernel, show win0_1.xsize (grid0.coords tL0) 0 = 2 from by decide +kernel]; omega
      | ⟨1, _⟩ => show win0_1.index tL0 1 * win0_1.size 1 ≤ (i 1 : Nat) ∧ (i 1 : Nat) < win0_1.index tL0 1 * win0_1.size 1 + win0_1.xsize (grid0.coords tL0) 1
                  rw [show win0_1.index tL0 1 * win0_1.size 1 = 0 from by decide +kernel, show win0_1.xsize (grid0.coords tL0) 1 = 512 from by decide +kernel]; omega⟩

/-- The keyword array after the run: numerator over denominator after the last point. -/
def G6 (c : Dev nD) : Buf (Elt F) ((c : Thread nD τ).loc main_v3_1) :=
  k1_pay1 (accs V c 192 (by decide)).1 (accs V c 192 (by decide)).2

theorem flushed1_6 (c : Dev nD) (t : Fin cfg1.N) (hf : (cfg1.win 6).flush t = true) :
    (dat1 V c).flushed 6 t = ((cfg1.win 6).blk t).view.read (Elt F) (G6 V c) := by
  have hN : t.val < 193 := lt_of_lt_of_eq t.isLt N_1
  have h1 : t.val = 192 := by have := (flush1_6 t).mp hf; omega
  obtain rfl : t = tL1 := Fin.ext h1
  show (cfg1.win 6).cut (grid1.coords tL1) ((dat1 V c).after 6 tL1) = _
  rw [after1_6]
  have hz' : (fun a => win1_6.index tL1 a * main_v3_1.ty.shape.size a) = fun _ => 0 := funext fun a => by fin_cases a <;> decide
  exact (Memref.read_access_unit_zero (Elt F) main_v3_1 hz' (fun a => by rw [congrFun hz' a]; simp) (G6 V c)).symm

theorem final1_6 (c : Dev nD) : (dat1 V c).arrAt 6 cfg1.N = G6 V c :=
  (dat1 V c).arrAt_eq_of_cover 6 (G6 V c) (flushed1_6 V c) fun i =>
    ⟨tL1, (flush1_6 tL1).mpr rfl, by
      show i ∈ ((View.whole main_v3_1).slice (win1_6.rect tL1)).set
      rw [View.set_slice_whole, Rect.mem_set_unit]
      intro a
      have h0 : (i 0 : Nat) < 128 := (i 0).isLt
      have h1 : (i 1 : Nat) < 512 := (i 1).isLt
      match a with
      | ⟨0, _⟩ => show win1_6.index tL1 0 * win1_6.size 0 ≤ (i 0 : Nat) ∧ (i 0 : Nat) < win1_6.index tL1 0 * win1_6.size 0 + win1_6.xsize (grid1.coords tL1) 0
                  rw [show win1_6.index tL1 0 * win1_6.size 0 = 0 from by decide +kernel, show win1_6.xsize (grid1.coords tL1) 0 = 128 from by decide +kernel]; omega
      | ⟨1, _⟩ => show win1_6.index tL1 1 * win1_6.size 1 ≤ (i 1 : Nat) ∧ (i 1 : Nat) < win1_6.index tL1 1 * win1_6.size 1 + win1_6.xsize (grid1.coords tL1) 1
                  rw [show win1_6.index tL1 1 * win1_6.size 1 = 0 from by decide +kernel, show win1_6.xsize (grid1.coords tL1) 1 = 512 from by decide +kernel]; omega⟩

/-- Facts about the score window's block index and extents, decided over the grid. -/
theorem idx5 : ∀ t : Fin cfg1.N, win1_5.index t 0 = 0 ∧ win1_5.index t 1 = t.val :=
  (by decide +kernel : ∀ t : Fin grid1.N, win1_5.index t 0 = 0 ∧ win1_5.index t 1 = t.val)
theorem xsize5 : ∀ t : Fin cfg1.N, win1_5.xsize (grid1.coords t) 0 = 128 ∧ win1_5.xsize (grid1.coords t) 1 = 256 :=
  (by decide +kernel : ∀ t : Fin grid1.N, win1_5.xsize (grid1.coords t) 0 = 128 ∧ win1_5.xsize (grid1.coords t) 1 = 256)

/-- The scores of keyword row `p` against row `j` of the codebook tile of point `t`. -/
def cosAt (c : Dev nD) (t : Fin cfg1.N) (p : Fin 128) (j : Fin 256) : Elt F .f32 :=
  k1_pay10 (iblk1 V c 4 t) (FN V c) (ValueIdx.ix2 p j)

/-- The score array after the run: column `v` comes from tile `v / 256`, row `v % 256` of the tile. -/
def G5 (c : Dev nD) : Buf (Elt F) ((c : Thread nD τ).loc main_v3_0) := fun (i : S128x49408.Idx) =>
  cosAt V c ⟨(i 1 : Nat) / 256, by have h1 : (i 1 : Nat) < 49408 := (i 1).isLt; have : cfg1.N = 193 := N_1; omega⟩
    ⟨(i 0 : Nat), (i 0).isLt⟩ ⟨(i 1 : Nat) % 256, Nat.mod_lt _ (by decide)⟩

theorem G5_at (c : Dev nD) (t : Fin cfg1.N) (i : S128x49408.Idx) (x : S128x256.Idx)
    (h0 : (i 0 : Nat) = (x 0 : Nat)) (h1 : (i 1 : Nat) = 256 * t.val + (x 1 : Nat)) :
    G5 V c i = k1_pay10 (iblk1 V c 4 t) (FN V c) x := by
  have hx1 : (x 1 : Nat) < 256 := (x 1).isLt
  have e1 : (⟨(i 1 : Nat) / 256, by have h1 : (i 1 : Nat) < 49408 := (i 1).isLt; have : cfg1.N = 193 := N_1; omega⟩ : Fin cfg1.N) = t :=
    Fin.ext (by show (i 1 : Nat) / 256 = t.val; omega)
  have e2 : (⟨(i 0 : Nat), (i 0).isLt⟩ : Fin 128) = ⟨(x 0 : Nat), (x 0).isLt⟩ := Fin.ext h0
  have e3 : (⟨(i 1 : Nat) % 256, Nat.mod_lt _ (by decide)⟩ : Fin 256) = ⟨(x 1 : Nat), (x 1).isLt⟩ :=
    Fin.ext (by show (i 1 : Nat) % 256 = (x 1 : Nat); omega)
  unfold G5
  rw [e1, e2, e3]
  unfold cosAt
  exact congrArg _ (ValueIdx.eq_ix2 x).symm

theorem flushed1_5 (c : Dev nD) (t : Fin cfg1.N) (hf : (cfg1.win 5).flush t = true) :
    (dat1 V c).flushed 5 t = ((cfg1.win 5).blk t).view.read (Elt F) (G5 V c) := by
  show (cfg1.win 5).cut (grid1.coords t) ((dat1 V c).after 5 t) = _
  rw [after1_5]
  funext x
  rw [View.read_apply]
  show k1_pay10 (iblk1 V c 4 t) (FN V c) x = G5 V c (((cfg1.win 5).blk t).view.emb x)
  refine (G5_at V c t _ x ?_ ?_).symm
  · show win1_5.index t 0 * 128 + 1 * (x 0 : Nat) = (x 0 : Nat); rw [(idx5 t).1]; omega
  · show win1_5.index t 1 * 256 + 1 * (x 1 : Nat) = 256 * t.val + (x 1 : Nat); rw [(idx5 t).2]; omega

theorem final1_5 (c : Dev nD) : (dat1 V c).arrAt 5 cfg1.N = G5 V c :=
  (dat1 V c).arrAt_eq_of_cover 5 (G5 V c) (flushed1_5 V c) fun i => by
    have h0 : (i 0 : Nat) < 128 := (i 0).isLt
    have h1 : (i 1 : Nat) < 49408 := (i 1).isLt
    have hN : cfg1.N = 193 := N_1
    let T : Fin cfg1.N := ⟨(i 1 : Nat) / 256, by omega⟩
    refine ⟨T, flush1_5 T, ?_⟩
    show i ∈ ((View.whole main_v3_0).slice (win1_5.rect T)).set
    rw [View.set_slice_whole, Rect.mem_set_unit]
    intro a
    match a with
    | ⟨0, _⟩ =>
      show win1_5.index T 0 * 128 ≤ (i 0 : Nat) ∧ (i 0 : Nat) < win1_5.index T 0 * 128 + win1_5.xsize (grid1.coords T) 0
      rw [(idx5 T).1, (xsize5 T).1]; omega
    | ⟨1, _⟩ =>
      show win1_5.index T 1 * 256 ≤ (i 1 : Nat) ∧ (i 1 : Nat) < win1_5.index T 1 * 256 + win1_5.xsize (grid1.coords T) 1
      rw [(idx5 T).2, (xsize5 T).2]; show (i 1 : Nat) / 256 * 256 ≤ (i 1 : Nat) ∧ (i 1 : Nat) < (i 1 : Nat) / 256 * 256 + 256; omega

end

end Cert.KernelIdeal.Arr

end
-- ==== Proof.ReadI.lean ====
import proofs.«131505_g24936580120849_cont_9to1_1340_2_alg».proof.Proof.RunI
import proofs.«131505_g24936580120849_cont_9to1_1340_2_alg».proof.Proof.ArrI

set_option maxRecDepth 16384

noncomputable section

namespace Cert.KernelIdeal.Read

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Stats Cert.KernelIdeal.Flash Cert.KernelIdeal.Run Cert.KernelIdeal.Arr

variable {F : FTy → Type} [FloatOps F] [Named F]

local notation "𝕄" => MT nD τ sig Unit (Elt F) ℕ (UR sig nD τ) ℕ

/-! # The last boundary's contents, buffer by buffer

  No segment writes an argument array; the two result arrays are reshapes of the second region's result arrays; the
  regions find the reshaped audio features and bias, the projection, the codebook, and (the second region) the
  statistics the first region left. -/

variable (m : (ℓ : Loc nD τ sig) → Buf (Elt F) ℓ) (ρ : Dev nD → PrngReg)

theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B4_of (c : Dev nD) (r : Ref sig .tc) (h : r ∉ hostOps2_W) : B4 m ρ c (Proc.devRef .tc r) = B3 m ρ c (Proc.devRef .tc r) :=
  StableHlo.after_of_writes_sub hostOps2 _ hostOps2_writes h

/-! ## The arguments end as launched -/

theorem B4_arg0 (c : Dev nD) : B4 m ρ c (Proc.devRef .tc main_arg0) = m ((c : Thread nD τ).loc main_arg0) :=
  (B4_of m ρ c main_arg0 (by decide)).trans <| (B3_of_ne m ρ c main_arg0 (by decide)).trans <| (B2_of_ne m ρ c main_arg0 (by decide)).trans <| (B1_of m ρ c main_arg0 (by decide)).trans rfl
theorem B4_arg2 (c : Dev nD) : B4 m ρ c (Proc.devRef .tc main_arg2) = m ((c : Thread nD τ).loc main_arg2) :=
  (B4_of m ρ c main_arg2 (by decide)).trans <| (B3_of_ne m ρ c main_arg2 (by decide)).trans <| (B2_of_ne m ρ c main_arg2 (by decide)).trans <| (B1_of m ρ c main_arg2 (by decide)).trans rfl
/-- What the regions find in the codebook's buffer: the launch contents. -/
theorem U1_arg3 (c : Dev nD) : U1 m ρ c main_arg3 = m ((c : Thread nD τ).loc main_arg3) :=
  (B1_of m ρ c main_arg3 (by decide)).trans rfl
theorem U2_arg3 (c : Dev nD) : U2 m ρ c main_arg3 = m ((c : Thread nD τ).loc main_arg3) :=
  ((B2_arr m ρ c 0).trans (((dat0 (U1 m ρ) c).arrAt_in 0 rfl _).trans (A_eq0 (U1 m ρ) c 0))).trans (U1_arg3 m ρ c)
theorem U2_arg1 (c : Dev nD) : U2 m ρ c main_arg1 = m ((c : Thread nD τ).loc main_arg1) :=
  (B2_of_ne m ρ c main_arg1 (by decide)).trans <| (B1_of m ρ c main_arg1 (by decide)).trans rfl
theorem B4_arg1 (c : Dev nD) : B4 m ρ c (Proc.devRef .tc main_arg1) = m ((c : Thread nD τ).loc main_arg1) :=
  (B4_of m ρ c main_arg1 (by decide)).trans <| ((B3_arr m ρ c 1).trans (((dat1 (U2 m ρ) c).arrAt_in 1 rfl _).trans (A_eq1 (U2 m ρ) c 1))).trans (U2_arg1 m ρ c)
theorem B4_arg3 (c : Dev nD) : B4 m ρ c (Proc.devRef .tc main_arg3) = m ((c : Thread nD τ).loc main_arg3) :=
  (B4_of m ρ c main_arg3 (by decide)).trans <| ((B3_arr m ρ c 4).trans (((dat1 (U2 m ρ) c).arrAt_in 4 rfl _).trans (A_eq1 (U2 m ρ) c 4))).trans (U2_arg3 m ρ c)

/-! ## What the second region finds -/

/-- The statistics array: what the first region left. -/
theorem U2_v2 (c : Dev nD) : U2 m ρ c main_v2 = G1 (U1 m ρ) c :=
  (B2_arr m ρ c 1).trans (final0_1 (U1 m ρ) c)

/-- The flattened audio features: the reshape of the argument. -/
theorem U2_v0 (c : Dev nD) : (U2 m ρ c main_v0 : S128x768.Idx → Elt F .f32)
    = shapeCast S128x768 (m ((c : Thread nD τ).loc main_arg0) : S16x8x768.Idx → Elt F .f32) shapeCasts_S16x8x768_S128x768 := by
  refine (B2_of_ne m ρ c main_v0 (by decide)).trans ?_
  show StableHlo.after hostOps0 (B0 m ρ c) (Proc.devRef .tc main_v0) = _
  after_results
  rfl

/-- The bias as a row: the reshape of the argument. -/
theorem U2_v1 (c : Dev nD) : (U2 m ρ c main_v1 : S1x512.Idx → Elt F .f32)
    = shapeCast S1x512 (m ((c : Thread nD τ).loc main_arg2) : S512.Idx → Elt F .f32) shapeCasts_S512_S1x512 := by
  refine (B2_of_ne m ρ c main_v1 (by decide)).trans ?_
  show StableHlo.after hostOps0 (B0 m ρ c) (Proc.devRef .tc main_v1) = _
  after_results
  rfl

/-! ## The results -/

theorem B3_v3_1 (c : Dev nD) : B3 m ρ c (Proc.devRef .tc main_v3_1) = G6 (U2 m ρ) c :=
  (B3_arr m ρ c 6).trans (final1_6 (U2 m ρ) c)
theorem B3_v3_0 (c : Dev nD) : B3 m ρ c (Proc.devRef .tc main_v3_0) = G5 (U2 m ρ) c :=
  (B3_arr m ρ c 5).trans (final1_5 (U2 m ρ) c)

theorem B4_v4 (c : Dev nD) : (B4 m ρ c (Proc.devRef .tc main_v4) : S16x8x512.Idx → Elt F .f32)
    = shapeCast S16x8x512 (G6 (U2 m ρ) c : S128x512.Idx → Elt F .f32) shapeCasts_S128x512_S16x8x512 := by
  rw [← B3_v3_1 m ρ c]
  show StableHlo.after hostOps2 (B3 m ρ c) (Proc.devRef .tc main_v4) = _
  after_results
  rfl

theorem B4_v5 (c : Dev nD) : (B4 m ρ c (Proc.devRef .tc main_v5) : S16x8x49408.Idx → Elt F .f32)
    = shapeCast S16x8x49408 (G5 (U2 m ρ) c : S128x49408.Idx → Elt F .f32) shapeCasts_S128x49408_S16x8x49408 := by
  rw [← B3_v3_0 m ρ c]
  show StableHlo.after hostOps2 (B3 m ρ c) (Proc.devRef .tc main_v5) = _
  after_results
  rfl

end Cert.KernelIdeal.Read

end
-- ==== Proof.Frames.lean ====
/-
  The two kernel programs' frames: the whole run ends with every unscoped buffer at the last boundary's contents, and
  no segment writes an argument array.
-/
import proofs.«131505_g24936580120849_cont_9to1_1340_2_alg».proof.Defs
import proofs.«131505_g24936580120849_cont_9to1_1340_2_alg».proof.Proof.ReadB
import proofs.«131505_g24936580120849_cont_9to1_1340_2_alg».proof.Proof.ReadI
import proofs.«131505_g24936580120849_cont_9to1_1340_2_alg».proof.Proof.Gen.Pre_finite_inputs

noncomputable section

open Idealize.ShloMosaic Idealize.ShloMosaic.TcCoe Idealize.SL.Sem

namespace Cert.Proof.Frames

/-- The word-level kernel program runs to the end and leaves its four argument arrays as launched. -/
theorem frame_k : Cert.frame_Kernel := fun m ρ _ =>
  (θ_run (Cert.Kernel.defs (F := Bits)) _ _).mono (fun _ h c =>
    ⟨(h c _ (Cert.Kernel.Run.mem_uc Cert.Kernel.main_arg0 (by decide))).trans (Cert.Kernel.Read.B4_arg0 m ρ c),
     (h c _ (Cert.Kernel.Run.mem_uc Cert.Kernel.main_arg1 (by decide))).trans (Cert.Kernel.Read.B4_arg1 m ρ c),
     (h c _ (Cert.Kernel.Run.mem_uc Cert.Kernel.main_arg2 (by decide))).trans (Cert.Kernel.Read.B4_arg2 m ρ c),
     (h c _ (Cert.Kernel.Run.mem_uc Cert.Kernel.main_arg3 (by decide))).trans (Cert.Kernel.Read.B4_arg3 m ρ c)⟩)
    (Cert.Kernel.Run.run_all (F := Bits) m ρ)

/-- The idealized kernel program runs to the end and leaves its four argument arrays as launched. -/
theorem frame_ki : Cert.frame_KernelIdeal := fun m ρ _ =>
  (θ_run (Cert.KernelIdeal.defs (F := Ideal)) _ _).mono (fun _ h c =>
    ⟨(h c _ (Cert.KernelIdeal.Run.mem_uc Cert.KernelIdeal.main_arg0 (by decide))).trans (Cert.KernelIdeal.Read.B4_arg0 m ρ c),
     (h c _ (Cert.KernelIdeal.Run.mem_uc Cert.KernelIdeal.main_arg1 (by decide))).trans (Cert.KernelIdeal.Read.B4_arg1 m ρ c),
     (h c _ (Cert.KernelIdeal.Run.mem_uc Cert.KernelIdeal.main_arg2 (by decide))).trans (Cert.KernelIdeal.Read.B4_arg2 m ρ c),
     (h c _ (Cert.KernelIdeal.Run.mem_uc Cert.KernelIdeal.main_arg3 (by decide))).trans (Cert.KernelIdeal.Read.B4_arg3 m ρ c)⟩)
    (Cert.KernelIdeal.Run.run_all (F := Ideal) m ρ)

end Cert.Proof.Frames

end
-- ==== Proof.Spec.lean ====
/-
  The two programs' results as functions of the four argument arrays, written over plain index types.

  Rows of the flattened keyword matrix are numbered `p = 8 * b + t` (`pq b t`). Every float constant is a
  parameter, so that nothing here depends on how a bit pattern is read.

  `Ker`: the kernel's arrangement. The codebook's column statistics are the mean of the entries and the mean of their
  squares, the deviation `sqrt (max (E[x^2] - E[x]^2) 0)`; a cosine score is the dot product divided by the codebook
  row's norm; the keyword vector is `(sum_v exp(cos * kappa) * e_v) / (sum_v exp(cos * kappa))`.

  `Ref`: the reference's arrangement. The deviation is `sqrt` of the mean squared distance from the mean; the score
  is the dot product with the normalised codebook row; the keyword vector is the softmax (shifted by the row maximum)
  of `cos / tau` applied to the codebook.
-/
import Idealize.ShloMosaic.PureOps.Ideal

noncomputable section

namespace Cert.Spec

open Idealize.ShloMosaic

/-- Row `8 * b + t` of the flattened 128-row matrix. -/
def pq (b : Fin 16) (t : Fin 8) : Fin 128 := ⟨8 * b.val + t.val, by omega⟩

/-- The float constants both programs spell: the vocabulary size, the row count, the two epsilons, one and zero. -/
structure Consts where
  cV : EReal
  c128 : EReal
  e5 : EReal
  e8 : EReal
  c1 : EReal
  c0 : EReal

variable (K : Consts)
variable (a : Fin 128 → Fin 768 → EReal) (w : Fin 768 → Fin 512 → EReal) (b : Fin 512 → EReal)
  (e : Fin 49408 → Fin 512 → EReal)

/-! ## What both arrangements share -/

/-- The codebook's column mean. -/
def mean (d : Fin 512) : EReal := Ideal.div (∑ v, e v d) K.cV
/-- The projected features. -/
def feats (p : Fin 128) (d : Fin 512) : EReal := (∑ k, a p k * w k d) + b d
/-- The features' column mean over the 128 rows. -/
def mu (d : Fin 512) : EReal := Ideal.div (∑ p, feats a w b p d) K.c128
/-- The features' column variance over the 128 rows. -/
def var (d : Fin 512) : EReal :=
  Ideal.div (∑ p, (feats a w b p d - mu K a w b d) * (feats a w b p d - mu K a w b d)) K.c128
/-- The batch-normalised features. -/
def normed (p : Fin 128) (d : Fin 512) : EReal :=
  Ideal.div (feats a w b p d - mu K a w b d) (Ideal.sqrt (var K a w b d + K.e5))
/-- A codebook row's norm plus epsilon. -/
def cn (v : Fin 49408) : EReal := Ideal.sqrt (∑ d, e v d * e v d) + K.e8
/-- Rescaling by a column deviation `sd` and the codebook mean. -/
def rescaled (sd : Fin 512 → EReal) (p : Fin 128) (d : Fin 512) : EReal :=
  normed K a w b p d * (sd d * K.c1) + mean K e d
/-- A rescaled row's norm plus epsilon. -/
def rowNorm (sd : Fin 512 → EReal) (p : Fin 128) : EReal :=
  Ideal.sqrt (∑ d, rescaled K a w b e sd p d * rescaled K a w b e sd p d) + K.e8
/-- The row-normalised keyword features. -/
def unit (sd : Fin 512 → EReal) (p : Fin 128) (d : Fin 512) : EReal :=
  Ideal.div (rescaled K a w b e sd p d) (rowNorm K a w b e sd p)

/-! ## The kernel's arrangement -/

namespace Ker

/-- The mean of the squares of a codebook column. -/
def ex2 (d : Fin 512) : EReal := Ideal.div (∑ v, e v d * e v d) K.cV
/-- The column deviation as `sqrt (max (E[x^2] - E[x]^2) 0)`. -/
def sd (d : Fin 512) : EReal := Ideal.sqrt (max (ex2 K e d - mean K e d * mean K e d) K.c0)
/-- The cosine score: the dot product divided by the codebook row's norm. -/
def cos (p : Fin 128) (v : Fin 49408) : EReal :=
  Ideal.div (∑ d, unit K a w b e (sd K e) p d * e v d) (cn K e v)
/-- The unnormalised softmax weight, `kappa` the kernel's multiplier. -/
def wt (κ : EReal) (p : Fin 128) (v : Fin 49408) : EReal := Ideal.exp (cos K a w b e p v * κ)
/-- The keyword vector: weighted codebook sum over the weights' sum. -/
def kw (κ : EReal) (p : Fin 128) (d : Fin 512) : EReal :=
  Ideal.div (∑ v, wt K a w b e κ p v * e v d) (∑ v, wt K a w b e κ p v)

end Ker

/-! ## The reference's arrangement -/

namespace Ref

/-- The column deviation as `sqrt` of the mean squared distance from the mean. -/
def sd (d : Fin 512) : EReal :=
  Ideal.sqrt (Ideal.div (∑ v, (e v d - mean K e d) * (e v d - mean K e d)) K.cV)
/-- The cosine score: the dot product with the normalised codebook row. -/
def cos (p : Fin 128) (v : Fin 49408) : EReal :=
  ∑ d, unit K a w b e (sd K e) p d * Ideal.div (e v d) (cn K e v)
/-- The logit, `tau` the reference's divisor. -/
def logit (τ : EReal) (p : Fin 128) (v : Fin 49408) : EReal := Ideal.div (cos K a w b e p v) τ
/-- The row maximum of the logits. -/
def rowMax (τ : EReal) (p : Fin 128) : EReal := Finset.univ.sup fun v => logit K a w b e τ p v
/-- The shifted exponential. -/
def ex (τ : EReal) (p : Fin 128) (v : Fin 49408) : EReal :=
  Ideal.exp (logit K a w b e τ p v - rowMax K a w b e τ p)
/-- The softmax probability. -/
def prob (τ : EReal) (p : Fin 128) (v : Fin 49408) : EReal :=
  Ideal.div (ex K a w b e τ p v) (∑ u, ex K a w b e τ p u)
/-- The keyword vector: the probabilities applied to the codebook. -/
def kw (τ : EReal) (p : Fin 128) (d : Fin 512) : EReal := ∑ v, prob K a w b e τ p v * e v d

end Ref

end Cert.Spec

end
-- ==== Proof.SpecAt.lean ====
/-
  The specification read at the programs' arrays: the four argument arrays as functions of plain indices, the
  constants as the bit patterns both programs spell, and the multiplier and divisor of the softmax temperature.
-/
import Idealize.ShloMosaic.Lib.ValueIdx
import proofs.«131505_g24936580120849_cont_9to1_1340_2_alg».proof.Proof.Spec

noncomputable section

namespace Cert.SpecAt

open Idealize.ShloMosaic Idealize.ShloMosaic.ValueIdx

/-- The audio features, rows flattened: row `p` is batch `p / 8`, step `p % 8`. -/
def aOf (A : (⟨3, ![16, 8, 768]⟩ : Shape).Idx → EReal) (p : Fin 128) (k : Fin 768) : EReal :=
  A (ix3 (⟨p.val / 8, by omega⟩ : Fin 16) (⟨p.val % 8, by omega⟩ : Fin 8) k)
/-- The projection matrix. -/
def wOf (W : (⟨2, ![768, 512]⟩ : Shape).Idx → EReal) (k : Fin 768) (d : Fin 512) : EReal := W (ix2 k d)
/-- The projection bias. -/
def bOf (B : (⟨1, ![512]⟩ : Shape).Idx → EReal) (d : Fin 512) : EReal := B (ix1 d)
/-- The codebook. -/
def eOf (E : (⟨2, ![49408, 512]⟩ : Shape).Idx → EReal) (v : Fin 49408) (d : Fin 512) : EReal := E (ix2 v d)

/-- The constants as both programs spell them: 49408.0, 128.0, 9.99999974e-6, 9.99999993e-9, 1.0, 0.0. -/
def K0 : Cert.Spec.Consts where
  cV := Ideal.ofBits .f32 0x47410000#32
  c128 := Ideal.ofBits .f32 0x43000000#32
  e5 := Ideal.ofBits .f32 0x3727C5AC#32
  e8 := Ideal.ofBits .f32 0x322BCC77#32
  c1 := Ideal.ofBits .f32 0x3F800000#32
  c0 := Ideal.ofBits .f32 0x00000000#32

/-- The reference's temperature, the float nearest 0.1: 13421773 / 2^27. -/
def tau0 : EReal := Ideal.ofBits .f32 0x3DCCCCCD#32
/-- The kernel's multiplier, named the exact reciprocal of that float. -/
def kappa0 : EReal := ((134217728 / 13421773 : ℝ) : EReal)

end Cert.SpecAt

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«131505_g24936580120849_cont_9to1_1340_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.KerPay.lean ====
/-
  The kernel's payloads read at an index, at the exact (extended-real) instance.

  Each payload of the two kernel bodies is a chain of vector operations; read at one index it is a plain expression
  in the entries of the arrays it was given: a sum along an axis is a plain finite sum, a matrix product into a zero
  accumulator is the plain sum over the contracted position, a layout operation (recast, repeat, transpose, slice,
  stacking) only moves the index, and a pointwise operation acts on the entries.
-/
import proofs.«131505_g24936580120849_cont_9to1_1340_2_alg».proof.Proof.Gen.KernelIdeal.Skeleton
import proofs.«131505_g24936580120849_cont_9to1_1340_2_alg».proof.Proof.SpecAt
import proofs.«131505_g24936580120849_cont_9to1_1340_2_alg».proof.Proof.LibDenseRows
import proofs.«131505_g24936580120849_cont_9to1_1340_2_alg».proof.Proof.LibColumns
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.Pay

open Cert.KernelIdeal Cert.KernelIdeal.Gen Idealize.ShloMosaic Idealize.ShloMosaic.ValueIdx

/-! ## General lemmas -/

/-- The sum of an [A, B] array along its first axis, at d, is the sum over k of the array at (k, d). -/
theorem colSum_apply {A B : ℕ} {φ : FTy} (src : FVec Ideal ⟨2, ![A, B]⟩ φ) (acc : BitVec φ.bits)
    (h : (⟨2, ![A, B]⟩ : Shape).Reduces [0] ⟨1, ![B]⟩) (hφ : FKind.Formats φ) (hacc : acc = FKind.add.neutral φ hφ) (d : Fin B) :
    multiReduction .add [0] ⟨1, ![B]⟩ src acc h hφ hacc (ix1 d) = ∑ k : Fin A, src (ix2 k d) := by
  refine (Ideal.multiReduction_add_single src acc h hφ hacc (ix1 d)).trans ?_
  refine Finset.sum_congr rfl fun k _ => congrArg src (funext fun c => Fin.ext ?_)
  rw [h.lift_val]
  match c with
  | ⟨0, _⟩ => rfl
  | ⟨1, _⟩ => rfl

variable {M K N : ℕ}

/-- In a product of [M, K] by [K, N] the left operand's row is the result's row. -/
theorem lhsP_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem lhsP_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem rhsP_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhsP_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A product of an [M, K] array with a [K, N] array, into a zero accumulator, at (p, j): the sum over k of
    left (p, k) times right (k, j). -/
theorem matmulP_zero_apply {φ₁ φ₂ : FTy} (prec : Option ContractPrecision) (h : FVec Ideal ⟨2, ![M, K]⟩ φ₁)
    (w : FVec Ideal ⟨2, ![K, N]⟩ φ₂) (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhsP_0 _ _
      | ⟨1, _⟩ => exact (lhsP_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (rhsP_0 _ _).trans hk
      | ⟨1, _⟩ => exact rhsP_1 _ _)
  rw [el, er]

/-- The zero pattern denotes zero. -/
theorem K0_c0 : Cert.SpecAt.K0.c0 = 0 := Ideal.ofBits_zero_f32

/-- The kernel's named multiplier is the exact reciprocal of the temperature. -/
theorem inv_tau : Named.named (F := Ideal) Cert.KernelIdeal.κ "inv_tau" (φ := .f32) 0x41200000#32 = Cert.SpecAt.kappa0 :=
  IdealRules.named_const.ideal_named_scalar _ _ _ _ rfl

/-! ## The statistics body -/

/-- Row 0 of the statistics block: the column sums. -/
theorem pay1_row0 (x : Vec Ideal S256x512 .f32) (d : Fin 512) :
    k0_pay1 (F := Ideal) x (ix2 (0 : Fin 2) d) = ∑ j : Fin 256, x (ix2 j d) := by
  unfold k0_pay1
  refine (concatenate_pair_apply_left (t := S2x512) (s₁ := S1x512) (s₂ := S1x512) (0 : Fin 2) _ _ concatenates_S1x512_S1x512_S2x512_d0 (ix2 (0 : Fin 2) d) rfl
    (ix2 (0 : Fin 1) d) (fun b => by
      match b with
      | ⟨0, _⟩ => rfl
      | ⟨1, _⟩ => rfl)).trans ?_
  refine (shapeCast_a_1a_apply _ shapeCasts_S512_S1x512 0 d).trans ?_
  exact colSum_apply x _ reduces_S256x512_S512 (.inl rfl) rfl d

/-- Row 1 of the statistics block: the column sums of the squares. -/
theorem pay1_row1 (x : Vec Ideal S256x512 .f32) (d : Fin 512) :
    k0_pay1 (F := Ideal) x (ix2 (1 : Fin 2) d) = ∑ j : Fin 256, x (ix2 j d) * x (ix2 j d) := by
  unfold k0_pay1
  refine (concatenate_pair_apply_right (t := S2x512) (s₁ := S1x512) (s₂ := S1x512) (0 : Fin 2) _ _ concatenates_S1x512_S1x512_S2x512_d0 (ix2 (1 : Fin 2) d) rfl rfl
    (ix2 (0 : Fin 1) d) (fun b hb => by
      match b with
      | ⟨0, _⟩ => exact absurd rfl hb
      | ⟨1, _⟩ => rfl) rfl).trans ?_
  refine (shapeCast_a_1a_apply _ shapeCasts_S512_S1x512 0 d).trans ?_
  exact colSum_apply (mulf x x) _ reduces_S256x512_S512 (.inl rfl) rfl d

/-- A later step of the statistics body adds its block's sums to the running sums. -/
theorem pay2_apply (x : Vec Ideal S256x512 .f32) (s : Vec Ideal S2x512 .f32) (r : Fin 2) (d : Fin 512) :
    k0_pay2 (F := Ideal) x s (ix2 r d) = s (ix2 r d) + k0_pay1 (F := Ideal) x (ix2 r d) := by
  unfold k0_pay2
  exact congrArg (· + k0_pay1 (F := Ideal) x (ix2 r d)) (congrFun (shapeCast_self s shapeCasts_S2x512_S2x512) (ix2 r d))

/-! ## The main body: the running softmax -/

/-- The initial value of the weighted sums is zero. -/
theorem pay8_apply (p : Fin 128) (d : Fin 512) : k1_pay8 (F := Ideal) (ix2 p d) = 0 := by
  unfold k1_pay8
  exact (congrFun (shapeCast_self _ shapeCasts_S128x512_S128x512) (ix2 p d)).trans Ideal.ofBits_zero_f32

/-- The initial value of the weights' sum is zero. -/
theorem pay9_apply (p : Fin 128) : k1_pay9 (F := Ideal) (ix2 p (0 : Fin 1)) = 0 := by
  unfold k1_pay9
  exact (congrFun (shapeCast_self _ shapeCasts_S128x1_S128x1) (ix2 p (0 : Fin 1))).trans Ideal.ofBits_zero_f32

/-- The cosine scores of a codebook block: the dot product divided by the codebook row's norm plus epsilon. -/
theorem pay10_apply (x5 : Vec Ideal S256x512 .f32) (s8 : Vec Ideal S128x512 .f32) (p : Fin 128) (j : Fin 256) :
    k1_pay10 (F := Ideal) x5 s8 (ix2 p j)
      = Ideal.div (∑ d : Fin 512, s8 (ix2 p d) * x5 (ix2 j d))
          (Ideal.sqrt (∑ d : Fin 512, x5 (ix2 j d) * x5 (ix2 j d)) + Cert.SpecAt.K0.e8) := by
  unfold k1_pay10
  refine congrArg₂ Ideal.div ?_ ?_
  · exact Cert.DenseRows.matmulT_zero_apply (M := 128) (K := 512) (N := 256) none s8 x5 p j
  · refine (broadcastTo_1b_ab_apply _ broadcasts_S1x256_S128x256 p j).trans ?_
    refine (transpose_ix2_apply _ transposes_S256x1_p1_0_S1x256 (0 : Fin 1) j).trans ?_
    refine congrArg₂ (· + ·) (congrArg Ideal.sqrt ?_) rfl
    exact Cert.Columns.keepdimsSum_apply (mulf x5 x5) _ reduces_S256x512_S256 (.inl rfl) rfl shapeCasts_S256_S256x1 j 0

/-- The softmax weights of a codebook block. -/
theorem pay11_apply (x5 : Vec Ideal S256x512 .f32) (s8 : Vec Ideal S128x512 .f32) (p : Fin 128) (j : Fin 256) :
    k1_pay11 (F := Ideal) x5 s8 (ix2 p j) = Ideal.exp (k1_pay10 (F := Ideal) x5 s8 (ix2 p j) * Cert.SpecAt.kappa0) := by
  unfold k1_pay11
  exact congrArg (fun t => Ideal.exp (k1_pay10 (F := Ideal) x5 s8 (ix2 p j) * t)) inv_tau

/-- The weights' running sum after a block. -/
theorem pay12_apply (x5 : Vec Ideal S256x512 .f32) (s8 : Vec Ideal S128x512 .f32) (l : Vec Ideal S128x1 .f32) (p : Fin 128) :
    k1_pay12 (F := Ideal) x5 s8 l (ix2 p (0 : Fin 1))
      = l (ix2 p (0 : Fin 1)) + ∑ j : Fin 256, k1_pay11 (F := Ideal) x5 s8 (ix2 p j) := by
  unfold k1_pay12
  refine (congrFun (shapeCast_self _ shapeCasts_S128x1_S128x1) (ix2 p (0 : Fin 1))).trans ?_
  exact congrArg (l (ix2 p (0 : Fin 1)) + ·)
    (Cert.Columns.keepdimsSum_apply (k1_pay11 (F := Ideal) x5 s8) _ reduces_S128x256_S128 (.inl rfl) rfl shapeCasts_S128_S128x1 p 0)

/-- The weighted codebook sums after a block. -/
theorem pay13_apply (x5 : Vec Ideal S256x512 .f32) (s8 : Vec Ideal S128x512 .f32) (acc : Vec Ideal S128x512 .f32)
    (p : Fin 128) (d : Fin 512) :
    k1_pay13 (F := Ideal) x5 s8 acc (ix2 p d)
      = acc (ix2 p d) + ∑ j : Fin 256, k1_pay11 (F := Ideal) x5 s8 (ix2 p j) * x5 (ix2 j d) := by
  unfold k1_pay13
  refine (congrFun (shapeCast_self _ shapeCasts_S128x512_S128x512) (ix2 p d)).trans ?_
  exact congrArg (acc (ix2 p d) + ·)
    (matmulP_zero_apply (M := 128) (K := 256) (N := 512) none (k1_pay11 (F := Ideal) x5 s8) x5 p d)

/-- The keyword vector: the weighted sums over the weights' sum. -/
theorem pay1k_apply (acc : Vec Ideal S128x512 .f32) (l : Vec Ideal S128x1 .f32) (p : Fin 128) (d : Fin 512) :
    k1_pay1 (F := Ideal) acc l (ix2 p d) = Ideal.div (acc (ix2 p d)) (l (ix2 p (0 : Fin 1))) := by
  unfold k1_pay1
  exact congrArg (Ideal.div (acc (ix2 p d))) (Cert.Columns.broadcastTo_a1_ab_apply l broadcasts_S128x1_S128x512 p d)

end Cert.KernelIdeal.Pay

end
-- ==== Proof.KerPayB.lean ====
/-
  The kernel's normalised keyword features read at an index.

  The main body's first step computes, from the feature block, the projection, the bias and the codebook's running
  column sums, the batch-normalised features rescaled by the codebook's column deviation and mean, each row divided
  by its norm plus epsilon. Read at (p, d) this is the specification's `unit` with the kernel's column deviation.
-/
import proofs.«131505_g24936580120849_cont_9to1_1340_2_alg».proof.Proof.KerPay

noncomputable section

open scoped BigOperators

namespace Cert.KernelIdeal.Pay

open Cert.KernelIdeal Cert.KernelIdeal.Gen Idealize.ShloMosaic Idealize.ShloMosaic.ValueIdx

/-! ## The codebook's column mean and deviation from the running sums -/

/-- The running sums recast to their own shape are themselves. -/
theorem pay2k_eq (x4 : Vec Ideal S2x512 .f32) : k1_pay2 (F := Ideal) x4 = x4 :=
  shapeCast_self x4 shapeCasts_S2x512_S2x512

/-- The column mean: row 0 of the running sums over the vocabulary size. -/
theorem pay3_apply (x4 : Vec Ideal S2x512 .f32) (d : Fin 512) :
    k1_pay3 (F := Ideal) x4 (ix2 (0 : Fin 1) d) = Ideal.div (x4 (ix2 (0 : Fin 2) d)) Cert.SpecAt.K0.cV := by
  unfold k1_pay3
  refine congrArg₂ Ideal.div ?_ rfl
  refine (slice2_axis0_apply 0 _ slices_S2x512_o0_0_S1x512 (0 : Fin 1) d (0 : Fin 2) rfl).trans ?_
  exact congrFun (pay2k_eq x4) _

/-- The column deviation: the square root of the clamped mean of squares minus the squared mean. -/
theorem pay4_apply (x4 : Vec Ideal S2x512 .f32) (d : Fin 512) :
    k1_pay4 (F := Ideal) x4 (ix2 (0 : Fin 1) d)
      = Ideal.sqrt (max (Ideal.div (x4 (ix2 (1 : Fin 2) d)) Cert.SpecAt.K0.cV
          - k1_pay3 (F := Ideal) x4 (ix2 (0 : Fin 1) d) * k1_pay3 (F := Ideal) x4 (ix2 (0 : Fin 1) d)) Cert.SpecAt.K0.c0) := by
  unfold k1_pay4
  refine congrArg Ideal.sqrt (congrArg₂ max (congrArg₂ (· - ·) (congrArg₂ Ideal.div ?_ rfl) rfl) rfl)
  refine (slice2_axis0_apply 1 _ slices_S2x512_o1_0_S1x512 (0 : Fin 1) d (1 : Fin 2) rfl).trans ?_
  exact congrFun (pay2k_eq x4) _

/-! ## The batch-normalised features -/

/-- The projected features as the body spells them: the product into a zero accumulator plus the bias row repeated
    down the rows. -/
def featV (x1 : FVec Ideal S128x768 .f32) (x2 : FVec Ideal S768x512 .f32) (x3 : FVec Ideal S1x512 .f32) :
    FVec Ideal S128x512 .f32 :=
  addf (matmul dot_S128x768_S768x512_S128x512_1_0_0_1_n_n none (shapeCast S128x768 x1 shapeCasts_S128x768_S128x768) x2
      (constant (F := Ideal) S128x512 .f32 0x00000000#32))
    (broadcastTo S128x512 (shapeCast S1x512 x3 shapeCasts_S1x512_S1x512) broadcasts_S1x512_S128x512)

/-- The mean over the 128 rows, kept as one row. -/
def colMeanV (f : FVec Ideal S128x512 .f32) : FVec Ideal S1x512 .f32 :=
  divf (shapeCast S1x512 (multiReduction .add [0] S512 f 0x00000000#32 reduces_S128x512_S512 (.inl rfl) rfl)
      shapeCasts_S512_S1x512)
    (broadcast S1x512 (Scalar.ofBits (F := Ideal) .f32 0x43000000#32))

/-- The distance from the column mean. -/
def devV (f : FVec Ideal S128x512 .f32) : FVec Ideal S128x512 .f32 :=
  subf f (broadcastTo S128x512 (colMeanV f) broadcasts_S1x512_S128x512)

/-- The batch normalisation as the body spells it. -/
def normV (f : FVec Ideal S128x512 .f32) : FVec Ideal S128x512 .f32 :=
  divf (devV f)
    (broadcastTo S128x512 (sqrt (addf (colMeanV (mulf (devV f) (devV f)))
      (broadcast S1x512 (Scalar.ofBits (F := Ideal) .f32 0x3727C5AC#32)))) broadcasts_S1x512_S128x512)

/-- The payload is the batch normalisation of the projected features. -/
theorem pay5_eq (x1 : Vec Ideal S128x768 .f32) (x2 : Vec Ideal S768x512 .f32) (x3 : Vec Ideal S1x512 .f32) :
    k1_pay5 (F := Ideal) x1 x2 x3 = normV (featV x1 x2 x3) := rfl

theorem featV_apply (x1 : FVec Ideal S128x768 .f32) (x2 : FVec Ideal S768x512 .f32) (x3 : FVec Ideal S1x512 .f32)
    (p : Fin 128) (d : Fin 512) :
    featV x1 x2 x3 (ix2 p d) = (∑ k : Fin 768, x1 (ix2 p k) * x2 (ix2 k d)) + x3 (ix2 (0 : Fin 1) d) := by
  unfold featV
  have e1 : shapeCast S128x768 x1 shapeCasts_S128x768_S128x768 = x1 := shapeCast_self _ _
  rw [e1]
  refine congrArg₂ (· + ·) ?_ ?_
  · exact matmulP_zero_apply (M := 128) (K := 768) (N := 512) none x1 x2 p d
  · exact (broadcastTo_1b_ab_apply _ broadcasts_S1x512_S128x512 p d).trans
      (congrFun (shapeCast_self x3 shapeCasts_S1x512_S1x512) _)

theorem colMeanV_apply (f : FVec Ideal S128x512 .f32) (d : Fin 512) :
    colMeanV f (ix2 (0 : Fin 1) d) = Ideal.div (∑ p : Fin 128, f (ix2 p d)) Cert.SpecAt.K0.c128 := by
  unfold colMeanV
  refine congrArg₂ Ideal.div ?_ rfl
  exact (shapeCast_a_1a_apply _ shapeCasts_S512_S1x512 0 d).trans (colSum_apply f _ reduces_S128x512_S512 (.inl rfl) rfl d)

theorem devV_apply (f : FVec Ideal S128x512 .f32) (p : Fin 128) (d : Fin 512) :
    devV f (ix2 p d) = f (ix2 p d) - colMeanV f (ix2 (0 : Fin 1) d) := by
  unfold devV
  exact congrArg (f (ix2 p d) - ·) (broadcastTo_1b_ab_apply _ broadcasts_S1x512_S128x512 p d)

theorem normV_apply (f : FVec Ideal S128x512 .f32) (p : Fin 128) (d : Fin 512) :
    normV f (ix2 p d)
      = Ideal.div (devV f (ix2 p d))
          (Ideal.sqrt (colMeanV (mulf (devV f) (devV f)) (ix2 (0 : Fin 1) d) + Cert.SpecAt.K0.e5)) := by
  unfold normV
  exact congrArg (Ideal.div (devV f (ix2 p d))) (broadcastTo_1b_ab_apply _ broadcasts_S1x512_S128x512 p d)

/-- The batch-normalised features at (p, d), for any reading of the three arrays at plain indices. -/
theorem pay5_apply (x1 : Vec Ideal S128x768 .f32) (x2 : Vec Ideal S768x512 .f32) (x3 : Vec Ideal S1x512 .f32)
    (a : Fin 128 → Fin 768 → EReal) (w : Fin 768 → Fin 512 → EReal) (b : Fin 512 → EReal)
    (ha : ∀ p k, x1 (ix2 p k) = a p k) (hw : ∀ k d, x2 (ix2 k d) = w k d) (hb : ∀ d, x3 (ix2 (0 : Fin 1) d) = b d)
    (p : Fin 128) (d : Fin 512) :
    k1_pay5 (F := Ideal) x1 x2 x3 (ix2 p d) = Cert.Spec.normed Cert.SpecAt.K0 a w b p d := by
  have hfeat : ∀ q c, featV x1 x2 x3 (ix2 q c) = Cert.Spec.feats a w b q c := fun q c =>
    (featV_apply x1 x2 x3 q c).trans
      (congrArg₂ (· + ·) (Finset.sum_congr rfl fun k _ => congrArg₂ (· * ·) (ha q k) (hw k c)) (hb c))
  have hmu : ∀ c, colMeanV (featV x1 x2 x3) (ix2 (0 : Fin 1) c) = Cert.Spec.mu Cert.SpecAt.K0 a w b c := fun c =>
    (colMeanV_apply _ c).trans
      (congrArg (Ideal.div · Cert.SpecAt.K0.c128) (Finset.sum_congr rfl fun q _ => hfeat q c))
  have hdev : ∀ q c, devV (featV x1 x2 x3) (ix2 q c)
      = Cert.Spec.feats a w b q c - Cert.Spec.mu Cert.SpecAt.K0 a w b c := fun q c =>
    (devV_apply _ q c).trans (congrArg₂ (· - ·) (hfeat q c) (hmu c))
  have hvar : ∀ c, colMeanV (mulf (devV (featV x1 x2 x3)) (devV (featV x1 x2 x3))) (ix2 (0 : Fin 1) c)
      = Cert.Spec.var Cert.SpecAt.K0 a w b c := fun c =>
    (colMeanV_apply _ c).trans
      (congrArg (Ideal.div · Cert.SpecAt.K0.c128)
        (Finset.sum_congr rfl fun q _ => congrArg₂ (· * ·) (hdev q c) (hdev q c)))
  rw [pay5_eq]
  refine (normV_apply _ p d).trans ?_
  exact congrArg₂ Ideal.div (hdev p d) (congrArg Ideal.sqrt (congrArg (· + Cert.SpecAt.K0.e5) (hvar d)))

/-! ## The rescaled, row-normalised features -/

/-- The rescaling by the deviation row, the ones row and the mean row, as the body spells it. -/
def rescV (v39 v47 : FVec Ideal S1x512 .f32) (v75 : FVec Ideal S128x512 .f32) (v76 : FVec Ideal S1x512 .f32) :
    FVec Ideal S128x512 .f32 :=
  addf (mulf v75 (broadcastTo S128x512 (mulf v47 v76) broadcasts_S1x512_S128x512))
    (broadcastTo S128x512 v39 broadcasts_S1x512_S128x512)

theorem rescV_apply (v39 v47 : FVec Ideal S1x512 .f32) (v75 : FVec Ideal S128x512 .f32) (v76 : FVec Ideal S1x512 .f32)
    (p : Fin 128) (d : Fin 512) :
    rescV v39 v47 v75 v76 (ix2 p d)
      = v75 (ix2 p d) * (v47 (ix2 (0 : Fin 1) d) * v76 (ix2 (0 : Fin 1) d)) + v39 (ix2 (0 : Fin 1) d) := by
  unfold rescV
  exact congrArg₂ (· + ·)
    (congrArg (v75 (ix2 p d) * ·) (broadcastTo_1b_ab_apply (mulf v47 v76) broadcasts_S1x512_S128x512 p d))
    (broadcastTo_1b_ab_apply v39 broadcasts_S1x512_S128x512 p d)

/-- The payload divides each rescaled row by its norm plus epsilon. -/
theorem pay7_eq (v39 v47 : FVec Ideal S1x512 .f32) (v75 : FVec Ideal S128x512 .f32) (v76 : FVec Ideal S1x512 .f32) :
    k1_pay7 (F := Ideal) v39 v47 v75 v76
      = shapeCast S128x512 (divf (rescV v39 v47 v75 v76)
          (broadcastTo S128x512 (addf (sqrt (shapeCast S128x1
            (multiReduction .add [1] S128 (mulf (rescV v39 v47 v75 v76) (rescV v39 v47 v75 v76)) 0x00000000#32
              reduces_S128x512_S128 (.inl rfl) rfl) shapeCasts_S128_S128x1))
            (broadcast S128x1 (Scalar.ofBits (F := Ideal) .f32 0x322BCC77#32))) broadcasts_S128x1_S128x512))
          shapeCasts_S128x512_S128x512 := rfl

/-- The row-normalised features at (p, d) in terms of the rescaled entries of row p. -/
theorem pay7_apply (v39 v47 : FVec Ideal S1x512 .f32) (v75 : FVec Ideal S128x512 .f32) (v76 : FVec Ideal S1x512 .f32)
    (p : Fin 128) (d : Fin 512) :
    k1_pay7 (F := Ideal) v39 v47 v75 v76 (ix2 p d)
      = Ideal.div (rescV v39 v47 v75 v76 (ix2 p d))
          (Ideal.sqrt (∑ c : Fin 512, rescV v39 v47 v75 v76 (ix2 p c) * rescV v39 v47 v75 v76 (ix2 p c))
            + Cert.SpecAt.K0.e8) := by
  rw [pay7_eq]
  refine (congrFun (shapeCast_self _ shapeCasts_S128x512_S128x512) (ix2 p d)).trans ?_
  refine congrArg (Ideal.div (rescV v39 v47 v75 v76 (ix2 p d))) ?_
  refine (Cert.Columns.broadcastTo_a1_ab_apply _ broadcasts_S128x1_S128x512 p d).trans ?_
  refine congrArg (· + Cert.SpecAt.K0.e8) (congrArg Ideal.sqrt ?_)
  exact Cert.Columns.keepdimsSum_apply (mulf (rescV v39 v47 v75 v76) (rescV v39 v47 v75 v76)) _ reduces_S128x512_S128
    (.inl rfl) rfl shapeCasts_S128_S128x1 p 0

/-! ## The normalised keyword features -/

/-- The body's normalised keyword features at (p, d), for any reading of the arrays at plain indices, given that the
    running sums hold the codebook's column sums and column sums of squares. -/
theorem fn_apply_of (x1 : Vec Ideal S128x768 .f32) (x2 : Vec Ideal S768x512 .f32) (x3 : Vec Ideal S1x512 .f32)
    (x4 : Vec Ideal S2x512 .f32) (a : Fin 128 → Fin 768 → EReal) (w : Fin 768 → Fin 512 → EReal) (b : Fin 512 → EReal)
    (e : Fin 49408 → Fin 512 → EReal)
    (ha : ∀ p k, x1 (ix2 p k) = a p k) (hw : ∀ k d, x2 (ix2 k d) = w k d) (hb : ∀ d, x3 (ix2 (0 : Fin 1) d) = b d)
    (h0 : ∀ d, x4 (ix2 (0 : Fin 2) d) = ∑ v, e v d) (h1 : ∀ d, x4 (ix2 (1 : Fin 2) d) = ∑ v, e v d * e v d)
    (p : Fin 128) (d : Fin 512) :
    k1_pay7 (F := Ideal) (k1_pay3 x4) (k1_pay4 x4) (k1_pay5 x1 x2 x3) (k1_pay6 (F := Ideal)) (ix2 p d)
      = Cert.Spec.unit Cert.SpecAt.K0 a w b e (Cert.Spec.Ker.sd Cert.SpecAt.K0 e) p d := by
  have hmean : ∀ c, k1_pay3 (F := Ideal) x4 (ix2 (0 : Fin 1) c) = Cert.Spec.mean Cert.SpecAt.K0 e c := fun c =>
    (pay3_apply x4 c).trans (congrArg (Ideal.div · Cert.SpecAt.K0.cV) (h0 c))
  have hsd : ∀ c, k1_pay4 (F := Ideal) x4 (ix2 (0 : Fin 1) c) = Cert.Spec.Ker.sd Cert.SpecAt.K0 e c := fun c =>
    (pay4_apply x4 c).trans
      (congrArg Ideal.sqrt (congrArg (max · Cert.SpecAt.K0.c0)
        (congrArg₂ (· - ·) (congrArg (Ideal.div · Cert.SpecAt.K0.cV) (h1 c)) (congrArg₂ (· * ·) (hmean c) (hmean c)))))
  have hresc : ∀ q c, rescV (k1_pay3 (F := Ideal) x4) (k1_pay4 (F := Ideal) x4) (k1_pay5 (F := Ideal) x1 x2 x3)
        (k1_pay6 (F := Ideal)) (ix2 q c)
      = Cert.Spec.rescaled Cert.SpecAt.K0 a w b e (Cert.Spec.Ker.sd Cert.SpecAt.K0 e) q c := fun q c =>
    (rescV_apply _ _ _ _ q c).trans
      (congrArg₂ (· + ·)
        (congrArg₂ (· * ·) (pay5_apply x1 x2 x3 a w b ha hw hb q c) (congrArg (· * Cert.SpecAt.K0.c1) (hsd c)))
        (hmean c))
  refine (pay7_apply _ _ _ _ p d).trans ?_
  exact congrArg₂ Ideal.div (hresc p d)
    (congrArg (· + Cert.SpecAt.K0.e8) (congrArg Ideal.sqrt
      (Finset.sum_congr rfl fun c _ => congrArg₂ (· * ·) (hresc p c) (hresc p c))))

/-- The same with the three arrays read at plain indices as they stand. -/
theorem fn_apply (x1 : Vec Ideal S128x768 .f32) (x2 : Vec Ideal S768x512 .f32) (x3 : Vec Ideal S1x512 .f32)
    (x4 : Vec Ideal S2x512 .f32) (e : Fin 49408 → Fin 512 → EReal)
    (h0 : ∀ d, x4 (ix2 (0 : Fin 2) d) = ∑ v, e v d) (h1 : ∀ d, x4 (ix2 (1 : Fin 2) d) = ∑ v, e v d * e v d)
    (p : Fin 128) (d : Fin 512) :
    k1_pay7 (F := Ideal) (k1_pay3 x4) (k1_pay4 x4) (k1_pay5 x1 x2 x3) (k1_pay6 (F := Ideal)) (ix2 p d)
      = Cert.Spec.unit Cert.SpecAt.K0 (fun p k => x1 (ix2 p k)) (fun k d => x2 (ix2 k d))
          (fun d => x3 (ix2 (0 : Fin 1) d)) e (Cert.Spec.Ker.sd Cert.SpecAt.K0 e) p d :=
  fn_apply_of x1 x2 x3 x4 _ _ _ e (fun _ _ => rfl) (fun _ _ => rfl) (fun _ => rfl) h0 h1 p d

end Cert.KernelIdeal.Pay

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.KerVal.lean ====
/-
  The kernel's result arrays as the specification, at the exact (extended-real) instance.

  The statistics array holds the codebook's column sums and column sums of squares: each grid point adds its 256-row
  tile's sums, and the 193 tiles cover the 49408 rows. The score array holds, column v, the cosine score against
  codebook row v: tile v / 256, row v % 256 of the tile. The keyword array holds the weighted codebook sums over
  the weights' sum, both accumulated tile by tile.
-/
import proofs.«131505_g24936580120849_cont_9to1_1340_2_alg».proof.Proof.ArrI
import proofs.«131505_g24936580120849_cont_9to1_1340_2_alg».proof.Proof.KerPayB
import proofs.«131505_g24936580120849_cont_9to1_1340_2_alg».proof.Proof.LibChunkSum

set_option maxRecDepth 16384

noncomputable section

open scoped BigOperators

namespace Cert.KernelIdeal.KVal

open Cert.KernelIdeal Cert.KernelIdeal.Gen Cert.KernelIdeal.Stats Cert.KernelIdeal.Flash Cert.KernelIdeal.Arr
  Cert.KernelIdeal.Pay Idealize.ShloMosaic Idealize.ShloMosaic.ValueIdx
open Idealize.ShloMosaic.TcCoe Idealize.SL.Sem

variable (V : (c : Dev nD) → (b : Ref sig .tc) → Buf (Elt Ideal) ((c : Thread nD τ).loc b))

/-! ## Block reads -/

/-- The block index of the codebook window in the statistics region: row tile t, column tile 0. -/
theorem idx0_0 : ∀ t : Fin cfg0.N, win0_0.index t 0 = t.val ∧ win0_0.index t 1 = 0 :=
  (by decide +kernel : ∀ t : Fin grid0.N, win0_0.index t 0 = t.val ∧ win0_0.index t 1 = 0)

/-- The same window in the main region. -/
theorem idx1_4 : ∀ t : Fin cfg1.N, win1_4.index t 0 = t.val ∧ win1_4.index t 1 = 0 :=
  (by decide +kernel : ∀ t : Fin grid1.N, win1_4.index t 0 = t.val ∧ win1_4.index t 1 = 0)

/-- The codebook tile of point t in the statistics region is rows 256 t … 256 t + 255 of the codebook. -/
theorem iblk0_apply (c : Dev nD) (t : Fin cfg0.N) (j : Fin 256) (d : Fin 512) (v : Fin 49408)
    (hv : v.val = 256 * t.val + j.val) :
    (iblk0 V c 0 t : S256x512.Idx → EReal) (ix2 j d) = (V c main_arg3 : S49408x512.Idx → EReal) (ix2 v d) := by
  unfold iblk0
  rw [View.read_apply]
  show (V c main_arg3 : S49408x512.Idx → EReal) _ = (V c main_arg3 : S49408x512.Idx → EReal) _
  refine congrArg _ (funext fun a => Fin.ext ?_)
  match a with
  | ⟨0, _⟩ => show win0_0.index t 0 * 256 + 1 * j.val = v.val; rw [(idx0_0 t).1, hv]; omega
  | ⟨1, _⟩ => show win0_0.index t 1 * 512 + 1 * d.val = d.val; rw [(idx0_0 t).2]; omega

/-- The codebook tile of point t in the main region likewise. -/
theorem iblk1_4_apply (c : Dev nD) (t : Fin cfg1.N) (j : Fin 256) (d : Fin 512) (v : Fin 49408)
    (hv : v.val = 256 * t.val + j.val) :
    (iblk1 V c 4 t : S256x512.Idx → EReal) (ix2 j d) = (V c main_arg3 : S49408x512.Idx → EReal) (ix2 v d) := by
  unfold iblk1
  rw [View.read_apply]
  show (V c main_arg3 : S49408x512.Idx → EReal) _ = (V c main_arg3 : S49408x512.Idx → EReal) _
  refine congrArg _ (funext fun a => Fin.ext ?_)
  match a with
  | ⟨0, _⟩ => show win1_4.index t 0 * 256 + 1 * j.val = v.val; rw [(idx1_4 t).1, hv]; omega
  | ⟨1, _⟩ => show win1_4.index t 1 * 512 + 1 * d.val = d.val; rw [(idx1_4 t).2]; omega

/-- The four whole-array windows of the main region sit at block (0, 0) at every point. -/
theorem idx1_whole : ∀ t : Fin cfg1.N, (∀ a, win1_0.index t a = 0) ∧ (∀ a, win1_1.index t a = 0)
    ∧ (∀ a, win1_2.index t a = 0) ∧ (∀ a, win1_3.index t a = 0) :=
  (by decide +kernel : ∀ t : Fin grid1.N, (∀ a, win1_0.index t a = 0) ∧ (∀ a, win1_1.index t a = 0)
    ∧ (∀ a, win1_2.index t a = 0) ∧ (∀ a, win1_3.index t a = 0))

theorem iblk1_0_eq (c : Dev nD) (t : Fin cfg1.N) : (iblk1 V c 0 t : S128x768.Idx → EReal) = V c main_v0 := by
  have hz' : (fun a => win1_0.index t a * main_v0.ty.shape.size a) = fun _ => 0 :=
    funext fun a => by rw [(idx1_whole t).1 a, Nat.zero_mul]
  exact Memref.read_access_unit_zero (Elt Ideal) main_v0 hz' (fun a => by rw [congrFun hz' a]; simp) (V c main_v0)

theorem iblk1_1_eq (c : Dev nD) (t : Fin cfg1.N) : (iblk1 V c 1 t : S768x512.Idx → EReal) = V c main_arg1 := by
  have hz' : (fun a => win1_1.index t a * main_arg1.ty.shape.size a) = fun _ => 0 :=
    funext fun a => by rw [(idx1_whole t).2.1 a, Nat.zero_mul]
  exact Memref.read_access_unit_zero (Elt Ideal) main_arg1 hz' (fun a => by rw [congrFun hz' a]; simp) (V c main_arg1)

theorem iblk1_2_eq (c : Dev nD) (t : Fin cfg1.N) : (iblk1 V c 2 t : S1x512.Idx → EReal) = V c main_v1 := by
  have hz' : (fun a => win1_2.index t a * main_v1.ty.shape.size a) = fun _ => 0 :=
    funext fun a => by rw [(idx1_whole t).2.2.1 a, Nat.zero_mul]
  exact Memref.read_access_unit_zero (Elt Ideal) main_v1 hz' (fun a => by rw [congrFun hz' a]; simp) (V c main_v1)

theorem iblk1_3_eq (c : Dev nD) (t : Fin cfg1.N) : (iblk1 V c 3 t : S2x512.Idx → EReal) = V c main_v2 := by
  have hz' : (fun a => win1_3.index t a * main_v2.ty.shape.size a) = fun _ => 0 :=
    funext fun a => by rw [(idx1_whole t).2.2.2 a, Nat.zero_mul]
  exact Memref.read_access_unit_zero (Elt Ideal) main_v2 hz' (fun a => by rw [congrFun hz' a]; simp) (V c main_v2)

/-! ## Sums over the 193 tiles of 256 rows -/

/-- A sum over the tiles of the sums inside a tile is the sum over the 49408 rows. -/
theorem sum_tiles (T : Fin 49408 → EReal) :
    ∑ t : Fin 193, ∑ j : Fin 256, T ⟨256 * t.val + j.val, by have := t.isLt; have := j.isLt; omega⟩ = ∑ v, T v :=
  (Cert.LibChunkSum.sum_chunks 193 256 (M := EReal) T
    (fun t j => ⟨256 * t.val + j.val, by have := t.isLt; have := j.isLt; omega⟩) (fun _ _ => rfl)).symm

/-- A running total over the first n + 1 of 193 points, at the last point, is the total over all points. -/
theorem sum_range_points (f : ℕ → EReal) : ∑ k ∈ Finset.range (192 + 1), f k = ∑ t : Fin 193, f t.val :=
  Finset.sum_range f

/-! ## The statistics array -/

/-- What point k adds to entry (r, d) of the statistics accumulator. -/
def part0 (c : Dev nD) (k : ℕ) (r : Fin 2) (d : Fin 512) : EReal :=
  if h : k < cfg0.N then (k0_pay1 (F := Ideal) (iblk0 V c 0 ⟨k, h⟩) : S2x512.Idx → EReal) (ix2 r d) else 0

/-- The accumulator after point n holds the first n + 1 points' contributions. -/
theorem acc0_apply (c : Dev nD) (r : Fin 2) (d : Fin 512) : ∀ (n : ℕ) (hn : n < cfg0.N),
    (acc0 V c n hn : S2x512.Idx → EReal) (ix2 r d) = ∑ k ∈ Finset.range (n + 1), part0 V c k r d
  | 0, hn => by
    rw [Finset.sum_range_one, part0, dif_pos hn]
    rfl
  | n + 1, hn => by
    rw [Finset.sum_range_succ, ← acc0_apply c r d n (Nat.lt_of_succ_lt hn), part0, dif_pos hn]
    exact pay2_apply (iblk0 V c 0 ⟨n + 1, hn⟩) (acc0 V c n (Nat.lt_of_succ_lt hn)) r d

/-- The statistics array at (r, d): the sum over the tiles of the tile's pair at (r, d). -/
theorem G1_tiles (c : Dev nD) (r : Fin 2) (d : Fin 512) :
    (G1 V c : S2x512.Idx → EReal) (ix2 r d)
      = ∑ t : Fin 193, (k0_pay1 (F := Ideal) (iblk0 V c 0 ⟨t.val, lt_of_lt_of_eq t.isLt N_0.symm⟩) : S2x512.Idx → EReal) (ix2 r d) := by
  unfold G1
  rw [acc0_apply V c r d 192 (by decide), sum_range_points]
  refine Finset.sum_congr (M := EReal) rfl fun t _ => ?_
  rw [part0, dif_pos (lt_of_lt_of_eq t.isLt N_0.symm)]

/-- Row 0 of the statistics array: the codebook's column sums. -/
theorem G1_row0 (c : Dev nD) (e : Fin 49408 → Fin 512 → EReal)
    (hE : ∀ v d, (V c main_arg3 : S49408x512.Idx → EReal) (ix2 v d) = e v d) (d : Fin 512) :
    (G1 V c : S2x512.Idx → EReal) (ix2 (0 : Fin 2) d) = ∑ v, e v d := by
  rw [G1_tiles, ← sum_tiles (fun v => e v d)]
  refine Finset.sum_congr (M := EReal) rfl fun t _ => ?_
  rw [pay1_row0]
  exact Finset.sum_congr (M := EReal) rfl fun j _ => (iblk0_apply V c _ j d _ rfl).trans (hE _ d)

/-- Row 1 of the statistics array: the codebook's column sums of squares. -/
theorem G1_row1 (c : Dev nD) (e : Fin 49408 → Fin 512 → EReal)
    (hE : ∀ v d, (V c main_arg3 : S49408x512.Idx → EReal) (ix2 v d) = e v d) (d : Fin 512) :
    (G1 V c : S2x512.Idx → EReal) (ix2 (1 : Fin 2) d) = ∑ v, e v d * e v d := by
  rw [G1_tiles, ← sum_tiles (fun v => e v d * e v d)]
  refine Finset.sum_congr (M := EReal) rfl fun t _ => ?_
  rw [pay1_row1]
  exact Finset.sum_congr (M := EReal) rfl fun j _ =>
    congrArg₂ (· * ·) ((iblk0_apply V c _ j d _ rfl).trans (hE _ d)) ((iblk0_apply V c _ j d _ rfl).trans (hE _ d))

/-! ## The main region -/

section Main

variable (c : Dev nD) (a : Fin 128 → Fin 768 → EReal) (w : Fin 768 → Fin 512 → EReal) (b : Fin 512 → EReal)
  (e : Fin 49408 → Fin 512 → EReal)
  (h0 : ∀ p k, (V c main_v0 : S128x768.Idx → EReal) (ix2 p k) = a p k)
  (h1 : ∀ k d, (V c main_arg1 : S768x512.Idx → EReal) (ix2 k d) = w k d)
  (h2 : ∀ d, (V c main_v1 : S1x512.Idx → EReal) (ix2 (0 : Fin 1) d) = b d)
  (h3 : ∀ d, (V c main_v2 : S2x512.Idx → EReal) (ix2 (0 : Fin 2) d) = ∑ v, e v d)
  (h3' : ∀ d, (V c main_v2 : S2x512.Idx → EReal) (ix2 (1 : Fin 2) d) = ∑ v, e v d * e v d)
  (h4 : ∀ v d, (V c main_arg3 : S49408x512.Idx → EReal) (ix2 v d) = e v d)
include h0 h1 h2 h3 h3'

/-- The normalised keyword features the first point computes are the specification's. -/
theorem FN_apply (p : Fin 128) (d : Fin 512) :
    (FN V c : S128x512.Idx → EReal) (ix2 p d)
      = Cert.Spec.unit Cert.SpecAt.K0 a w b e (Cert.Spec.Ker.sd Cert.SpecAt.K0 e) p d := by
  unfold FN fnOf
  exact fn_apply_of (iblk1 V c 0 ⟨0, N_pos⟩) (iblk1 V c 1 ⟨0, N_pos⟩) (iblk1 V c 2 ⟨0, N_pos⟩) (iblk1 V c 3 ⟨0, N_pos⟩)
    a w b e
    (fun p k => (congrFun (iblk1_0_eq V c ⟨0, N_pos⟩) (ix2 p k)).trans (h0 p k))
    (fun k d => (congrFun (iblk1_1_eq V c ⟨0, N_pos⟩) (ix2 k d)).trans (h1 k d))
    (fun d => (congrFun (iblk1_2_eq V c ⟨0, N_pos⟩) (ix2 (0 : Fin 1) d)).trans (h2 d))
    (fun d => (congrFun (iblk1_3_eq V c ⟨0, N_pos⟩) (ix2 (0 : Fin 2) d)).trans (h3 d))
    (fun d => (congrFun (iblk1_3_eq V c ⟨0, N_pos⟩) (ix2 (1 : Fin 2) d)).trans (h3' d)) p d

include h4

omit h0 h1 h2 h3 h3' in
/-- Entry (j, d) of the codebook tile of point t is the codebook at row 256 t + j. -/
theorem tile_apply (t : Fin cfg1.N) (j : Fin 256) (d : Fin 512) (v : Fin 49408) (hv : v.val = 256 * t.val + j.val) :
    (iblk1 V c 4 t : S256x512.Idx → EReal) (ix2 j d) = e v d :=
  (iblk1_4_apply V c t j d v hv).trans (h4 v d)

/-- The score of keyword row p against row j of tile t is the specification's score against codebook row 256 t + j. -/
theorem cosAt_apply (t : Fin cfg1.N) (p : Fin 128) (j : Fin 256) (v : Fin 49408) (hv : v.val = 256 * t.val + j.val) :
    (cosAt V c t p j : EReal) = Cert.Spec.Ker.cos Cert.SpecAt.K0 a w b e p v := by
  unfold cosAt
  refine (pay10_apply (iblk1 V c 4 t) (FN V c) p j).trans ?_
  refine congrArg₂ Ideal.div ?_ (congrArg (· + Cert.SpecAt.K0.e8) (congrArg Ideal.sqrt ?_))
  · exact Finset.sum_congr rfl fun d _ =>
      congrArg₂ (· * ·) (FN_apply V c a w b e h0 h1 h2 h3 h3' p d) (tile_apply V c e h4 t j d v hv)
  · exact Finset.sum_congr rfl fun d _ =>
      congrArg₂ (· * ·) (tile_apply V c e h4 t j d v hv) (tile_apply V c e h4 t j d v hv)

/-- The score array is the specification's cosine scores. -/
theorem G5_apply (p : Fin 128) (v : Fin 49408) :
    (G5 V c : S128x49408.Idx → EReal) (ix2 p v) = Cert.Spec.Ker.cos Cert.SpecAt.K0 a w b e p v := by
  unfold G5
  exact cosAt_apply V c a w b e h0 h1 h2 h3 h3' h4 _ _ _ v (by
    show v.val = 256 * (v.val / 256) + v.val % 256
    omega)

/-- The softmax weight of keyword row p against row j of tile t is the specification's weight. -/
theorem wt_apply (t : Fin cfg1.N) (p : Fin 128) (j : Fin 256) (v : Fin 49408) (hv : v.val = 256 * t.val + j.val) :
    (k1_pay11 (F := Ideal) (iblk1 V c 4 t) (FN V c) : S128x256.Idx → EReal) (ix2 p j)
      = Cert.Spec.Ker.wt Cert.SpecAt.K0 a w b e Cert.SpecAt.kappa0 p v :=
  (pay11_apply (iblk1 V c 4 t) (FN V c) p j).trans
    (congrArg (fun x => Ideal.exp (x * Cert.SpecAt.kappa0)) (cosAt_apply V c a w b e h0 h1 h2 h3 h3' h4 t p j v hv))

end Main

/-! ## The two running sums of the main region -/

/-- What point k adds to entry (p, d) of the weighted codebook sums. -/
def partNum (c : Dev nD) (k : ℕ) (p : Fin 128) (d : Fin 512) : EReal :=
  if h : k < cfg1.N then
    ∑ j : Fin 256, (k1_pay11 (F := Ideal) (iblk1 V c 4 ⟨k, h⟩) (FN V c) : S128x256.Idx → EReal) (ix2 p j)
      * (iblk1 V c 4 ⟨k, h⟩ : S256x512.Idx → EReal) (ix2 j d)
  else 0

/-- What point k adds to entry p of the weights' sum. -/
def partDen (c : Dev nD) (k : ℕ) (p : Fin 128) : EReal :=
  if h : k < cfg1.N then
    ∑ j : Fin 256, (k1_pay11 (F := Ideal) (iblk1 V c 4 ⟨k, h⟩) (FN V c) : S128x256.Idx → EReal) (ix2 p j)
  else 0

/-- The weighted codebook sums after point n hold the first n + 1 points' contributions. -/
theorem accs_fst_apply (c : Dev nD) (p : Fin 128) (d : Fin 512) : ∀ (n : ℕ) (hn : n < cfg1.N),
    ((accs V c n hn).1 : S128x512.Idx → EReal) (ix2 p d) = ∑ k ∈ Finset.range (n + 1), partNum V c k p d
  | 0, hn => by
    rw [Finset.sum_range_one, partNum, dif_pos hn]
    refine (pay13_apply (iblk1 V c 4 ⟨0, hn⟩) (FN V c) (k1_pay8 (F := Ideal)) p d).trans ?_
    rw [pay8_apply, zero_add]
  | n + 1, hn => by
    rw [Finset.sum_range_succ, ← accs_fst_apply c p d n (Nat.lt_of_succ_lt hn), partNum, dif_pos hn]
    exact pay13_apply (iblk1 V c 4 ⟨n + 1, hn⟩) (FN V c) (accs V c n (Nat.lt_of_succ_lt hn)).1 p d

/-- The weights' sum after point n holds the first n + 1 points' contributions. -/
theorem accs_snd_apply (c : Dev nD) (p : Fin 128) : ∀ (n : ℕ) (hn : n < cfg1.N),
    ((accs V c n hn).2 : S128x1.Idx → EReal) (ix2 p (0 : Fin 1)) = ∑ k ∈ Finset.range (n + 1), partDen V c k p
  | 0, hn => by
    rw [Finset.sum_range_one, partDen, dif_pos hn]
    refine (pay12_apply (iblk1 V c 4 ⟨0, hn⟩) (FN V c) (k1_pay9 (F := Ideal)) p).trans ?_
    rw [pay9_apply, zero_add]
  | n + 1, hn => by
    rw [Finset.sum_range_succ, ← accs_snd_apply c p n (Nat.lt_of_succ_lt hn), partDen, dif_pos hn]
    exact pay12_apply (iblk1 V c 4 ⟨n + 1, hn⟩) (FN V c) (accs V c n (Nat.lt_of_succ_lt hn)).2 p

/-! ## The keyword array -/

section Keywords

variable (c : Dev nD) (a : Fin 128 → Fin 768 → EReal) (w : Fin 768 → Fin 512 → EReal) (b : Fin 512 → EReal)
  (e : Fin 49408 → Fin 512 → EReal)
  (h0 : ∀ p k, (V c main_v0 : S128x768.Idx → EReal) (ix2 p k) = a p k)
  (h1 : ∀ k d, (V c main_arg1 : S768x512.Idx → EReal) (ix2 k d) = w k d)
  (h2 : ∀ d, (V c main_v1 : S1x512.Idx → EReal) (ix2 (0 : Fin 1) d) = b d)
  (h3 : ∀ d, (V c main_v2 : S2x512.Idx → EReal) (ix2 (0 : Fin 2) d) = ∑ v, e v d)
  (h3' : ∀ d, (V c main_v2 : S2x512.Idx → EReal) (ix2 (1 : Fin 2) d) = ∑ v, e v d * e v d)
  (h4 : ∀ v d, (V c main_arg3 : S49408x512.Idx → EReal) (ix2 v d) = e v d)
include h0 h1 h2 h3 h3' h4

/-- The weighted codebook sums after the last point: the specification's numerator. -/
theorem num_apply (p : Fin 128) (d : Fin 512) :
    ((accs V c 192 (by decide)).1 : S128x512.Idx → EReal) (ix2 p d)
      = ∑ v, Cert.Spec.Ker.wt Cert.SpecAt.K0 a w b e Cert.SpecAt.kappa0 p v * e v d := by
  rw [accs_fst_apply V c p d 192 (by decide), sum_range_points,
    ← sum_tiles (fun v => Cert.Spec.Ker.wt Cert.SpecAt.K0 a w b e Cert.SpecAt.kappa0 p v * e v d)]
  refine Finset.sum_congr (M := EReal) rfl fun t _ => ?_
  rw [partNum, dif_pos (lt_of_lt_of_eq t.isLt N_1.symm)]
  exact Finset.sum_congr (M := EReal) rfl fun j _ =>
    congrArg₂ (· * ·) (wt_apply V c a w b e h0 h1 h2 h3 h3' h4 _ p j _ rfl) (tile_apply V c e h4 _ j d _ rfl)

/-- The weights' sum after the last point: the specification's denominator. -/
theorem den_apply (p : Fin 128) :
    ((accs V c 192 (by decide)).2 : S128x1.Idx → EReal) (ix2 p (0 : Fin 1))
      = ∑ v, Cert.Spec.Ker.wt Cert.SpecAt.K0 a w b e Cert.SpecAt.kappa0 p v := by
  rw [accs_snd_apply V c p 192 (by decide), sum_range_points,
    ← sum_tiles (fun v => Cert.Spec.Ker.wt Cert.SpecAt.K0 a w b e Cert.SpecAt.kappa0 p v)]
  refine Finset.sum_congr (M := EReal) rfl fun t _ => ?_
  rw [partDen, dif_pos (lt_of_lt_of_eq t.isLt N_1.symm)]
  exact Finset.sum_congr (M := EReal) rfl fun j _ => wt_apply V c a w b e h0 h1 h2 h3 h3' h4 _ p j _ rfl

/-- The keyword array is the specification's keyword vectors. -/
theorem G6_apply (p : Fin 128) (d : Fin 512) :
    (G6 V c : S128x512.Idx → EReal) (ix2 p d)
      = Cert.Spec.Ker.kw Cert.SpecAt.K0 a w b e Cert.SpecAt.kappa0 p d := by
  unfold G6
  refine (pay1k_apply (accs V c 192 (by decide)).1 (accs V c 192 (by decide)).2 p d).trans ?_
  exact congrArg₂ Ideal.div (num_apply V c a w b e h0 h1 h2 h3 h3' h4 p d) (den_apply V c a w b e h0 h1 h2 h3 h3' h4 p)

end Keywords

end Cert.KernelIdeal.KVal

end
-- ==== Proof.LibFlatten.lean ====
/-
  Reshapes between [16, 8, n] and [128, n], and [n] to [1, n], read at an index.

  Row-major order sends (b, t, d) of [16, 8, n] to (8 * b + t, d) of [128, n]: both sit at position
  (8 * b + t) * n + d. A leading unit axis does not move anything.
-/
import Idealize.ShloMosaic.Lib.ValueIdx
import Idealize.ShloMosaic.Lib.Pipeline.Value

noncomputable section

namespace Cert.LibFlatten

open Idealize.ShloMosaic Idealize.ShloMosaic.ValueIdx

variable {α : Type} {n : ℕ}

/-- Unflattening: the [16, 8, n] view of a [128, n] array at (b, t, d) is the array at (8 * b + t, d). -/
theorem unflatten_apply (x : (⟨2, ![128, n]⟩ : Shape).Idx → α) (h : (⟨2, ![128, n]⟩ : Shape).ShapeCasts ⟨3, ![16, 8, n]⟩)
    (b : Fin 16) (t : Fin 8) (d : Fin n) :
    shapeCast ⟨3, ![16, 8, n]⟩ x h (ix3 b t d) = x (ix2 (⟨8 * b.val + t.val, by omega⟩ : Fin 128) d) := by
  refine shapeCast_apply x h _ _ ?_
  rw [Shape.rowMajor_val_two, Shape.rowMajor_val_three]
  show (8 * b.val + t.val) * n + d.val = (b.val * 8 + t.val) * n + d.val
  rw [Nat.mul_comm 8 b.val]

/-- Flattening: the [128, n] view of a [16, 8, n] array at (p, k) is the array at (p / 8, p % 8, k). -/
theorem flatten_apply (x : (⟨3, ![16, 8, n]⟩ : Shape).Idx → α) (h : (⟨3, ![16, 8, n]⟩ : Shape).ShapeCasts ⟨2, ![128, n]⟩)
    (p : Fin 128) (k : Fin n) :
    shapeCast ⟨2, ![128, n]⟩ x h (ix2 p k)
      = x (ix3 (⟨p.val / 8, by omega⟩ : Fin 16) (⟨p.val % 8, by omega⟩ : Fin 8) k) := by
  refine shapeCast_apply x h _ _ ?_
  rw [Shape.rowMajor_val_two, Shape.rowMajor_val_three]
  show (p.val / 8 * 8 + p.val % 8) * n + k.val = p.val * n + k.val
  rw [Nat.div_add_mod']

/-- A vector as a one-row matrix: row 0, column d is entry d. -/
theorem asRow_apply (x : (⟨1, ![n]⟩ : Shape).Idx → α) (h : (⟨1, ![n]⟩ : Shape).ShapeCasts ⟨2, ![1, n]⟩) (d : Fin n) :
    shapeCast ⟨2, ![1, n]⟩ x h (ix2 (0 : Fin 1) d) = x (ix1 d) := by
  refine shapeCast_apply x h _ _ ?_
  rw [Shape.rowMajor_val_two, Shape.rowMajor_val_one]
  show d.val = 0 * n + d.val
  omega

end Cert.LibFlatten

end
-- ==== Proof.OutI.lean ====
/-
  The idealized kernel's run, read: the two result arrays are the kernel-arranged specification at the argument arrays.

  The result arrays are the [16, 8, n] views of the second region's [128, n] arrays; the second region finds the
  flattened audio features, the projection, the bias as a row, the first region's column sums and sums of squares,
  and the codebook.
-/
import proofs.«131505_g24936580120849_cont_9to1_1340_2_alg».proof.Proof.ReadI
import proofs.«131505_g24936580120849_cont_9to1_1340_2_alg».proof.Proof.KerVal
import proofs.«131505_g24936580120849_cont_9to1_1340_2_alg».proof.Proof.LibFlatten
import proofs.«131505_g24936580120849_cont_9to1_1340_2_alg».proof.Proof.SpecAt

noncomputable section

namespace Cert.KernelIdeal.Out

open Idealize.ShloMosaic Idealize.ShloMosaic.TcCoe Idealize.SL.Sem Idealize.ShloMosaic.ValueIdx
open Cert.KernelIdeal Cert.KernelIdeal.Gen Cert.KernelIdeal.Run Cert.KernelIdeal.Arr Cert.KernelIdeal.Read
open Cert.Spec Cert.SpecAt

/-- The keyword result as a function of the four argument arrays. -/
def kwOut (A : S16x8x768.Idx → EReal) (W : S768x512.Idx → EReal) (B : S512.Idx → EReal) (E : S49408x512.Idx → EReal) :
    S16x8x512.Idx → EReal :=
  fun i => Ker.kw K0 (aOf A) (wOf W) (bOf B) (eOf E) kappa0 (pq (i 0) (i 1)) (i 2)
/-- The score result as a function of the four argument arrays. -/
def cosOut (A : S16x8x768.Idx → EReal) (W : S768x512.Idx → EReal) (B : S512.Idx → EReal) (E : S49408x512.Idx → EReal) :
    S16x8x49408.Idx → EReal :=
  fun i => Ker.cos K0 (aOf A) (wOf W) (bOf B) (eOf E) (pq (i 0) (i 1)) (i 2)

variable (m : (ℓ : Loc nD τ sig) → Buf (Elt Ideal) ℓ) (ρ : Dev nD → PrngReg)

section
variable (c : Dev nD)

theorem h0 (p : Fin 128) (k : Fin 768) :
    (U2 m ρ c main_v0 : S128x768.Idx → EReal) (ix2 p k) = aOf (m ((c : Thread nD τ).loc main_arg0)) p k := by
  rw [U2_v0]; exact Cert.LibFlatten.flatten_apply _ _ p k
theorem h1 (k : Fin 768) (d : Fin 512) :
    (U2 m ρ c main_arg1 : S768x512.Idx → EReal) (ix2 k d) = wOf (m ((c : Thread nD τ).loc main_arg1)) k d := by
  rw [U2_arg1]; rfl
theorem h2 (d : Fin 512) :
    (U2 m ρ c main_v1 : S1x512.Idx → EReal) (ix2 (0 : Fin 1) d) = bOf (m ((c : Thread nD τ).loc main_arg2)) d := by
  rw [U2_v1]; exact Cert.LibFlatten.asRow_apply _ _ d
theorem hE1 (v : Fin 49408) (d : Fin 512) :
    (U1 m ρ c main_arg3 : S49408x512.Idx → EReal) (ix2 v d) = eOf (m ((c : Thread nD τ).loc main_arg3)) v d := by
  rw [U1_arg3]; rfl
theorem h4 (v : Fin 49408) (d : Fin 512) :
    (U2 m ρ c main_arg3 : S49408x512.Idx → EReal) (ix2 v d) = eOf (m ((c : Thread nD τ).loc main_arg3)) v d := by
  rw [U2_arg3]; rfl
theorem h3 (d : Fin 512) :
    (U2 m ρ c main_v2 : S2x512.Idx → EReal) (ix2 (0 : Fin 2) d) = ∑ v, eOf (m ((c : Thread nD τ).loc main_arg3)) v d := by
  rw [U2_v2]; exact Cert.KernelIdeal.KVal.G1_row0 (U1 m ρ) c _ (hE1 m ρ c) d
theorem h3' (d : Fin 512) :
    (U2 m ρ c main_v2 : S2x512.Idx → EReal) (ix2 (1 : Fin 2) d)
      = ∑ v, eOf (m ((c : Thread nD τ).loc main_arg3)) v d * eOf (m ((c : Thread nD τ).loc main_arg3)) v d := by
  rw [U2_v2]; exact Cert.KernelIdeal.KVal.G1_row1 (U1 m ρ) c _ (hE1 m ρ c) d

/-- The keyword result buffer at the end. -/
theorem B4_v4_eq : B4 m ρ c (Proc.devRef .tc main_v4)
    = kwOut (m ((c : Thread nD τ).loc main_arg0)) (m ((c : Thread nD τ).loc main_arg1)) (m ((c : Thread nD τ).loc main_arg2)) (m ((c : Thread nD τ).loc main_arg3)) := by
  funext i
  obtain ⟨b, t, d, rfl⟩ : ∃ (b : Fin 16) (t : Fin 8) (d : Fin 512), i = ix3 b t d := ⟨i 0, i 1, i 2, eq_ix3 i⟩
  refine (congrFun (B4_v4 m ρ c) (ix3 b t d)).trans ?_
  rw [Cert.LibFlatten.unflatten_apply]
  exact Cert.KernelIdeal.KVal.G6_apply (U2 m ρ) c _ _ _ _ (h0 m ρ c) (h1 m ρ c) (h2 m ρ c) (h3 m ρ c) (h3' m ρ c) (h4 m ρ c) (pq b t) d

/-- The score result buffer at the end. -/
theorem B4_v5_eq : B4 m ρ c (Proc.devRef .tc main_v5)
    = cosOut (m ((c : Thread nD τ).loc main_arg0)) (m ((c : Thread nD τ).loc main_arg1)) (m ((c : Thread nD τ).loc main_arg2)) (m ((c : Thread nD τ).loc main_arg3)) := by
  funext i
  obtain ⟨b, t, v, rfl⟩ : ∃ (b : Fin 16) (t : Fin 8) (v : Fin 49408), i = ix3 b t v := ⟨i 0, i 1, i 2, eq_ix3 i⟩
  refine (congrFun (B4_v5 m ρ c) (ix3 b t v)).trans ?_
  rw [Cert.LibFlatten.unflatten_apply]
  exact Cert.KernelIdeal.KVal.G5_apply (U2 m ρ) c _ _ _ _ (h0 m ρ c) (h1 m ρ c) (h2 m ρ c) (h3 m ρ c) (h3' m ρ c) (h4 m ρ c) (pq b t) v

end

/-- Every weakly fair execution of the idealized kernel program ends with the two results at the kernel-arranged
    specification of the argument arrays, and the arguments as launched. -/
theorem run : θ_run (defs (F := Ideal)) (onTc (τ := τ) (main (F := Ideal))) ⟨m, fun _ => 0, ρ⟩ (fun r => ∀ c : Dev nD,
      r.2.mem ((c.tc : Thread nD τ).loc main_v4) = kwOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v5) = cosOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c =>
    ⟨(h c _ (mem_uc main_v4 (by decide))).trans (B4_v4_eq m ρ c),
     (h c _ (mem_uc main_v5 (by decide))).trans (B4_v5_eq m ρ c),
     (h c _ (mem_uc main_arg0 (by decide))).trans (B4_arg0 m ρ c),
     (h c _ (mem_uc main_arg1 (by decide))).trans (B4_arg1 m ρ c),
     (h c _ (mem_uc main_arg2 (by decide))).trans (B4_arg2 m ρ c),
     (h c _ (mem_uc main_arg3 (by decide))).trans (B4_arg3 m ρ c)⟩)
    (run_all (F := Ideal) m ρ)

end Cert.KernelIdeal.Out

end
-- ==== Proof.RefRun.lean ====
/-
  The reference program's run, read back as a function of its four argument arrays.

  The program's @main with its outlined functions unfolded at their calls is a straight line of 121 host operations,
  listed here in ten consecutive windows. The value each window leaves in the buffers that later windows read is stated
  over named intermediate arrays (the projected features, the codebook's column statistics, the batch-normalised and
  rescaled features, the two row-normalised matrices, the scores, the logits, their row maxima, the shifted
  exponentials), each the composition of the host operations that compute it from the ones before. `kwOut` and `cosOut`
  are the two results; `run` is the program's run stated at them.
-/
import proofs.«131505_g24936580120849_cont_9to1_1340_2_alg».proof.Proof.Gen.ReferenceIdeal
import Idealize.ShloMosaic.Lib.StableHlo.Run
import Idealize.ShloMosaic.PureOps.Ideal
import Idealize.ShloMosaic.Lib.Pipeline.Frame

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations, in ten windows -/

/-- Operations 1 … 9 of 121. -/
abbrev w0 : List (HloOp τ sig (Elt F)) :=
  [ binary main_arg0 main_arg1 main_v0 ((fun l r => Host.dotGeneral dot_S16x8x768_S768x512_S16x8x512_2_0_01_1_n_n none l r) : (⟨S16x8x768, .f32⟩ : BufTy).Contents (Elt F) → (⟨S768x512, .f32⟩ : BufTy).Contents (Elt F) → (⟨S16x8x512, .f32⟩ : BufTy).Contents (Elt F)),
    unary main_arg2 main_v1 (broadcastInDim S1x1x512 ![2] bcast_S512_S1x1x512_2 : (⟨S512, .f32⟩ : BufTy).Contents (Elt F) → (⟨S1x1x512, .f32⟩ : BufTy).Contents (Elt F)),
    unary main_v1 main_v2 (broadcastInDim S16x8x512 ![0, 1, 2] bcast_S1x1x512_S16x8x512_0_1_2 : (⟨S1x1x512, .f32⟩ : BufTy).Contents (Elt F) → (⟨S16x8x512, .f32⟩ : BufTy).Contents (Elt F)),
    binary main_v0 main_v2 main_v3 (addf : (⟨S16x8x512, .f32⟩ : BufTy).Contents (Elt F) → (⟨S16x8x512, .f32⟩ : BufTy).Contents (Elt F) → (⟨S16x8x512, .f32⟩ : BufTy).Contents (Elt F)),
    nullary main_cst (constant S_ .f32 0x00000000#32),
    binary main_arg3 main_cst main_v4 ((fun x v => Host.reduceAdd x v reducesTo_S49408x512_S512_d0 h_S_) : (⟨S49408x512, .f32⟩ : BufTy).Contents (Elt F) → (⟨S_, .f32⟩ : BufTy).Contents (Elt F) → (⟨S512, .f32⟩ : BufTy).Contents (Elt F)),
    nullary main_cst_0 (constant S_ .f32 0x47410000#32),
    unary main_cst_0 main_v5 (broadcastInDim S512 ![] bcast_S_S512 : (⟨S_, .f32⟩ : BufTy).Contents (Elt F) → (⟨S512, .f32⟩ : BufTy).Contents (Elt F)),
    binary main_v4 main_v5 main_v6 (Host.divf : (⟨S512, .f32⟩ : BufTy).Contents (Elt F) → (⟨S512, .f32⟩ : BufTy).Contents (Elt F) → (⟨S512, .f32⟩ : BufTy).Contents (Elt F)) ]

/-- Operations 10 … 33 of 121. -/
abbrev w1 : List (HloOp τ sig (Elt F)) :=
  [ nullary main_c (constantI S_ 32 0#32),
    nullary main_call0_call0_cst (constant S_ .f32 0x00000000#32),
    binary main_arg3 main_call0_call0_cst main_call0_call0_v0 (fun x v => Host.reduceAdd x v reducesTo_S49408x512_S512_d0 h_S_ : (⟨S49408x512, .f32⟩ : BufTy).Contents (Elt F) → (⟨S_, .f32⟩ : BufTy).Contents (Elt F) → (⟨S512, .f32⟩ : BufTy).Contents (Elt F)),
    unary main_call0_call0_v0 main_call0_call0_v1 (broadcastInDim S1x512 ![1] bcast_S512_S1x512_1 : (⟨S512, .f32⟩ : BufTy).Contents (Elt F) → (⟨S1x512, .f32⟩ : BufTy).Contents (Elt F)),
    nullary main_call0_call0_cst_0 (constant S_ .f32 0x47410000#32),
    unary main_call0_call0_cst_0 main_call0_call0_v2 (broadcastInDim S1x512 ![] bcast_S_S1x512 : (⟨S_, .f32⟩ : BufTy).Contents (Elt F) → (⟨S1x512, .f32⟩ : BufTy).Contents (Elt F)),
    binary main_call0_call0_v1 main_call0_call0_v2 main_call0_call0_v3 (Host.divf : (⟨S1x512, .f32⟩ : BufTy).Contents (Elt F) → (⟨S1x512, .f32⟩ : BufTy).Contents (Elt F) → (⟨S1x512, .f32⟩ : BufTy).Contents (Elt F)),
    unary main_call0_call0_v3 main_call0_call0_v4 (broadcastInDim S49408x512 ![0, 1] bcast_S1x512_S49408x512_0_1 : (⟨S1x512, .f32⟩ : BufTy).Contents (Elt F) → (⟨S49408x512, .f32⟩ : BufTy).Contents (Elt F)),
    binary main_arg3 main_call0_call0_v4 main_call0_call0_v5 (subf : (⟨S49408x512, .f32⟩ : BufTy).Contents (Elt F) → (⟨S49408x512, .f32⟩ : BufTy).Contents (Elt F) → (⟨S49408x512, .f32⟩ : BufTy).Contents (Elt F)),
    binary main_call0_call0_v5 main_call0_call0_v5 main_call0_call0_v6 (mulf : (⟨S49408x512, .f32⟩ : BufTy).Contents (Elt F) → (⟨S49408x512, .f32⟩ : BufTy).Contents (Elt F) → (⟨S49408x512, .f32⟩ : BufTy).Contents (Elt F)),
    unary main_c main_call0_call0_v7 (sitofp .f32 : (⟨S_, .i32⟩ : BufTy).Contents (Elt F) → (⟨S_, .f32⟩ : BufTy).Contents (Elt F)),
    nullary main_call0_call0_cst_1 (constant S_ .f32 0x47410000#32),
    binary main_call0_call0_cst_1 main_call0_call0_v7 main_call0_call0_v8 (subf : (⟨S_, .f32⟩ : BufTy).Contents (Elt F) → (⟨S_, .f32⟩ : BufTy).Contents (Elt F) → (⟨S_, .f32⟩ : BufTy).Contents (Elt F)),
    nullary main_call0_call0_cst_2 (constant S_ .f32 0x00000000#32),
    binary main_call0_call0_v6 main_call0_call0_cst_2 main_call0_call0_v9 (fun x v => Host.reduceAdd x v reducesTo_S49408x512_S512_d0 h_S_ : (⟨S49408x512, .f32⟩ : BufTy).Contents (Elt F) → (⟨S_, .f32⟩ : BufTy).Contents (Elt F) → (⟨S512, .f32⟩ : BufTy).Contents (Elt F)),
    unary main_call0_call0_v8 main_call0_call0_v10 (broadcastInDim S512 ![] bcast_S_S512 : (⟨S_, .f32⟩ : BufTy).Contents (Elt F) → (⟨S512, .f32⟩ : BufTy).Contents (Elt F)),
    binary main_call0_call0_v9 main_call0_call0_v10 main_call0_call0_v11 (Host.divf : (⟨S512, .f32⟩ : BufTy).Contents (Elt F) → (⟨S512, .f32⟩ : BufTy).Contents (Elt F) → (⟨S512, .f32⟩ : BufTy).Contents (Elt F)),
    nullary main_call0_call0_cst_3 (constant S_ .f32 0x00000000#32),
    binary main_call0_call0_v8 main_call0_call0_cst_3 main_call0_call0_v12 (cmpf .ogt : (⟨S_, .f32⟩ : BufTy).Contents (Elt F) → (⟨S_, .f32⟩ : BufTy).Contents (Elt F) → (⟨S_, .i1⟩ : BufTy).Contents (Elt F)),
    nullary main_call0_call0_cst_4 (constant S_ .f32 0x7FC00000#32),
    unary main_call0_call0_cst_4 main_call0_call0_call0_v0 (id : (⟨S_, .f32⟩ : BufTy).Contents (Elt F) → (⟨S_, .f32⟩ : BufTy).Contents (Elt F)),
    unary main_call0_call0_call0_v0 main_call0_call0_call0_v1 (broadcastInDim S512 ![] bcast_S_S512 : (⟨S_, .f32⟩ : BufTy).Contents (Elt F) → (⟨S512, .f32⟩ : BufTy).Contents (Elt F)),
    ternary main_call0_call0_v12 main_call0_call0_v11 main_call0_call0_call0_v1 main_call0_v0 (fun p a b => select (broadcastInDim S512 ![] bcast_S_S512 p) a b : (⟨S_, .i1⟩ : BufTy).Contents (Elt F) → (⟨S512, .f32⟩ : BufTy).Contents (Elt F) → (⟨S512, .f32⟩ : BufTy).Contents (Elt F) → (⟨S512, .f32⟩ : BufTy).Contents (Elt F)),
    unary main_call0_v0 main_v7 (Host.sqrt : (⟨S512, .f32⟩ : BufTy).Contents (Elt F) → (⟨S512, .f32⟩ : BufTy).Contents (Elt F)) ]

/-- Operations 34 … 39 of 121. -/
abbrev w2 : List (HloOp τ sig (Elt F)) :=
  [ reshape main_v3 main_v8 rfl shapeCasts_S16x8x512_S128x512,
    nullary main_cst_1 (constant S_ .f32 0x00000000#32),
    binary main_v8 main_cst_1 main_v9 ((fun x v => Host.reduceAdd x v reducesTo_S128x512_S512_d0 h_S_) : (⟨S128x512, .f32⟩ : BufTy).Contents (Elt F) → (⟨S_, .f32⟩ : BufTy).Contents (Elt F) → (⟨S512, .f32⟩ : BufTy).Contents (Elt F)),
    nullary main_cst_2 (constant S_ .f32 0x43000000#32),
    unary main_cst_2 main_v10 (broadcastInDim S512 ![] bcast_S_S512 : (⟨S_, .f32⟩ : BufTy).Contents (Elt F) → (⟨S512, .f32⟩ : BufTy).Contents (Elt F)),
    binary main_v9 main_v10 main_v11 (Host.divf : (⟨S512, .f32⟩ : BufTy).Contents (Elt F) → (⟨S512, .f32⟩ : BufTy).Contents (Elt F) → (⟨S512, .f32⟩ : BufTy).Contents (Elt F)) ]

/-- Operations 40 … 62 of 121. -/
abbrev w3 : List (HloOp τ sig (Elt F)) :=
  [ nullary main_c_3 (constantI S_ 32 0#32),
    nullary main_call1_cst (constant S_ .f32 0x00000000#32),
    binary main_v8 main_call1_cst main_call1_v0 (fun x v => Host.reduceAdd x v reducesTo_S128x512_S512_d0 h_S_ : (⟨S128x512, .f32⟩ : BufTy).Contents (Elt F) → (⟨S_, .f32⟩ : BufTy).Contents (Elt F) → (⟨S512, .f32⟩ : BufTy).Contents (Elt F)),
    unary main_call1_v0 main_call1_v1 (broadcastInDim S1x512 ![1] bcast_S512_S1x512_1 : (⟨S512, .f32⟩ : BufTy).Contents (Elt F) → (⟨S1x512, .f32⟩ : BufTy).Contents (Elt F)),
    nullary main_call1_cst_0 (constant S_ .f32 0x43000000#32),
    unary main_call1_cst_0 main_call1_v2 (broadcastInDim S1x512 ![] bcast_S_S1x512 : (⟨S_, .f32⟩ : BufTy).Contents (Elt F) → (⟨S1x512, .f32⟩ : BufTy).Contents (Elt F)),
    binary main_call1_v1 main_call1_v2 main_call1_v3 (Host.divf : (⟨S1x512, .f32⟩ : BufTy).Contents (Elt F) → (⟨S1x512, .f32⟩ : BufTy).Contents (Elt F) → (⟨S1x512, .f32⟩ : BufTy).Contents (Elt F)),
    unary main_call1_v3 main_call1_v4 (broadcastInDim S128x512 ![0, 1] bcast_S1x512_S128x512_0_1 : (⟨S1x512, .f32⟩ : BufTy).Contents (Elt F) → (⟨S128x512, .f32⟩ : BufTy).Contents (Elt F)),
    binary main_v8 main_call1_v4 main_call1_v5 (subf : (⟨S128x512, .f32⟩ : BufTy).Contents (Elt F) → (⟨S128x512, .f32⟩ : BufTy).Contents (Elt F) → (⟨S128x512, .f32⟩ : BufTy).Contents (Elt F)),
    binary main_call1_v5 main_call1_v5 main_call1_v6 (mulf : (⟨S128x512, .f32⟩ : BufTy).Contents (Elt F) → (⟨S128x512, .f32⟩ : BufTy).Contents (Elt F) → (⟨S128x512, .f32⟩ : BufTy).Contents (Elt F)),
    unary main_c_3 main_call1_v7 (sitofp .f32 : (⟨S_, .i32⟩ : BufTy).Contents (Elt F) → (⟨S_, .f32⟩ : BufTy).Contents (Elt F)),
    nullary main_call1_cst_1 (constant S_ .f32 0x43000000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 (fun x v => Host.reduceAdd x v reducesTo_S128x512_S512_d0 h_S_ : (⟨S128x512, .f32⟩ : BufTy).Contents (Elt F) → (⟨S_, .f32⟩ : BufTy).Contents (Elt F) → (⟨S512, .f32⟩ : BufTy).Contents (Elt F)),
    unary main_call1_v8 main_call1_v10 (broadcastInDim S512 ![] bcast_S_S512 : (⟨S_, .f32⟩ : BufTy).Contents (Elt F) → (⟨S512, .f32⟩ : BufTy).Contents (Elt F)),
    binary main_call1_v9 main_call1_v10 main_call1_v11 (Host.divf : (⟨S512, .f32⟩ : BufTy).Contents (Elt F) → (⟨S512, .f32⟩ : BufTy).Contents (Elt F) → (⟨S512, .f32⟩ : BufTy).Contents (Elt F)),
    nullary main_call1_cst_3 (constant S_ .f32 0x00000000#32),
    binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 (broadcastInDim S512 ![] bcast_S_S512 : (⟨S_, .f32⟩ : BufTy).Contents (Elt F) → (⟨S512, .f32⟩ : BufTy).Contents (Elt F)),
    ternary main_call1_v12 main_call1_v11 main_call1_call0_v1 main_v12 (fun p a b => select (broadcastInDim S512 ![] bcast_S_S512 p) a b : (⟨S_, .i1⟩ : BufTy).Contents (Elt F) → (⟨S512, .f32⟩ : BufTy).Contents (Elt F) → (⟨S512, .f32⟩ : BufTy).Contents (Elt F) → (⟨S512, .f32⟩ : BufTy).Contents (Elt F)) ]

/-- Operations 63 … 72 of 121. -/
abbrev w4 : List (HloOp τ sig (Elt F)) :=
  [ unary main_v11 main_v13 (broadcastInDim S1x512 ![1] bcast_S512_S1x512_1 : (⟨S512, .f32⟩ : BufTy).Contents (Elt F) → (⟨S1x512, .f32⟩ : BufTy).Contents (Elt F)),
    unary main_v13 main_v14 (broadcastInDim S128x512 ![0, 1] bcast_S1x512_S128x512_0_1 : (⟨S1x512, .f32⟩ : BufTy).Contents (Elt F) → (⟨S128x512, .f32⟩ : BufTy).Contents (Elt F)),
    binary main_v8 main_v14 main_v15 (subf : (⟨S128x512, .f32⟩ : BufTy).Contents (Elt F) → (⟨S128x512, .f32⟩ : BufTy).Contents (Elt F) → (⟨S128x512, .f32⟩ : BufTy).Contents (Elt F)),
    nullary main_cst_4 (constant S_ .f32 0x3727C5AC#32),
    unary main_cst_4 main_v16 (broadcastInDim S512 ![] bcast_S_S512 : (⟨S_, .f32⟩ : BufTy).Contents (Elt F) → (⟨S512, .f32⟩ : BufTy).Contents (Elt F)),
    binary main_v12 main_v16 main_v17 (addf : (⟨S512, .f32⟩ : BufTy).Contents (Elt F) → (⟨S512, .f32⟩ : BufTy).Contents (Elt F) → (⟨S512, .f32⟩ : BufTy).Contents (Elt F)),
    unary main_v17 main_v18 (Host.sqrt : (⟨S512, .f32⟩ : BufTy).Contents (Elt F) → (⟨S512, .f32⟩ : BufTy).Contents (Elt F)),
    unary main_v18 main_v19 (broadcastInDim S1x512 ![1] bcast_S512_S1x512_1 : (⟨S512, .f32⟩ : BufTy).Contents (Elt F) → (⟨S1x512, .f32⟩ : BufTy).Contents (Elt F)),
    unary main_v19 main_v20 (broadcastInDim S128x512 ![0, 1] bcast_S1x512_S128x512_0_1 : (⟨S1x512, .f32⟩ : BufTy).Contents (Elt F) → (⟨S128x512, .f32⟩ : BufTy).Contents (Elt F)),
    binary main_v15 main_v20 main_v21 (Host.divf : (⟨S128x512, .f32⟩ : BufTy).Contents (Elt F) → (⟨S128x512, .f32⟩ : BufTy).Contents (Elt F) → (⟨S128x512, .f32⟩ : BufTy).Contents (Elt F)) ]

/-- Operations 73 … 82 of 121. -/
abbrev w5 : List (HloOp τ sig (Elt F)) :=
  [ nullary main_cst_5 (constant S_ .f32 0x3F800000#32),
    unary main_cst_5 main_v22 (broadcastInDim S512 ![] bcast_S_S512 : (⟨S_, .f32⟩ : BufTy).Contents (Elt F) → (⟨S512, .f32⟩ : BufTy).Contents (Elt F)),
    binary main_v7 main_v22 main_v23 (mulf : (⟨S512, .f32⟩ : BufTy).Contents (Elt F) → (⟨S512, .f32⟩ : BufTy).Contents (Elt F) → (⟨S512, .f32⟩ : BufTy).Contents (Elt F)),
    unary main_v23 main_v24 (broadcastInDim S1x512 ![1] bcast_S512_S1x512_1 : (⟨S512, .f32⟩ : BufTy).Contents (Elt F) → (⟨S1x512, .f32⟩ : BufTy).Contents (Elt F)),
    unary main_v24 main_v25 (broadcastInDim S128x512 ![0, 1] bcast_S1x512_S128x512_0_1 : (⟨S1x512, .f32⟩ : BufTy).Contents (Elt F) → (⟨S128x512, .f32⟩ : BufTy).Contents (Elt F)),
    binary main_v21 main_v25 main_v26 (mulf : (⟨S128x512, .f32⟩ : BufTy).Contents (Elt F) → (⟨S128x512, .f32⟩ : BufTy).Contents (Elt F) → (⟨S128x512, .f32⟩ : BufTy).Contents (Elt F)),
    unary main_v6 main_v27 (broadcastInDim S1x512 ![1] bcast_S512_S1x512_1 : (⟨S512, .f32⟩ : BufTy).Contents (Elt F) → (⟨S1x512, .f32⟩ : BufTy).Contents (Elt F)),
    unary main_v27 main_v28 (broadcastInDim S128x512 ![0, 1] bcast_S1x512_S128x512_0_1 : (⟨S1x512, .f32⟩ : BufTy).Contents (Elt F) → (⟨S128x512, .f32⟩ : BufTy).Contents (Elt F)),
    binary main_v26 main_v28 main_v29 (addf : (⟨S128x512, .f32⟩ : BufTy).Contents (Elt F) → (⟨S128x512, .f32⟩ : BufTy).Contents (Elt F) → (⟨S128x512, .f32⟩ : BufTy).Contents (Elt F)),
    reshape main_v29 main_v30 rfl shapeCasts_S128x512_S16x8x512 ]

/-- Operations 83 … 92 of 121. -/
abbrev w6 : List (HloOp τ sig (Elt F)) :=
  [ binary main_v30 main_v30 main_call2_v0 (mulf : (⟨S16x8x512, .f32⟩ : BufTy).Contents (Elt F) → (⟨S16x8x512, .f32⟩ : BufTy).Contents (Elt F) → (⟨S16x8x512, .f32⟩ : BufTy).Contents (Elt F)),
    nullary main_call2_cst (constant S_ .f32 0x00000000#32),
    binary main_call2_v0 main_call2_cst main_call2_v1 (fun x v => Host.reduceAdd x v reducesTo_S16x8x512_S16x8_d2 h_S_ : (⟨S16x8x512, .f32⟩ : BufTy).Contents (Elt F) → (⟨S_, .f32⟩ : BufTy).Contents (Elt F) → (⟨S16x8, .f32⟩ : BufTy).Contents (Elt F)),
    unary main_call2_v1 main_call2_v2 (broadcastInDim S16x8x1 ![0, 1] bcast_S16x8_S16x8x1_0_1 : (⟨S16x8, .f32⟩ : BufTy).Contents (Elt F) → (⟨S16x8x1, .f32⟩ : BufTy).Contents (Elt F)),
    unary main_call2_v2 main_v31 (Host.sqrt : (⟨S16x8x1, .f32⟩ : BufTy).Contents (Elt F) → (⟨S16x8x1, .f32⟩ : BufTy).Contents (Elt F)),
    nullary main_cst_6 (constant S_ .f32 0x322BCC77#32),
    unary main_cst_6 main_v32 (broadcastInDim S16x8x1 ![] bcast_S_S16x8x1 : (⟨S_, .f32⟩ : BufTy).Contents (Elt F) → (⟨S16x8x1, .f32⟩ : BufTy).Contents (Elt F)),
    binary main_v31 main_v32 main_v33 (addf : (⟨S16x8x1, .f32⟩ : BufTy).Contents (Elt F) → (⟨S16x8x1, .f32⟩ : BufTy).Contents (Elt F) → (⟨S16x8x1, .f32⟩ : BufTy).Contents (Elt F)),
    unary main_v33 main_v34 (broadcastInDim S16x8x512 ![0, 1, 2] bcast_S16x8x1_S16x8x512_0_1_2 : (⟨S16x8x1, .f32⟩ : BufTy).Contents (Elt F) → (⟨S16x8x512, .f32⟩ : BufTy).Contents (Elt F)),
    binary main_v30 main_v34 main_v35 (Host.divf : (⟨S16x8x512, .f32⟩ : BufTy).Contents (Elt F) → (⟨S16x8x512, .f32⟩ : BufTy).Contents (Elt F) → (⟨S16x8x512, .f32⟩ : BufTy).Contents (Elt F)) ]

/-- Operations 93 … 102 of 121. -/
abbrev w7 : List (HloOp τ sig (Elt F)) :=
  [ binary main_arg3 main_arg3 main_call3_v0 (mulf : (⟨S49408x512, .f32⟩ : BufTy).Contents (Elt F) → (⟨S49408x512, .f32⟩ : BufTy).Contents (Elt F) → (⟨S49408x512, .f32⟩ : BufTy).Contents (Elt F)),
    nullary main_call3_cst (constant S_ .f32 0x00000000#32),
    binary main_call3_v0 main_call3_cst main_call3_v1 (fun x v => Host.reduceAdd x v reducesTo_S49408x512_S49408_d1 h_S_ : (⟨S49408x512, .f32⟩ : BufTy).Contents (Elt F) → (⟨S_, .f32⟩ : BufTy).Contents (Elt F) → (⟨S49408, .f32⟩ : BufTy).Contents (Elt F)),
    unary main_call3_v1 main_call3_v2 (broadcastInDim S49408x1 ![0] bcast_S49408_S49408x1_0 : (⟨S49408, .f32⟩ : BufTy).Contents (Elt F) → (⟨S49408x1, .f32⟩ : BufTy).Contents (Elt F)),
    unary main_call3_v2 main_v36 (Host.sqrt : (⟨S49408x1, .f32⟩ : BufTy).Contents (Elt F) → (⟨S49408x1, .f32⟩ : BufTy).Contents (Elt F)),
    nullary main_cst_7 (constant S_ .f32 0x322BCC77#32),
    unary main_cst_7 main_v37 (broadcastInDim S49408x1 ![] bcast_S_S49408x1 : (⟨S_, .f32⟩ : BufTy).Contents (Elt F) → (⟨S49408x1, .f32⟩ : BufTy).Contents (Elt F)),
    binary main_v36 main_v37 main_v38 (addf : (⟨S49408x1, .f32⟩ : BufTy).Contents (Elt F) → (⟨S49408x1, .f32⟩ : BufTy).Contents (Elt F) → (⟨S49408x1, .f32⟩ : BufTy).Contents (Elt F)),
    unary main_v38 main_v39 (broadcastInDim S49408x512 ![0, 1] bcast_S49408x1_S49408x512_0_1 : (⟨S49408x1, .f32⟩ : BufTy).Contents (Elt F) → (⟨S49408x512, .f32⟩ : BufTy).Contents (Elt F)),
    binary main_arg3 main_v39 main_v40 (Host.divf : (⟨S49408x512, .f32⟩ : BufTy).Contents (Elt F) → (⟨S49408x512, .f32⟩ : BufTy).Contents (Elt F) → (⟨S49408x512, .f32⟩ : BufTy).Contents (Elt F)) ]

/-- Operations 103 … 111 of 121. -/
abbrev w8 : List (HloOp τ sig (Elt F)) :=
  [ binary main_v35 main_v40 main_v41 ((fun l r => Host.dotGeneral dot_S16x8x512_S49408x512_S16x8x49408_2_1_01_0_n_n none l r) : (⟨S16x8x512, .f32⟩ : BufTy).Contents (Elt F) → (⟨S49408x512, .f32⟩ : BufTy).Contents (Elt F) → (⟨S16x8x49408, .f32⟩ : BufTy).Contents (Elt F)),
    nullary main_cst_8 (constant S_ .f32 0x3DCCCCCD#32),
    unary main_cst_8 main_v42 (broadcastInDim S16x8x49408 ![] bcast_S_S16x8x49408 : (⟨S_, .f32⟩ : BufTy).Contents (Elt F) → (⟨S16x8x49408, .f32⟩ : BufTy).Contents (Elt F)),
    binary main_v41 main_v42 main_v43 (Host.divf : (⟨S16x8x49408, .f32⟩ : BufTy).Contents (Elt F) → (⟨S16x8x49408, .f32⟩ : BufTy).Contents (Elt F) → (⟨S16x8x49408, .f32⟩ : BufTy).Contents (Elt F)),
    nullary main_cst_9 (constant S_ .f32 0xFF800000#32),
    binary main_v43 main_cst_9 main_v44 ((fun x v => Host.reduce FloatOps.maximumf x v reducesTo_S16x8x49408_S16x8_d2 h_S_) : (⟨S16x8x49408, .f32⟩ : BufTy).Contents (Elt F) → (⟨S_, .f32⟩ : BufTy).Contents (Elt F) → (⟨S16x8, .f32⟩ : BufTy).Contents (Elt F)),
    nullary main_cst_10 (constant S_ .f32 0xFF800000#32),
    unary main_cst_10 main_v45 (broadcastInDim S16x8 ![] bcast_S_S16x8 : (⟨S_, .f32⟩ : BufTy).Contents (Elt F) → (⟨S16x8, .f32⟩ : BufTy).Contents (Elt F)),
    binary main_v45 main_v44 main_v46 (maximumf : (⟨S16x8, .f32⟩ : BufTy).Contents (Elt F) → (⟨S16x8, .f32⟩ : BufTy).Contents (Elt F) → (⟨S16x8, .f32⟩ : BufTy).Contents (Elt F)) ]

/-- Operations 112 … 121 of 121. -/
abbrev w9 : List (HloOp τ sig (Elt F)) :=
  [ unary main_v46 main_v47 (broadcastInDim S16x8x1 ![0, 1] bcast_S16x8_S16x8x1_0_1 : (⟨S16x8, .f32⟩ : BufTy).Contents (Elt F) → (⟨S16x8x1, .f32⟩ : BufTy).Contents (Elt F)),
    unary main_v47 main_v48 (broadcastInDim S16x8x49408 ![0, 1, 2] bcast_S16x8x1_S16x8x49408_0_1_2 : (⟨S16x8x1, .f32⟩ : BufTy).Contents (Elt F) → (⟨S16x8x49408, .f32⟩ : BufTy).Contents (Elt F)),
    binary main_v43 main_v48 main_v49 (subf : (⟨S16x8x49408, .f32⟩ : BufTy).Contents (Elt F) → (⟨S16x8x49408, .f32⟩ : BufTy).Contents (Elt F) → (⟨S16x8x49408, .f32⟩ : BufTy).Contents (Elt F)),
    unary main_v49 main_v50 (Host.exp : (⟨S16x8x49408, .f32⟩ : BufTy).Contents (Elt F) → (⟨S16x8x49408, .f32⟩ : BufTy).Contents (Elt F)),
    nullary main_cst_11 (constant S_ .f32 0x00000000#32),
    binary main_v50 main_cst_11 main_v51 ((fun x v => Host.reduceAdd x v reducesTo_S16x8x49408_S16x8_d2 h_S_) : (⟨S16x8x49408, .f32⟩ : BufTy).Contents (Elt F) → (⟨S_, .f32⟩ : BufTy).Contents (Elt F) → (⟨S16x8, .f32⟩ : BufTy).Contents (Elt F)),
    unary main_v51 main_v52 (broadcastInDim S16x8x1 ![0, 1] bcast_S16x8_S16x8x1_0_1 : (⟨S16x8, .f32⟩ : BufTy).Contents (Elt F) → (⟨S16x8x1, .f32⟩ : BufTy).Contents (Elt F)),
    unary main_v52 main_v53 (broadcastInDim S16x8x49408 ![0, 1, 2] bcast_S16x8x1_S16x8x49408_0_1_2 : (⟨S16x8x1, .f32⟩ : BufTy).Contents (Elt F) → (⟨S16x8x49408, .f32⟩ : BufTy).Contents (Elt F)),
    binary main_v50 main_v53 main_v54 (Host.divf : (⟨S16x8x49408, .f32⟩ : BufTy).Contents (Elt F) → (⟨S16x8x49408, .f32⟩ : BufTy).Contents (Elt F) → (⟨S16x8x49408, .f32⟩ : BufTy).Contents (Elt F)),
    binary main_v54 main_arg3 main_v55 ((fun l r => Host.dotGeneral dot_S16x8x49408_S49408x512_S16x8x512_2_0_01_1_n_n none l r) : (⟨S16x8x49408, .f32⟩ : BufTy).Contents (Elt F) → (⟨S49408x512, .f32⟩ : BufTy).Contents (Elt F) → (⟨S16x8x512, .f32⟩ : BufTy).Contents (Elt F)) ]

/-- The operations of the first part of @main (1 … 111). -/
abbrev opsP0 : List (HloOp τ sig (Elt F)) :=
  w0 ++ (w1 ++ (w2 ++ (w3 ++ (w4 ++ (w5 ++ (w6 ++ (w7 ++ w8)))))))

/-- All 121 operations, in order. -/
abbrev ops : List (HloOp τ sig (Elt F)) := opsP0 ++ w9

/-! ## @main is that straight line -/

set_option maxRecDepth 8192 in
set_option maxHeartbeats 4000000 in
/-- The first part of @main, its calls unfolded, is the first 111 operations. -/
theorem main_part0_eq (c : Dev nD) : main_part0 (F := F) c = seq opsP0 := rfl

/-- The second part of @main is the last ten. -/
theorem main_part1_eq (c : Dev nD) : main_part1 (F := F) c = seq w9 := rfl

/-- @main is the 121 operations in order. -/
theorem main_eq (c : Dev nD) : main (F := F) c = seq ops := by
  rw [show (ops : List (HloOp τ sig (Elt F))) = opsP0 ++ w9 from rfl, seq_append, ← main_part0_eq c, ← main_part1_eq c]
  rfl

/-! ## The named intermediate arrays -/

/-- The projected features `A · W + B`, one row per (batch, step). -/
def feat3 (A : (⟨S16x8x768, .f32⟩ : BufTy).Contents (Elt F)) (W : (⟨S768x512, .f32⟩ : BufTy).Contents (Elt F)) (B : (⟨S512, .f32⟩ : BufTy).Contents (Elt F)) :
    (⟨S16x8x512, .f32⟩ : BufTy).Contents (Elt F) :=
  (addf : (⟨S16x8x512, .f32⟩ : BufTy).Contents (Elt F) → (⟨S16x8x512, .f32⟩ : BufTy).Contents (Elt F) → (⟨S16x8x512, .f32⟩ : BufTy).Contents (Elt F)) (((fun l r => Host.dotGeneral dot_S16x8x768_S768x512_S16x8x512_2_0_01_1_n_n none l r) : (⟨S16x8x768, .f32⟩ : BufTy).Contents (Elt F) → (⟨S768x512, .f32⟩ : BufTy).Contents (Elt F) → (⟨S16x8x512, .f32⟩ : BufTy).Contents (Elt F)) A W) ((broadcastInDim S16x8x512 ![0, 1, 2] bcast_S1x1x512_S16x8x512_0_1_2 : (⟨S1x1x512, .f32⟩ : BufTy).Contents (Elt F) → (⟨S16x8x512, .f32⟩ : BufTy).Contents (Elt F)) ((broadcastInDim S1x1x512 ![2] bcast_S512_S1x1x512_2 : (⟨S512, .f32⟩ : BufTy).Contents (Elt F) → (⟨S1x1x512, .f32⟩ : BufTy).Contents (Elt F)) B))

/-- The codebook's column mean: the column sums over the vocabulary size. -/
def emean (E : (⟨S49408x512, .f32⟩ : BufTy).Contents (Elt F)) :
    (⟨S512, .f32⟩ : BufTy).Contents (Elt F) :=
  (Host.divf : (⟨S512, .f32⟩ : BufTy).Contents (Elt F) → (⟨S512, .f32⟩ : BufTy).Contents (Elt F) → (⟨S512, .f32⟩ : BufTy).Contents (Elt F)) (((fun x v => Host.reduceAdd x v reducesTo_S49408x512_S512_d0 h_S_) : (⟨S49408x512, .f32⟩ : BufTy).Contents (Elt F) → (⟨S_, .f32⟩ : BufTy).Contents (Elt F) → (⟨S512, .f32⟩ : BufTy).Contents (Elt F)) E (constant S_ .f32 0x00000000#32)) ((broadcastInDim S512 ![] bcast_S_S512 : (⟨S_, .f32⟩ : BufTy).Contents (Elt F) → (⟨S512, .f32⟩ : BufTy).Contents (Elt F)) (constant S_ .f32 0x47410000#32))

/-- The codebook less its column mean. -/
def ecent (E : (⟨S49408x512, .f32⟩ : BufTy).Contents (Elt F)) :
    (⟨S49408x512, .f32⟩ : BufTy).Contents (Elt F) :=
  (subf : (⟨S49408x512, .f32⟩ : BufTy).Contents (Elt F) → (⟨S49408x512, .f32⟩ : BufTy).Contents (Elt F) → (⟨S49408x512, .f32⟩ : BufTy).Contents (Elt F)) E ((broadcastInDim S49408x512 ![0, 1] bcast_S1x512_S49408x512_0_1 : (⟨S1x512, .f32⟩ : BufTy).Contents (Elt F) → (⟨S49408x512, .f32⟩ : BufTy).Contents (Elt F)) ((Host.divf : (⟨S1x512, .f32⟩ : BufTy).Contents (Elt F) → (⟨S1x512, .f32⟩ : BufTy).Contents (Elt F) → (⟨S1x512, .f32⟩ : BufTy).Contents (Elt F)) ((broadcastInDim S1x512 ![1] bcast_S512_S1x512_1 : (⟨S512, .f32⟩ : BufTy).Contents (Elt F) → (⟨S1x512, .f32⟩ : BufTy).Contents (Elt F)) ((fun x v => Host.reduceAdd x v reducesTo_S49408x512_S512_d0 h_S_ : (⟨S49408x512, .f32⟩ : BufTy).Contents (Elt F) → (⟨S_, .f32⟩ : BufTy).Contents (Elt F) → (⟨S512, .f32⟩ : BufTy).Contents (Elt F)) E (constant S_ .f32 0x00000000#32))) ((broadcastInDim S1x512 ![] bcast_S_S1x512 : (⟨S_, .f32⟩ : BufTy).Contents (Elt F) → (⟨S1x512, .f32⟩ : BufTy).Contents (Elt F)) (constant S_ .f32 0x47410000#32))))

/-- The codebook's column variance: the mean squared distance from the column mean. -/
def evar (E : (⟨S49408x512, .f32⟩ : BufTy).Contents (Elt F)) :
    (⟨S512, .f32⟩ : BufTy).Contents (Elt F) :=
  (Host.divf : (⟨S512, .f32⟩ : BufTy).Contents (Elt F) → (⟨S512, .f32⟩ : BufTy).Contents (Elt F) → (⟨S512, .f32⟩ : BufTy).Contents (Elt F)) ((fun x v => Host.reduceAdd x v reducesTo_S49408x512_S512_d0 h_S_ : (⟨S49408x512, .f32⟩ : BufTy).Contents (Elt F) → (⟨S_, .f32⟩ : BufTy).Contents (Elt F) → (⟨S512, .f32⟩ : BufTy).Contents (Elt F)) ((mulf : (⟨S49408x512, .f32⟩ : BufTy).Contents (Elt F) → (⟨S49408x512, .f32⟩ : BufTy).Contents (Elt F) → (⟨S49408x512, .f32⟩ : BufTy).Contents (Elt F)) (ecent E) (ecent E)) (constant S_ .f32 0x00000000#32)) ((broadcastInDim S512 ![] bcast_S_S512 : (⟨S_, .f32⟩ : BufTy).Contents (Elt F) → (⟨S512, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47410000#32) ((sitofp .f32 : (⟨S_, .i32⟩ : BufTy).Contents (Elt F) → (⟨S_, .f32⟩ : BufTy).Contents (Elt F)) (constantI S_ 32 0#32))))

/-- The codebook's column deviation: the square root of the mean squared distance from the column mean (selected against NaN on the sign of the count). -/
def esd (E : (⟨S49408x512, .f32⟩ : BufTy).Contents (Elt F)) :
    (⟨S512, .f32⟩ : BufTy).Contents (Elt F) :=
  (Host.sqrt : (⟨S512, .f32⟩ : BufTy).Contents (Elt F) → (⟨S512, .f32⟩ : BufTy).Contents (Elt F)) ((fun p a b => select (broadcastInDim S512 ![] bcast_S_S512 p) a b : (⟨S_, .i1⟩ : BufTy).Contents (Elt F) → (⟨S512, .f32⟩ : BufTy).Contents (Elt F) → (⟨S512, .f32⟩ : BufTy).Contents (Elt F) → (⟨S512, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47410000#32) ((sitofp .f32 : (⟨S_, .i32⟩ : BufTy).Contents (Elt F) → (⟨S_, .f32⟩ : BufTy).Contents (Elt F)) (constantI S_ 32 0#32))) (constant S_ .f32 0x00000000#32)) (evar E) ((broadcastInDim S512 ![] bcast_S_S512 : (⟨S_, .f32⟩ : BufTy).Contents (Elt F) → (⟨S512, .f32⟩ : BufTy).Contents (Elt F)) ((id : (⟨S_, .f32⟩ : BufTy).Contents (Elt F) → (⟨S_, .f32⟩ : BufTy).Contents (Elt F)) (constant S_ .f32 0x7FC00000#32))))

/-- The projected features with the (batch, step) rows flattened to 128 rows. -/
def featF (A : (⟨S16x8x768, .f32⟩ : BufTy).Contents (Elt F)) (W : (⟨S768x512, .f32⟩ : BufTy).Contents (Elt F)) (B : (⟨S512, .f32⟩ : BufTy).Contents (Elt F)) :
    (⟨S128x512, .f32⟩ : BufTy).Contents (Elt F) :=
  shapeCast S128x512 (feat3 A W B) shapeCasts_S16x8x512_S128x512

/-- The features' column mean over the 128 rows. -/
def fmu (A : (⟨S16x8x768, .f32⟩ : BufTy).Contents (Elt F)) (W : (⟨S768x512, .f32⟩ : BufTy).Contents (Elt F)) (B : (⟨S512, .f32⟩ : BufTy).Contents (Elt F)) :
    (⟨S512, .f32⟩ : BufTy).Contents (Elt F) :=
  (Host.divf : (⟨S512, .f32⟩ : BufTy).Contents (Elt F) → (⟨S512, .f32⟩ : BufTy).Contents (Elt F) → (⟨S512, .f32⟩ : BufTy).Contents (Elt F)) (((fun x v => Host.reduceAdd x v reducesTo_S128x512_S512_d0 h_S_) : (⟨S128x512, .f32⟩ : BufTy).Contents (Elt F) → (⟨S_, .f32⟩ : BufTy).Contents (Elt F) → (⟨S512, .f32⟩ : BufTy).Contents (Elt F)) (featF A W B) (constant S_ .f32 0x00000000#32)) ((broadcastInDim S512 ![] bcast_S_S512 : (⟨S_, .f32⟩ : BufTy).Contents (Elt F) → (⟨S512, .f32⟩ : BufTy).Contents (Elt F)) (constant S_ .f32 0x43000000#32))

/-- The flattened features less their column mean. -/
def fcent (A : (⟨S16x8x768, .f32⟩ : BufTy).Contents (Elt F)) (W : (⟨S768x512, .f32⟩ : BufTy).Contents (Elt F)) (B : (⟨S512, .f32⟩ : BufTy).Contents (Elt F)) :
    (⟨S128x512, .f32⟩ : BufTy).Contents (Elt F) :=
  (subf : (⟨S128x512, .f32⟩ : BufTy).Contents (Elt F) → (⟨S128x512, .f32⟩ : BufTy).Contents (Elt F) → (⟨S128x512, .f32⟩ : BufTy).Contents (Elt F)) (featF A W B) ((broadcastInDim S128x512 ![0, 1] bcast_S1x512_S128x512_0_1 : (⟨S1x512, .f32⟩ : BufTy).Contents (Elt F) → (⟨S128x512, .f32⟩ : BufTy).Contents (Elt F)) ((Host.divf : (⟨S1x512, .f32⟩ : BufTy).Contents (Elt F) → (⟨S1x512, .f32⟩ : BufTy).Contents (Elt F) → (⟨S1x512, .f32⟩ : BufTy).Contents (Elt F)) ((broadcastInDim S1x512 ![1] bcast_S512_S1x512_1 : (⟨S512, .f32⟩ : BufTy).Contents (Elt F) → (⟨S1x512, .f32⟩ : BufTy).Contents (Elt F)) ((fun x v => Host.reduceAdd x v reducesTo_S128x512_S512_d0 h_S_ : (⟨S128x512, .f32⟩ : BufTy).Contents (Elt F) → (⟨S_, .f32⟩ : BufTy).Contents (Elt F) → (⟨S512, .f32⟩ : BufTy).Contents (Elt F)) (featF A W B) (constant S_ .f32 0x00000000#32))) ((broadcastInDim S1x512 ![] bcast_S_S1x512 : (⟨S_, .f32⟩ : BufTy).Contents (Elt F) → (⟨S1x512, .f32⟩ : BufTy).Contents (Elt F)) (constant S_ .f32 0x43000000#32))))

/-- The features' column variance before the selection on the count's sign. -/
def fvar0 (A : (⟨S16x8x768, .f32⟩ : BufTy).Contents (Elt F)) (W : (⟨S768x512, .f32⟩ : BufTy).Contents (Elt F)) (B : (⟨S512, .f32⟩ : BufTy).Contents (Elt F)) :
    (⟨S512, .f32⟩ : BufTy).Contents (Elt F) :=
  (Host.divf : (⟨S512, .f32⟩ : BufTy).Contents (Elt F) → (⟨S512, .f32⟩ : BufTy).Contents (Elt F) → (⟨S512, .f32⟩ : BufTy).Contents (Elt F)) ((fun x v => Host.reduceAdd x v reducesTo_S128x512_S512_d0 h_S_ : (⟨S128x512, .f32⟩ : BufTy).Contents (Elt F) → (⟨S_, .f32⟩ : BufTy).Contents (Elt F) → (⟨S512, .f32⟩ : BufTy).Contents (Elt F)) ((mulf : (⟨S128x512, .f32⟩ : BufTy).Contents (Elt F) → (⟨S128x512, .f32⟩ : BufTy).Contents (Elt F) → (⟨S128x512, .f32⟩ : BufTy).Contents (Elt F)) (fcent A W B) (fcent A W B)) (constant S_ .f32 0x00000000#32)) ((broadcastInDim S512 ![] bcast_S_S512 : (⟨S_, .f32⟩ : BufTy).Contents (Elt F) → (⟨S512, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x43000000#32) ((sitofp .f32 : (⟨S_, .i32⟩ : BufTy).Contents (Elt F) → (⟨S_, .f32⟩ : BufTy).Contents (Elt F)) (constantI S_ 32 0#32))))

/-- The features' column variance over the 128 rows (selected against NaN on the sign of the count). -/
def fvar (A : (⟨S16x8x768, .f32⟩ : BufTy).Contents (Elt F)) (W : (⟨S768x512, .f32⟩ : BufTy).Contents (Elt F)) (B : (⟨S512, .f32⟩ : BufTy).Contents (Elt F)) :
    (⟨S512, .f32⟩ : BufTy).Contents (Elt F) :=
  (fun p a b => select (broadcastInDim S512 ![] bcast_S_S512 p) a b : (⟨S_, .i1⟩ : BufTy).Contents (Elt F) → (⟨S512, .f32⟩ : BufTy).Contents (Elt F) → (⟨S512, .f32⟩ : BufTy).Contents (Elt F) → (⟨S512, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x43000000#32) ((sitofp .f32 : (⟨S_, .i32⟩ : BufTy).Contents (Elt F) → (⟨S_, .f32⟩ : BufTy).Contents (Elt F)) (constantI S_ 32 0#32))) (constant S_ .f32 0x00000000#32)) (fvar0 A W B) ((broadcastInDim S512 ![] bcast_S_S512 : (⟨S_, .f32⟩ : BufTy).Contents (Elt F) → (⟨S512, .f32⟩ : BufTy).Contents (Elt F)) ((id : (⟨S_, .f32⟩ : BufTy).Contents (Elt F) → (⟨S_, .f32⟩ : BufTy).Contents (Elt F)) (constant S_ .f32 0x7FC00000#32)))

/-- The batch-normalised features: centred, over the square root of the variance plus epsilon. -/
def normed (A : (⟨S16x8x768, .f32⟩ : BufTy).Contents (Elt F)) (W : (⟨S768x512, .f32⟩ : BufTy).Contents (Elt F)) (B : (⟨S512, .f32⟩ : BufTy).Contents (Elt F)) :
    (⟨S128x512, .f32⟩ : BufTy).Contents (Elt F) :=
  (Host.divf : (⟨S128x512, .f32⟩ : BufTy).Contents (Elt F) → (⟨S128x512, .f32⟩ : BufTy).Contents (Elt F) → (⟨S128x512, .f32⟩ : BufTy).Contents (Elt F)) ((subf : (⟨S128x512, .f32⟩ : BufTy).Contents (Elt F) → (⟨S128x512, .f32⟩ : BufTy).Contents (Elt F) → (⟨S128x512, .f32⟩ : BufTy).Contents (Elt F)) (featF A W B) ((broadcastInDim S128x512 ![0, 1] bcast_S1x512_S128x512_0_1 : (⟨S1x512, .f32⟩ : BufTy).Contents (Elt F) → (⟨S128x512, .f32⟩ : BufTy).Contents (Elt F)) ((broadcastInDim S1x512 ![1] bcast_S512_S1x512_1 : (⟨S512, .f32⟩ : BufTy).Contents (Elt F) → (⟨S1x512, .f32⟩ : BufTy).Contents (Elt F)) (fmu A W B)))) ((broadcastInDim S128x512 ![0, 1] bcast_S1x512_S128x512_0_1 : (⟨S1x512, .f32⟩ : BufTy).Contents (Elt F) → (⟨S128x512, .f32⟩ : BufTy).Contents (Elt F)) ((broadcastInDim S1x512 ![1] bcast_S512_S1x512_1 : (⟨S512, .f32⟩ : BufTy).Contents (Elt F) → (⟨S1x512, .f32⟩ : BufTy).Contents (Elt F)) ((Host.sqrt : (⟨S512, .f32⟩ : BufTy).Contents (Elt F) → (⟨S512, .f32⟩ : BufTy).Contents (Elt F)) ((addf : (⟨S512, .f32⟩ : BufTy).Contents (Elt F) → (⟨S512, .f32⟩ : BufTy).Contents (Elt F) → (⟨S512, .f32⟩ : BufTy).Contents (Elt F)) (fvar A W B) ((broadcastInDim S512 ![] bcast_S_S512 : (⟨S_, .f32⟩ : BufTy).Contents (Elt F) → (⟨S512, .f32⟩ : BufTy).Contents (Elt F)) (constant S_ .f32 0x3727C5AC#32))))))

/-- The normalised features rescaled by the codebook's column deviation and mean, rows unflattened. -/
def resc (A : (⟨S16x8x768, .f32⟩ : BufTy).Contents (Elt F)) (W : (⟨S768x512, .f32⟩ : BufTy).Contents (Elt F)) (B : (⟨S512, .f32⟩ : BufTy).Contents (Elt F)) (E : (⟨S49408x512, .f32⟩ : BufTy).Contents (Elt F)) :
    (⟨S16x8x512, .f32⟩ : BufTy).Contents (Elt F) :=
  shapeCast S16x8x512 ((addf : (⟨S128x512, .f32⟩ : BufTy).Contents (Elt F) → (⟨S128x512, .f32⟩ : BufTy).Contents (Elt F) → (⟨S128x512, .f32⟩ : BufTy).Contents (Elt F)) ((mulf : (⟨S128x512, .f32⟩ : BufTy).Contents (Elt F) → (⟨S128x512, .f32⟩ : BufTy).Contents (Elt F) → (⟨S128x512, .f32⟩ : BufTy).Contents (Elt F)) (normed A W B) ((broadcastInDim S128x512 ![0, 1] bcast_S1x512_S128x512_0_1 : (⟨S1x512, .f32⟩ : BufTy).Contents (Elt F) → (⟨S128x512, .f32⟩ : BufTy).Contents (Elt F)) ((broadcastInDim S1x512 ![1] bcast_S512_S1x512_1 : (⟨S512, .f32⟩ : BufTy).Contents (Elt F) → (⟨S1x512, .f32⟩ : BufTy).Contents (Elt F)) ((mulf : (⟨S512, .f32⟩ : BufTy).Contents (Elt F) → (⟨S512, .f32⟩ : BufTy).Contents (Elt F) → (⟨S512, .f32⟩ : BufTy).Contents (Elt F)) (esd E) ((broadcastInDim S512 ![] bcast_S_S512 : (⟨S_, .f32⟩ : BufTy).Contents (Elt F) → (⟨S512, .f32⟩ : BufTy).Contents (Elt F)) (constant S_ .f32 0x3F800000#32)))))) ((broadcastInDim S128x512 ![0, 1] bcast_S1x512_S128x512_0_1 : (⟨S1x512, .f32⟩ : BufTy).Contents (Elt F) → (⟨S128x512, .f32⟩ : BufTy).Contents (Elt F)) ((broadcastInDim S1x512 ![1] bcast_S512_S1x512_1 : (⟨S512, .f32⟩ : BufTy).Contents (Elt F) → (⟨S1x512, .f32⟩ : BufTy).Contents (Elt F)) (emean E)))) shapeCasts_S128x512_S16x8x512

/-- The rescaled features, each row divided by its norm plus epsilon. -/
def fnrm (A : (⟨S16x8x768, .f32⟩ : BufTy).Contents (Elt F)) (W : (⟨S768x512, .f32⟩ : BufTy).Contents (Elt F)) (B : (⟨S512, .f32⟩ : BufTy).Contents (Elt F)) (E : (⟨S49408x512, .f32⟩ : BufTy).Contents (Elt F)) :
    (⟨S16x8x512, .f32⟩ : BufTy).Contents (Elt F) :=
  (Host.divf : (⟨S16x8x512, .f32⟩ : BufTy).Contents (Elt F) → (⟨S16x8x512, .f32⟩ : BufTy).Contents (Elt F) → (⟨S16x8x512, .f32⟩ : BufTy).Contents (Elt F)) (resc A W B E) ((broadcastInDim S16x8x512 ![0, 1, 2] bcast_S16x8x1_S16x8x512_0_1_2 : (⟨S16x8x1, .f32⟩ : BufTy).Contents (Elt F) → (⟨S16x8x512, .f32⟩ : BufTy).Contents (Elt F)) ((addf : (⟨S16x8x1, .f32⟩ : BufTy).Contents (Elt F) → (⟨S16x8x1, .f32⟩ : BufTy).Contents (Elt F) → (⟨S16x8x1, .f32⟩ : BufTy).Contents (Elt F)) ((Host.sqrt : (⟨S16x8x1, .f32⟩ : BufTy).Contents (Elt F) → (⟨S16x8x1, .f32⟩ : BufTy).Contents (Elt F)) ((broadcastInDim S16x8x1 ![0, 1] bcast_S16x8_S16x8x1_0_1 : (⟨S16x8, .f32⟩ : BufTy).Contents (Elt F) → (⟨S16x8x1, .f32⟩ : BufTy).Contents (Elt F)) ((fun x v => Host.reduceAdd x v reducesTo_S16x8x512_S16x8_d2 h_S_ : (⟨S16x8x512, .f32⟩ : BufTy).Contents (Elt F) → (⟨S_, .f32⟩ : BufTy).Contents (Elt F) → (⟨S16x8, .f32⟩ : BufTy).Contents (Elt F)) ((mulf : (⟨S16x8x512, .f32⟩ : BufTy).Contents (Elt F) → (⟨S16x8x512, .f32⟩ : BufTy).Contents (Elt F) → (⟨S16x8x512, .f32⟩ : BufTy).Contents (Elt F)) (resc A W B E) (resc A W B E)) (constant S_ .f32 0x00000000#32)))) ((broadcastInDim S16x8x1 ![] bcast_S_S16x8x1 : (⟨S_, .f32⟩ : BufTy).Contents (Elt F) → (⟨S16x8x1, .f32⟩ : BufTy).Contents (Elt F)) (constant S_ .f32 0x322BCC77#32))))

/-- The codebook, each row divided by its norm plus epsilon. -/
def enrm (E : (⟨S49408x512, .f32⟩ : BufTy).Contents (Elt F)) :
    (⟨S49408x512, .f32⟩ : BufTy).Contents (Elt F) :=
  (Host.divf : (⟨S49408x512, .f32⟩ : BufTy).Contents (Elt F) → (⟨S49408x512, .f32⟩ : BufTy).Contents (Elt F) → (⟨S49408x512, .f32⟩ : BufTy).Contents (Elt F)) E ((broadcastInDim S49408x512 ![0, 1] bcast_S49408x1_S49408x512_0_1 : (⟨S49408x1, .f32⟩ : BufTy).Contents (Elt F) → (⟨S49408x512, .f32⟩ : BufTy).Contents (Elt F)) ((addf : (⟨S49408x1, .f32⟩ : BufTy).Contents (Elt F) → (⟨S49408x1, .f32⟩ : BufTy).Contents (Elt F) → (⟨S49408x1, .f32⟩ : BufTy).Contents (Elt F)) ((Host.sqrt : (⟨S49408x1, .f32⟩ : BufTy).Contents (Elt F) → (⟨S49408x1, .f32⟩ : BufTy).Contents (Elt F)) ((broadcastInDim S49408x1 ![0] bcast_S49408_S49408x1_0 : (⟨S49408, .f32⟩ : BufTy).Contents (Elt F) → (⟨S49408x1, .f32⟩ : BufTy).Contents (Elt F)) ((fun x v => Host.reduceAdd x v reducesTo_S49408x512_S49408_d1 h_S_ : (⟨S49408x512, .f32⟩ : BufTy).Contents (Elt F) → (⟨S_, .f32⟩ : BufTy).Contents (Elt F) → (⟨S49408, .f32⟩ : BufTy).Contents (Elt F)) ((mulf : (⟨S49408x512, .f32⟩ : BufTy).Contents (Elt F) → (⟨S49408x512, .f32⟩ : BufTy).Contents (Elt F) → (⟨S49408x512, .f32⟩ : BufTy).Contents (Elt F)) E E) (constant S_ .f32 0x00000000#32)))) ((broadcastInDim S49408x1 ![] bcast_S_S49408x1 : (⟨S_, .f32⟩ : BufTy).Contents (Elt F) → (⟨S49408x1, .f32⟩ : BufTy).Contents (Elt F)) (constant S_ .f32 0x322BCC77#32))))

/-- The cosine scores: each normalised feature row against each normalised codebook row. -/
def cosOut (A : (⟨S16x8x768, .f32⟩ : BufTy).Contents (Elt F)) (W : (⟨S768x512, .f32⟩ : BufTy).Contents (Elt F)) (B : (⟨S512, .f32⟩ : BufTy).Contents (Elt F)) (E : (⟨S49408x512, .f32⟩ : BufTy).Contents (Elt F)) :
    (⟨S16x8x49408, .f32⟩ : BufTy).Contents (Elt F) :=
  ((fun l r => Host.dotGeneral dot_S16x8x512_S49408x512_S16x8x49408_2_1_01_0_n_n none l r) : (⟨S16x8x512, .f32⟩ : BufTy).Contents (Elt F) → (⟨S49408x512, .f32⟩ : BufTy).Contents (Elt F) → (⟨S16x8x49408, .f32⟩ : BufTy).Contents (Elt F)) (fnrm A W B E) (enrm E)

/-- The scores over the temperature. -/
def logit (A : (⟨S16x8x768, .f32⟩ : BufTy).Contents (Elt F)) (W : (⟨S768x512, .f32⟩ : BufTy).Contents (Elt F)) (B : (⟨S512, .f32⟩ : BufTy).Contents (Elt F)) (E : (⟨S49408x512, .f32⟩ : BufTy).Contents (Elt F)) :
    (⟨S16x8x49408, .f32⟩ : BufTy).Contents (Elt F) :=
  (Host.divf : (⟨S16x8x49408, .f32⟩ : BufTy).Contents (Elt F) → (⟨S16x8x49408, .f32⟩ : BufTy).Contents (Elt F) → (⟨S16x8x49408, .f32⟩ : BufTy).Contents (Elt F)) (cosOut A W B E) ((broadcastInDim S16x8x49408 ![] bcast_S_S16x8x49408 : (⟨S_, .f32⟩ : BufTy).Contents (Elt F) → (⟨S16x8x49408, .f32⟩ : BufTy).Contents (Elt F)) (constant S_ .f32 0x3DCCCCCD#32))

/-- Each row's largest logit. -/
def rmax (A : (⟨S16x8x768, .f32⟩ : BufTy).Contents (Elt F)) (W : (⟨S768x512, .f32⟩ : BufTy).Contents (Elt F)) (B : (⟨S512, .f32⟩ : BufTy).Contents (Elt F)) (E : (⟨S49408x512, .f32⟩ : BufTy).Contents (Elt F)) :
    (⟨S16x8, .f32⟩ : BufTy).Contents (Elt F) :=
  (maximumf : (⟨S16x8, .f32⟩ : BufTy).Contents (Elt F) → (⟨S16x8, .f32⟩ : BufTy).Contents (Elt F) → (⟨S16x8, .f32⟩ : BufTy).Contents (Elt F)) ((broadcastInDim S16x8 ![] bcast_S_S16x8 : (⟨S_, .f32⟩ : BufTy).Contents (Elt F) → (⟨S16x8, .f32⟩ : BufTy).Contents (Elt F)) (constant S_ .f32 0xFF800000#32)) (((fun x v => Host.reduce FloatOps.maximumf x v reducesTo_S16x8x49408_S16x8_d2 h_S_) : (⟨S16x8x49408, .f32⟩ : BufTy).Contents (Elt F) → (⟨S_, .f32⟩ : BufTy).Contents (Elt F) → (⟨S16x8, .f32⟩ : BufTy).Contents (Elt F)) (logit A W B E) (constant S_ .f32 0xFF800000#32))

/-- The exponential of each logit less its row's maximum. -/
def expo (A : (⟨S16x8x768, .f32⟩ : BufTy).Contents (Elt F)) (W : (⟨S768x512, .f32⟩ : BufTy).Contents (Elt F)) (B : (⟨S512, .f32⟩ : BufTy).Contents (Elt F)) (E : (⟨S49408x512, .f32⟩ : BufTy).Contents (Elt F)) :
    (⟨S16x8x49408, .f32⟩ : BufTy).Contents (Elt F) :=
  (Host.exp : (⟨S16x8x49408, .f32⟩ : BufTy).Contents (Elt F) → (⟨S16x8x49408, .f32⟩ : BufTy).Contents (Elt F)) ((subf : (⟨S16x8x49408, .f32⟩ : BufTy).Contents (Elt F) → (⟨S16x8x49408, .f32⟩ : BufTy).Contents (Elt F) → (⟨S16x8x49408, .f32⟩ : BufTy).Contents (Elt F)) (logit A W B E) ((broadcastInDim S16x8x49408 ![0, 1, 2] bcast_S16x8x1_S16x8x49408_0_1_2 : (⟨S16x8x1, .f32⟩ : BufTy).Contents (Elt F) → (⟨S16x8x49408, .f32⟩ : BufTy).Contents (Elt F)) ((broadcastInDim S16x8x1 ![0, 1] bcast_S16x8_S16x8x1_0_1 : (⟨S16x8, .f32⟩ : BufTy).Contents (Elt F) → (⟨S16x8x1, .f32⟩ : BufTy).Contents (Elt F)) (rmax A W B E))))

/-- The keyword vectors: the softmax weights applied to the codebook. -/
def kwOut (A : (⟨S16x8x768, .f32⟩ : BufTy).Contents (Elt F)) (W : (⟨S768x512, .f32⟩ : BufTy).Contents (Elt F)) (B : (⟨S512, .f32⟩ : BufTy).Contents (Elt F)) (E : (⟨S49408x512, .f32⟩ : BufTy).Contents (Elt F)) :
    (⟨S16x8x512, .f32⟩ : BufTy).Contents (Elt F) :=
  ((fun l r => Host.dotGeneral dot_S16x8x49408_S49408x512_S16x8x512_2_0_01_1_n_n none l r) : (⟨S16x8x49408, .f32⟩ : BufTy).Contents (Elt F) → (⟨S49408x512, .f32⟩ : BufTy).Contents (Elt F) → (⟨S16x8x512, .f32⟩ : BufTy).Contents (Elt F)) ((Host.divf : (⟨S16x8x49408, .f32⟩ : BufTy).Contents (Elt F) → (⟨S16x8x49408, .f32⟩ : BufTy).Contents (Elt F) → (⟨S16x8x49408, .f32⟩ : BufTy).Contents (Elt F)) (expo A W B E) ((broadcastInDim S16x8x49408 ![0, 1, 2] bcast_S16x8x1_S16x8x49408_0_1_2 : (⟨S16x8x1, .f32⟩ : BufTy).Contents (Elt F) → (⟨S16x8x49408, .f32⟩ : BufTy).Contents (Elt F)) ((broadcastInDim S16x8x1 ![0, 1] bcast_S16x8_S16x8x1_0_1 : (⟨S16x8, .f32⟩ : BufTy).Contents (Elt F) → (⟨S16x8x1, .f32⟩ : BufTy).Contents (Elt F)) (((fun x v => Host.reduceAdd x v reducesTo_S16x8x49408_S16x8_d2 h_S_) : (⟨S16x8x49408, .f32⟩ : BufTy).Contents (Elt F) → (⟨S_, .f32⟩ : BufTy).Contents (Elt F) → (⟨S16x8, .f32⟩ : BufTy).Contents (Elt F)) (expo A W B E) (constant S_ .f32 0x00000000#32))))) E

/-! ## The buffers' contents, window by window -/

/-- The device's buffer contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after the first 1 window. -/
def val1 (V0 : Valuation τ sig (Elt F)) : Valuation τ sig (Elt F) := after w0 (val0 V0)
/-- The buffers that window 1 writes. -/
abbrev w0_W : List (Ref sig .tc) := [main_v0, main_v1, main_v2, main_v3, main_cst, main_v4, main_cst_0, main_v5, main_v6]
set_option maxRecDepth 8192 in
theorem w0_writes : (w0 : List (HloOp τ sig (Elt F))).Forall fun op => op.writes ⊆ (w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 1 does not write keeps its contents through it. -/
theorem val1_keep (V0 : Valuation τ sig (Elt F)) (r : Ref sig .tc) (h : r ∉ w0_W) :
    val1 V0 (Proc.devRef .tc r) = val0 V0 (Proc.devRef .tc r) :=
  after_of_writes_sub w0 _ w0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
set_option maxRecDepth 8192 in
set_option maxHeartbeats 900000 in
theorem val1_main_v3 (V0 : Valuation τ sig (Elt F)) : val1 V0 (no_index (Proc.devRef .tc main_v3)) = feat3 (V0 (Proc.devRef .tc main_arg0)) (V0 (Proc.devRef .tc main_arg1)) (V0 (Proc.devRef .tc main_arg2)) := by
  unfold val1
  simp only [w0]
  after_results_simp
  simp only [val0_main_arg2, val0_main_arg1, val0_main_arg0] <;> rfl
set_option maxRecDepth 8192 in
set_option maxHeartbeats 900000 in
theorem val1_main_v6 (V0 : Valuation τ sig (Elt F)) : val1 V0 (no_index (Proc.devRef .tc main_v6)) = emean (V0 (Proc.devRef .tc main_arg3)) := by
  unfold val1
  simp only [w0]
  after_results_simp
  simp only [val0_main_arg3] <;> rfl

/-- The device's buffer contents after the first 2 windows. -/
def val2 (V0 : Valuation τ sig (Elt F)) : Valuation τ sig (Elt F) := after w1 (val1 V0)
/-- The buffers that window 2 writes. -/
abbrev w1_W : List (Ref sig .tc) := [main_c, main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_cst_3, main_call0_call0_v12, main_call0_call0_cst_4, main_call0_call0_call0_v0, main_call0_call0_call0_v1, main_call0_v0, main_v7]
set_option maxRecDepth 8192 in
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 2 does not write keeps its contents through it. -/
theorem val2_keep (V0 : Valuation τ sig (Elt F)) (r : Ref sig .tc) (h : r ∉ w1_W) :
    val2 V0 (Proc.devRef .tc r) = val1 V0 (Proc.devRef .tc r) :=
  after_of_writes_sub w1 _ w1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_v3 (V0 : Valuation τ sig (Elt F)) : val2 V0 (no_index (Proc.devRef .tc main_v3)) = feat3 (V0 (Proc.devRef .tc main_arg0)) (V0 (Proc.devRef .tc main_arg1)) (V0 (Proc.devRef .tc main_arg2)) :=
  (val2_keep V0 main_v3 (by decide)).trans (val1_main_v3 V0)
theorem val2_main_v6 (V0 : Valuation τ sig (Elt F)) : val2 V0 (no_index (Proc.devRef .tc main_v6)) = emean (V0 (Proc.devRef .tc main_arg3)) :=
  (val2_keep V0 main_v6 (by decide)).trans (val1_main_v6 V0)
set_option maxRecDepth 8192 in
set_option maxHeartbeats 2400000 in
theorem val2_main_v7 (V0 : Valuation τ sig (Elt F)) : val2 V0 (no_index (Proc.devRef .tc main_v7)) = esd (V0 (Proc.devRef .tc main_arg3)) := by
  unfold val2
  simp only [w1]
  after_results_simp
  simp only [val1_main_arg3] <;> rfl

/-- The device's buffer contents after the first 3 windows. -/
def val3 (V0 : Valuation τ sig (Elt F)) : Valuation τ sig (Elt F) := after w2 (val2 V0)
/-- The buffers that window 3 writes. -/
abbrev w2_W : List (Ref sig .tc) := [main_v8, main_cst_1, main_v9, main_cst_2, main_v10, main_v11]
set_option maxRecDepth 8192 in
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 3 does not write keeps its contents through it. -/
theorem val3_keep (V0 : Valuation τ sig (Elt F)) (r : Ref sig .tc) (h : r ∉ w2_W) :
    val3 V0 (Proc.devRef .tc r) = val2 V0 (Proc.devRef .tc r) :=
  after_of_writes_sub w2 _ w2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_v6 (V0 : Valuation τ sig (Elt F)) : val3 V0 (no_index (Proc.devRef .tc main_v6)) = emean (V0 (Proc.devRef .tc main_arg3)) :=
  (val3_keep V0 main_v6 (by decide)).trans (val2_main_v6 V0)
theorem val3_main_v7 (V0 : Valuation τ sig (Elt F)) : val3 V0 (no_index (Proc.devRef .tc main_v7)) = esd (V0 (Proc.devRef .tc main_arg3)) :=
  (val3_keep V0 main_v7 (by decide)).trans (val2_main_v7 V0)
set_option maxRecDepth 8192 in
set_option maxHeartbeats 600000 in
theorem val3_main_v8 (V0 : Valuation τ sig (Elt F)) : val3 V0 (no_index (Proc.devRef .tc main_v8)) = featF (V0 (Proc.devRef .tc main_arg0)) (V0 (Proc.devRef .tc main_arg1)) (V0 (Proc.devRef .tc main_arg2)) := by
  unfold val3
  simp only [w2]
  after_results_simp
  simp only [val2_main_v3] <;> rfl
set_option maxRecDepth 8192 in
set_option maxHeartbeats 600000 in
theorem val3_main_v11 (V0 : Valuation τ sig (Elt F)) : val3 V0 (no_index (Proc.devRef .tc main_v11)) = fmu (V0 (Proc.devRef .tc main_arg0)) (V0 (Proc.devRef .tc main_arg1)) (V0 (Proc.devRef .tc main_arg2)) := by
  unfold val3
  simp only [w2]
  after_results_simp
  simp only [val2_main_v3] <;> rfl

/-- The device's buffer contents after the first 4 windows. -/
def val4 (V0 : Valuation τ sig (Elt F)) : Valuation τ sig (Elt F) := after w3 (val3 V0)
/-- The buffers that window 4 writes. -/
abbrev w3_W : List (Ref sig .tc) := [main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v12]
set_option maxRecDepth 8192 in
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 4 does not write keeps its contents through it. -/
theorem val4_keep (V0 : Valuation τ sig (Elt F)) (r : Ref sig .tc) (h : r ∉ w3_W) :
    val4 V0 (Proc.devRef .tc r) = val3 V0 (Proc.devRef .tc r) :=
  after_of_writes_sub w3 _ w3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_v6 (V0 : Valuation τ sig (Elt F)) : val4 V0 (no_index (Proc.devRef .tc main_v6)) = emean (V0 (Proc.devRef .tc main_arg3)) :=
  (val4_keep V0 main_v6 (by decide)).trans (val3_main_v6 V0)
theorem val4_main_v7 (V0 : Valuation τ sig (Elt F)) : val4 V0 (no_index (Proc.devRef .tc main_v7)) = esd (V0 (Proc.devRef .tc main_arg3)) :=
  (val4_keep V0 main_v7 (by decide)).trans (val3_main_v7 V0)
theorem val4_main_v8 (V0 : Valuation τ sig (Elt F)) : val4 V0 (no_index (Proc.devRef .tc main_v8)) = featF (V0 (Proc.devRef .tc main_arg0)) (V0 (Proc.devRef .tc main_arg1)) (V0 (Proc.devRef .tc main_arg2)) :=
  (val4_keep V0 main_v8 (by decide)).trans (val3_main_v8 V0)
theorem val4_main_v11 (V0 : Valuation τ sig (Elt F)) : val4 V0 (no_index (Proc.devRef .tc main_v11)) = fmu (V0 (Proc.devRef .tc main_arg0)) (V0 (Proc.devRef .tc main_arg1)) (V0 (Proc.devRef .tc main_arg2)) :=
  (val4_keep V0 main_v11 (by decide)).trans (val3_main_v11 V0)
set_option maxRecDepth 8192 in
set_option maxHeartbeats 2300000 in
theorem val4_main_v12 (V0 : Valuation τ sig (Elt F)) : val4 V0 (no_index (Proc.devRef .tc main_v12)) = fvar (V0 (Proc.devRef .tc main_arg0)) (V0 (Proc.devRef .tc main_arg1)) (V0 (Proc.devRef .tc main_arg2)) := by
  unfold val4
  simp only [w3]
  after_results_simp
  simp only [val3_main_v8] <;> rfl

/-- The device's buffer contents after the first 5 windows. -/
def val5 (V0 : Valuation τ sig (Elt F)) : Valuation τ sig (Elt F) := after w4 (val4 V0)
/-- The buffers that window 5 writes. -/
abbrev w4_W : List (Ref sig .tc) := [main_v13, main_v14, main_v15, main_cst_4, main_v16, main_v17, main_v18, main_v19, main_v20, main_v21]
set_option maxRecDepth 8192 in
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 5 does not write keeps its contents through it. -/
theorem val5_keep (V0 : Valuation τ sig (Elt F)) (r : Ref sig .tc) (h : r ∉ w4_W) :
    val5 V0 (Proc.devRef .tc r) = val4 V0 (Proc.devRef .tc r) :=
  after_of_writes_sub w4 _ w4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_v6 (V0 : Valuation τ sig (Elt F)) : val5 V0 (no_index (Proc.devRef .tc main_v6)) = emean (V0 (Proc.devRef .tc main_arg3)) :=
  (val5_keep V0 main_v6 (by decide)).trans (val4_main_v6 V0)
theorem val5_main_v7 (V0 : Valuation τ sig (Elt F)) : val5 V0 (no_index (Proc.devRef .tc main_v7)) = esd (V0 (Proc.devRef .tc main_arg3)) :=
  (val5_keep V0 main_v7 (by decide)).trans (val4_main_v7 V0)
set_option maxRecDepth 8192 in
set_option maxHeartbeats 1000000 in
theorem val5_main_v21 (V0 : Valuation τ sig (Elt F)) : val5 V0 (no_index (Proc.devRef .tc main_v21)) = normed (V0 (Proc.devRef .tc main_arg0)) (V0 (Proc.devRef .tc main_arg1)) (V0 (Proc.devRef .tc main_arg2)) := by
  unfold val5
  simp only [w4]
  after_results_simp
  simp only [val4_main_v12, val4_main_v11, val4_main_v8] <;> rfl

/-- The device's buffer contents after the first 6 windows. -/
def val6 (V0 : Valuation τ sig (Elt F)) : Valuation τ sig (Elt F) := after w5 (val5 V0)
/-- The buffers that window 6 writes. -/
abbrev w5_W : List (Ref sig .tc) := [main_cst_5, main_v22, main_v23, main_v24, main_v25, main_v26, main_v27, main_v28, main_v29, main_v30]
set_option maxRecDepth 8192 in
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 6 does not write keeps its contents through it. -/
theorem val6_keep (V0 : Valuation τ sig (Elt F)) (r : Ref sig .tc) (h : r ∉ w5_W) :
    val6 V0 (Proc.devRef .tc r) = val5 V0 (Proc.devRef .tc r) :=
  after_of_writes_sub w5 _ w5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
set_option maxRecDepth 8192 in
set_option maxHeartbeats 1000000 in
theorem val6_main_v30 (V0 : Valuation τ sig (Elt F)) : val6 V0 (no_index (Proc.devRef .tc main_v30)) = resc (V0 (Proc.devRef .tc main_arg0)) (V0 (Proc.devRef .tc main_arg1)) (V0 (Proc.devRef .tc main_arg2)) (V0 (Proc.devRef .tc main_arg3)) := by
  unfold val6
  simp only [w5]
  after_results_simp
  simp only [val5_main_v6, val5_main_v7, val5_main_v21] <;> rfl

/-- The device's buffer contents after the first 7 windows. -/
def val7 (V0 : Valuation τ sig (Elt F)) : Valuation τ sig (Elt F) := after w6 (val6 V0)
/-- The buffers that window 7 writes. -/
abbrev w6_W : List (Ref sig .tc) := [main_call2_v0, main_call2_cst, main_call2_v1, main_call2_v2, main_v31, main_cst_6, main_v32, main_v33, main_v34, main_v35]
set_option maxRecDepth 8192 in
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 7 does not write keeps its contents through it. -/
theorem val7_keep (V0 : Valuation τ sig (Elt F)) (r : Ref sig .tc) (h : r ∉ w6_W) :
    val7 V0 (Proc.devRef .tc r) = val6 V0 (Proc.devRef .tc r) :=
  after_of_writes_sub w6 _ w6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
set_option maxRecDepth 8192 in
set_option maxHeartbeats 1000000 in
theorem val7_main_v35 (V0 : Valuation τ sig (Elt F)) : val7 V0 (no_index (Proc.devRef .tc main_v35)) = fnrm (V0 (Proc.devRef .tc main_arg0)) (V0 (Proc.devRef .tc main_arg1)) (V0 (Proc.devRef .tc main_arg2)) (V0 (Proc.devRef .tc main_arg3)) := by
  unfold val7
  simp only [w6]
  after_results_simp
  simp only [val6_main_v30] <;> rfl

/-- The device's buffer contents after the first 8 windows. -/
def val8 (V0 : Valuation τ sig (Elt F)) : Valuation τ sig (Elt F) := after w7 (val7 V0)
/-- The buffers that window 8 writes. -/
abbrev w7_W : List (Ref sig .tc) := [main_call3_v0, main_call3_cst, main_call3_v1, main_call3_v2, main_v36, main_cst_7, main_v37, main_v38, main_v39, main_v40]
set_option maxRecDepth 8192 in
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 8 does not write keeps its contents through it. -/
theorem val8_keep (V0 : Valuation τ sig (Elt F)) (r : Ref sig .tc) (h : r ∉ w7_W) :
    val8 V0 (Proc.devRef .tc r) = val7 V0 (Proc.devRef .tc r) :=
  after_of_writes_sub w7 _ w7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_v35 (V0 : Valuation τ sig (Elt F)) : val8 V0 (no_index (Proc.devRef .tc main_v35)) = fnrm (V0 (Proc.devRef .tc main_arg0)) (V0 (Proc.devRef .tc main_arg1)) (V0 (Proc.devRef .tc main_arg2)) (V0 (Proc.devRef .tc main_arg3)) :=
  (val8_keep V0 main_v35 (by decide)).trans (val7_main_v35 V0)
set_option maxRecDepth 8192 in
set_option maxHeartbeats 1000000 in
theorem val8_main_v40 (V0 : Valuation τ sig (Elt F)) : val8 V0 (no_index (Proc.devRef .tc main_v40)) = enrm (V0 (Proc.devRef .tc main_arg3)) := by
  unfold val8
  simp only [w7]
  after_results_simp
  simp only [val7_main_arg3] <;> rfl

/-- The device's buffer contents after the first 9 windows. -/
def val9 (V0 : Valuation τ sig (Elt F)) : Valuation τ sig (Elt F) := after w8 (val8 V0)
/-- The buffers that window 9 writes. -/
abbrev w8_W : List (Ref sig .tc) := [main_v41, main_cst_8, main_v42, main_v43, main_cst_9, main_v44, main_cst_10, main_v45, main_v46]
set_option maxRecDepth 8192 in
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 9 does not write keeps its contents through it. -/
theorem val9_keep (V0 : Valuation τ sig (Elt F)) (r : Ref sig .tc) (h : r ∉ w8_W) :
    val9 V0 (Proc.devRef .tc r) = val8 V0 (Proc.devRef .tc r) :=
  after_of_writes_sub w8 _ w8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
set_option maxRecDepth 8192 in
set_option maxHeartbeats 900000 in
theorem val9_main_v41 (V0 : Valuation τ sig (Elt F)) : val9 V0 (no_index (Proc.devRef .tc main_v41)) = cosOut (V0 (Proc.devRef .tc main_arg0)) (V0 (Proc.devRef .tc main_arg1)) (V0 (Proc.devRef .tc main_arg2)) (V0 (Proc.devRef .tc main_arg3)) := by
  unfold val9
  simp only [w8]
  after_results_simp
  simp only [val8_main_v40, val8_main_v35] <;> rfl
set_option maxRecDepth 8192 in
set_option maxHeartbeats 900000 in
theorem val9_main_v43 (V0 : Valuation τ sig (Elt F)) : val9 V0 (no_index (Proc.devRef .tc main_v43)) = logit (V0 (Proc.devRef .tc main_arg0)) (V0 (Proc.devRef .tc main_arg1)) (V0 (Proc.devRef .tc main_arg2)) (V0 (Proc.devRef .tc main_arg3)) := by
  unfold val9
  simp only [w8]
  after_results_simp
  simp only [val8_main_v40, val8_main_v35] <;> rfl
set_option maxRecDepth 8192 in
set_option maxHeartbeats 900000 in
theorem val9_main_v46 (V0 : Valuation τ sig (Elt F)) : val9 V0 (no_index (Proc.devRef .tc main_v46)) = rmax (V0 (Proc.devRef .tc main_arg0)) (V0 (Proc.devRef .tc main_arg1)) (V0 (Proc.devRef .tc main_arg2)) (V0 (Proc.devRef .tc main_arg3)) := by
  unfold val9
  simp only [w8]
  after_results_simp
  simp only [val8_main_v40, val8_main_v35] <;> rfl

/-- The device's buffer contents after the first 10 windows. -/
def val10 (V0 : Valuation τ sig (Elt F)) : Valuation τ sig (Elt F) := after w9 (val9 V0)
/-- The buffers that window 10 writes. -/
abbrev w9_W : List (Ref sig .tc) := [main_v47, main_v48, main_v49, main_v50, main_cst_11, main_v51, main_v52, main_v53, main_v54, main_v55]
set_option maxRecDepth 8192 in
theorem w9_writes : (w9 : List (HloOp τ sig (Elt F))).Forall fun op => op.writes ⊆ (w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 10 does not write keeps its contents through it. -/
theorem val10_keep (V0 : Valuation τ sig (Elt F)) (r : Ref sig .tc) (h : r ∉ w9_W) :
    val10 V0 (Proc.devRef .tc r) = val9 V0 (Proc.devRef .tc r) :=
  after_of_writes_sub w9 _ w9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_v41 (V0 : Valuation τ sig (Elt F)) : val10 V0 (no_index (Proc.devRef .tc main_v41)) = cosOut (V0 (Proc.devRef .tc main_arg0)) (V0 (Proc.devRef .tc main_arg1)) (V0 (Proc.devRef .tc main_arg2)) (V0 (Proc.devRef .tc main_arg3)) :=
  (val10_keep V0 main_v41 (by decide)).trans (val9_main_v41 V0)
set_option maxRecDepth 8192 in
set_option maxHeartbeats 1000000 in
theorem val10_main_v55 (V0 : Valuation τ sig (Elt F)) : val10 V0 (no_index (Proc.devRef .tc main_v55)) = kwOut (V0 (Proc.devRef .tc main_arg0)) (V0 (Proc.devRef .tc main_arg1)) (V0 (Proc.devRef .tc main_arg2)) (V0 (Proc.devRef .tc main_arg3)) := by
  unfold val10
  simp only [w9]
  after_results_simp
  simp only [val9_main_arg3, val9_main_v46, val9_main_v43] <;> rfl

/-- The contents after all 121 operations are the contents after the ten windows. -/
theorem after_ops (V0 : Valuation τ sig (Elt F)) : after ops V0 = val10 V0 := by
  simp only [ops, opsP0, after_append]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

theorem w0_sub : (w0 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub ..⟩
theorem w0_fresh : ∀ op ∈ (w0 : List (HloOp τ sig (Elt F))), op.fresh = ∅ := by
  intro _ h; (repeat (cases h with | head => rfl | tail _ h => ?_)); exact nomatch h
theorem w1_sub : (w1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩
theorem w1_fresh : ∀ op ∈ (w1 : List (HloOp τ sig (Elt F))), op.fresh = ∅ := by
  intro _ h; (repeat (cases h with | head => rfl | tail _ h => ?_)); exact nomatch h
theorem w2_sub : (w2 : List (HloOp τ sig (Elt F))).Forall fun op => op.bufs ⊆ tcRefs τ sig :=
  ⟨reshape_bufs_sub .., nullary_bufs_sub .., binary_bufs_sub .., nullary_bufs_sub .., unary_bufs_sub .., binary_bufs_sub ..⟩
theorem w2_fresh : ∀ op ∈ (w2 : List (HloOp τ sig (Elt F))), op.fresh = ∅ := by
  intro _ h; (repeat (cases h with | head => rfl | tail _ h => ?_)); exact nomatch h
theorem w3_sub : (w3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem w3_fresh : ∀ op ∈ (w3 : List (HloOp τ sig (Elt F))), op.fresh = ∅ := by
  intro _ h; (repeat (cases h with | head => rfl | tail _ h => ?_)); exact nomatch h
theorem w4_sub : (w4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub ..⟩
theorem w4_fresh : ∀ op ∈ (w4 : List (HloOp τ sig (Elt F))), op.fresh = ∅ := by
  intro _ h; (repeat (cases h with | head => rfl | tail _ h => ?_)); exact nomatch h
theorem w5_sub : (w5 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., unary_bufs_sub .., binary_bufs_sub .., reshape_bufs_sub ..⟩
theorem w5_fresh : ∀ op ∈ (w5 : List (HloOp τ sig (Elt F))), op.fresh = ∅ := by
  intro _ h; (repeat (cases h with | head => rfl | tail _ h => ?_)); exact nomatch h
theorem w6_sub : (w6 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem w6_fresh : ∀ op ∈ (w6 : List (HloOp τ sig (Elt F))), op.fresh = ∅ := by
  intro _ h; (repeat (cases h with | head => rfl | tail _ h => ?_)); exact nomatch h
theorem w7_sub : (w7 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem w7_fresh : ∀ op ∈ (w7 : List (HloOp τ sig (Elt F))), op.fresh = ∅ := by
  intro _ h; (repeat (cases h with | head => rfl | tail _ h => ?_)); exact nomatch h
theorem w8_sub : (w8 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub ..⟩
theorem w8_fresh : ∀ op ∈ (w8 : List (HloOp τ sig (Elt F))), op.fresh = ∅ := by
  intro _ h; (repeat (cases h with | head => rfl | tail _ h => ?_)); exact nomatch h
theorem w9_sub : (w9 : List (HloOp τ sig (Elt F))).Forall fun op => op.bufs ⊆ tcRefs τ sig :=
  ⟨unary_bufs_sub .., unary_bufs_sub .., binary_bufs_sub .., unary_bufs_sub .., nullary_bufs_sub .., binary_bufs_sub .., unary_bufs_sub .., unary_bufs_sub .., binary_bufs_sub .., binary_bufs_sub ..⟩
theorem w9_fresh : ∀ op ∈ (w9 : List (HloOp τ sig (Elt F))), op.fresh = ∅ := by
  intro _ h; (repeat (cases h with | head => rfl | tail _ h => ?_)); exact nomatch h

/-- Every operation touches TensorCore references only. -/
theorem ops_sub : (ops : List (HloOp τ sig (Elt F))).Forall fun op => op.bufs ⊆ tcRefs τ sig :=
  List.forall_iff_forall_mem.mpr fun op h => by
    simp only [ops, opsP0, List.mem_append] at h
    rcases h with ((h | h | h | h | h | h | h | h | h) | h)
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h]

/-- Every operation determines its results. -/
theorem ops_fresh : ∀ op ∈ (ops : List (HloOp τ sig (Elt F))), op.fresh = ∅ := by
  intro op h
  simp only [ops, opsP0, List.mem_append] at h
  rcases h with ((h | h | h | h | h | h | h | h | h) | h)
  exacts [w0_fresh op h, w1_fresh op h, w2_fresh op h, w3_fresh op h, w4_fresh op h, w5_fresh op h, w6_fresh op h, w7_fresh op h, w8_fresh op h, w9_fresh op h]

/-- On every device, from any memory with zero counters: every weakly fair execution of the reference's @main
    terminates with the keyword buffer at `kwOut` and the score buffer at `cosOut` of the four argument arrays' launch
    contents, and the argument arrays unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev nD,
      r.2.mem ((c.tc : Thread nD τ).loc main_v55) = kwOut (m (c.tc.loc main_arg0)) (m (c.tc.loc main_arg1)) (m (c.tc.loc main_arg2)) (m (c.tc.loc main_arg3))
      ∧ r.2.mem ((c.tc : Thread nD τ).loc main_v41) = cosOut (m (c.tc.loc main_arg0)) (m (c.tc.loc main_arg1)) (m (c.tc.loc main_arg2)) (m (c.tc.loc main_arg3))
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)) :=
  (θ_run defs _ _).mono (fun _ h c => ⟨
      (h c main_v55).trans (by simp only [after_ops]; exact val10_main_v55 (launchContents m c)),
      (h c main_v41).trans (by simp only [after_ops]; exact val10_main_v41 (launchContents m c)),
      (h c main_arg0).trans (by simp only [after_ops]; exact val10_main_arg0 (launchContents m c)),
      (h c main_arg1).trans (by simp only [after_ops]; exact val10_main_arg1 (launchContents m c)),
      (h c main_arg2).trans (by simp only [after_ops]; exact val10_main_arg2 (launchContents m c)),
      (h c main_arg3).trans (by simp only [after_ops]; exact val10_main_arg3 (launchContents m c))⟩)
    (run_seq scopedRefs_eq scopedSems_eq defs main (fun _ => ops) main_eq (fun _ => ops_sub) m ρ (fun _ => ops_fresh))

end Cert.RefValue

end
-- ==== Proof.Consts.lean ====
/-
  The float constants this certificate's programs spell, as the extended reals their bit patterns denote at the ideal
  instance. One module states them all: a proof that unfolds `Ideal.ofBits` and `Ideal.ieee` declares their equation
  lemmas where it runs, so every other module reads its constants here and unfolds neither.
-/
import Idealize.ShloMosaic.PureOps.Ideal

noncomputable section

namespace Cert.Consts

open Idealize.ShloMosaic

/-- `49408.0`, the vocabulary size. -/
theorem cV_eq : Ideal.ofBits .f32 0x47410000#32 = ((49408 : ℝ) : EReal) := by
  simp [Ideal.ofBits, Ideal.ieee, -EReal.coe_mul]; norm_num

/-- `128.0`, the number of feature rows. -/
theorem c128_eq : Ideal.ofBits .f32 0x43000000#32 = ((128 : ℝ) : EReal) := by
  simp [Ideal.ofBits, Ideal.ieee, -EReal.coe_mul]; norm_num

/-- The pattern of minus infinity is the bottom element. -/
theorem ninf_eq : Ideal.ofBits .f32 0xFF800000#32 = ⊥ := by
  simp [Ideal.ofBits, Ideal.ieee]

/-- `1.0`. -/
theorem c1_eq : Ideal.ofBits .f32 0x3F800000#32 = 1 := by
  simp [Ideal.ofBits, Ideal.ieee, -EReal.coe_mul]; norm_num

/-- `+0.0`. -/
theorem c0_eq : Ideal.ofBits .f32 0x00000000#32 = 0 := by
  simp [Ideal.ofBits, Ideal.ieee]

/-- The float nearest `1e-5`, `10995116 / 2^40`: a positive real. -/
theorem e5_eq : Ideal.ofBits .f32 0x3727C5AC#32 = ((10995116 / 1099511627776 : ℝ) : EReal) := by
  simp [Ideal.ofBits, Ideal.ieee, -EReal.coe_mul]; norm_num

/-- The float nearest `1e-8`, `11258999 / 2^50`: a positive real. -/
theorem e8_eq : Ideal.ofBits .f32 0x322BCC77#32 = ((11258999 / 1125899906842624 : ℝ) : EReal) := by
  simp [Ideal.ofBits, Ideal.ieee, -EReal.coe_mul]; norm_num

theorem e5_pos : ∃ r : ℝ, 0 < r ∧ Ideal.ofBits .f32 0x3727C5AC#32 = (r : EReal) :=
  ⟨10995116 / 1099511627776, by norm_num, e5_eq⟩

theorem e8_pos : ∃ r : ℝ, 0 < r ∧ Ideal.ofBits .f32 0x322BCC77#32 = (r : EReal) :=
  ⟨11258999 / 1125899906842624, by norm_num, e8_eq⟩

/-- The float nearest `0.1`, `13421773 / 2^27`: the softmax temperature. -/
theorem tau_eq : Ideal.ofBits .f32 0x3DCCCCCD#32 = ((13421773 / 134217728 : ℝ) : EReal) := by
  simp [Ideal.ofBits, Ideal.ieee, -EReal.coe_mul]; norm_num

end Cert.Consts

end
-- ==== Proof.RefRead.lean ====
/-
  The reference's two results read index by index.

  Each host operation of the reference is read at an index of its result: a broadcast reads its operand at the kept
  coordinates, a reshape between [16, 8, 512] and [128, 512] sends (b, t, d) to (8 * b + t, d), a sum-reduce from zero
  is the plain sum over the reduced axis, a dot_general is the plain sum over its one contracted axis, the quotient,
  root and exponential are the ideal instance's. Composed along the named intermediate arrays of the run, they give the
  reference's cosine score and keyword vector as the specification's functions of the four argument arrays.
-/
import proofs.«131505_g24936580120849_cont_9to1_1340_2_alg».proof.Proof.RefRun
import proofs.«131505_g24936580120849_cont_9to1_1340_2_alg».proof.Proof.SpecAt
import proofs.«131505_g24936580120849_cont_9to1_1340_2_alg».proof.Proof.Consts
import Idealize.ShloMosaic.Lib.IdealHost
import Idealize.ShloMosaic.Lib.Pipeline.Value

noncomputable section

namespace Cert.RefValue

open Cert.ReferenceIdeal Cert.ReferenceIdeal.Gen Idealize.ShloMosaic Idealize.ShloMosaic.ValueIdx
open scoped BigOperators

/-! ## The host operations of this program read at an index

A broadcast is stated for every dimension map that sends each non-unit operand axis to the result axis this program's
map sends it to. -/

/-- A scalar broadcast to any shape reads the scalar everywhere. -/
theorem bc_scalar {α : Type} {T : Shape} (dims : Fin 0 → Fin T.rank) (h : S_.BroadcastsInDim T dims) (x : S_.Idx → α) (j : T.Idx) :
    broadcastInDim T dims h x j = x ix0 := by
  unfold broadcastInDim; exact congrArg x (funext fun a => a.elim0)

theorem bc_512_1x1x512 {α : Type} (dims : Fin 1 → Fin 3) (h : S512.BroadcastsInDim S1x1x512 dims) (hd0 : dims 0 = 2)
    (x : S512.Idx → α) (u v : Fin 1) (d : Fin 512) :
    broadcastInDim S1x1x512 dims h x (ix3 u v d) = x (ix1 d) :=
  broadcastInDim_apply _ _ _ _ (ix1 d) (fun a => by
    fin_cases a
    · show d.val = ((ix3 u v d) (dims 0)).val
      rw [hd0])

theorem bc_1x1x512_16x8x512 {α : Type} (dims : Fin 3 → Fin 3) (h : S1x1x512.BroadcastsInDim S16x8x512 dims) (hd2 : dims 2 = 2)
    (x : S1x1x512.Idx → α) (b : Fin 16) (t : Fin 8) (d : Fin 512) :
    broadcastInDim S16x8x512 dims h x (ix3 b t d) = x (ix3 0 0 d) :=
  broadcastInDim_apply _ _ _ _ (ix3 0 0 d) (fun a => by
    fin_cases a
    · rfl
    · rfl
    · show d.val = ((ix3 b t d) (dims 2)).val
      rw [hd2])

theorem bc_512_1x512 {α : Type} (dims : Fin 1 → Fin 2) (h : S512.BroadcastsInDim S1x512 dims) (hd0 : dims 0 = 1)
    (x : S512.Idx → α) (u : Fin 1) (d : Fin 512) :
    broadcastInDim S1x512 dims h x (ix2 u d) = x (ix1 d) :=
  broadcastInDim_apply _ _ _ _ (ix1 d) (fun a => by
    fin_cases a
    · show d.val = ((ix2 u d) (dims 0)).val
      rw [hd0])

theorem bc_1x512_128x512 {α : Type} (dims : Fin 2 → Fin 2) (h : S1x512.BroadcastsInDim S128x512 dims) (hd1 : dims 1 = 1)
    (x : S1x512.Idx → α) (p : Fin 128) (d : Fin 512) :
    broadcastInDim S128x512 dims h x (ix2 p d) = x (ix2 0 d) :=
  broadcastInDim_apply _ _ _ _ (ix2 0 d) (fun a => by
    fin_cases a
    · rfl
    · show d.val = ((ix2 p d) (dims 1)).val
      rw [hd1])

theorem bc_1x512_49408x512 {α : Type} (dims : Fin 2 → Fin 2) (h : S1x512.BroadcastsInDim S49408x512 dims) (hd1 : dims 1 = 1)
    (x : S1x512.Idx → α) (v : Fin 49408) (d : Fin 512) :
    broadcastInDim S49408x512 dims h x (ix2 v d) = x (ix2 0 d) :=
  broadcastInDim_apply _ _ _ _ (ix2 0 d) (fun a => by
    fin_cases a
    · rfl
    · show d.val = ((ix2 v d) (dims 1)).val
      rw [hd1])

theorem bc_16x8_16x8x1 {α : Type} (dims : Fin 2 → Fin 3) (h : S16x8.BroadcastsInDim S16x8x1 dims) (hd0 : dims 0 = 0) (hd1 : dims 1 = 1)
    (x : S16x8.Idx → α) (b : Fin 16) (t : Fin 8) (u : Fin 1) :
    broadcastInDim S16x8x1 dims h x (ix3 b t u) = x (ix2 b t) :=
  broadcastInDim_apply _ _ _ _ (ix2 b t) (fun a => by
    fin_cases a
    · show b.val = ((ix3 b t u) (dims 0)).val
      rw [hd0]
    · show t.val = ((ix3 b t u) (dims 1)).val
      rw [hd1])

theorem bc_16x8x1_16x8x512 {α : Type} (dims : Fin 3 → Fin 3) (h : S16x8x1.BroadcastsInDim S16x8x512 dims) (hd0 : dims 0 = 0) (hd1 : dims 1 = 1)
    (x : S16x8x1.Idx → α) (b : Fin 16) (t : Fin 8) (d : Fin 512) :
    broadcastInDim S16x8x512 dims h x (ix3 b t d) = x (ix3 b t 0) :=
  broadcastInDim_apply _ _ _ _ (ix3 b t 0) (fun a => by
    fin_cases a
    · show b.val = ((ix3 b t d) (dims 0)).val
      rw [hd0]
    · show t.val = ((ix3 b t d) (dims 1)).val
      rw [hd1]
    · rfl)

theorem bc_49408_49408x1 {α : Type} (dims : Fin 1 → Fin 2) (h : S49408.BroadcastsInDim S49408x1 dims) (hd0 : dims 0 = 0)
    (x : S49408.Idx → α) (v : Fin 49408) (u : Fin 1) :
    broadcastInDim S49408x1 dims h x (ix2 v u) = x (ix1 v) :=
  broadcastInDim_apply _ _ _ _ (ix1 v) (fun a => by
    fin_cases a
    · show v.val = ((ix2 v u) (dims 0)).val
      rw [hd0])

theorem bc_49408x1_49408x512 {α : Type} (dims : Fin 2 → Fin 2) (h : S49408x1.BroadcastsInDim S49408x512 dims) (hd0 : dims 0 = 0)
    (x : S49408x1.Idx → α) (v : Fin 49408) (d : Fin 512) :
    broadcastInDim S49408x512 dims h x (ix2 v d) = x (ix2 v 0) :=
  broadcastInDim_apply _ _ _ _ (ix2 v 0) (fun a => by
    fin_cases a
    · show v.val = ((ix2 v d) (dims 0)).val
      rw [hd0]
    · rfl)

theorem bc_16x8x1_16x8x49408 {α : Type} (dims : Fin 3 → Fin 3) (h : S16x8x1.BroadcastsInDim S16x8x49408 dims) (hd0 : dims 0 = 0) (hd1 : dims 1 = 1)
    (x : S16x8x1.Idx → α) (b : Fin 16) (t : Fin 8) (v : Fin 49408) :
    broadcastInDim S16x8x49408 dims h x (ix3 b t v) = x (ix3 b t 0) :=
  broadcastInDim_apply _ _ _ _ (ix3 b t 0) (fun a => by
    fin_cases a
    · show b.val = ((ix3 b t v) (dims 0)).val
      rw [hd0]
    · show t.val = ((ix3 b t v) (dims 1)).val
      rw [hd1]
    · rfl)

theorem red_E_cols (x : FVec Ideal S49408x512 .f32) (init : S_.Idx → Ideal .f32) (d : Fin 512) :
    Host.reduceAdd x init reducesTo_S49408x512_S512_d0 h_S_ (ix1 d) = init ix0 + ∑ k : Fin 49408, x (ix2 k d) := by
  have h : S49408x512.Reduces [0] S512 := let ⟨a, b⟩ := reducesTo_S49408x512_S512_d0; ⟨a, by decide, b⟩
  rw [hostReduceAdd_apply, Ideal.hostReduceAdd_single _ h, eq_ix0 (Shape.Idx.first h_S_)]
  have e : ∀ k : Fin 49408, h.lift (ix1 d) k = ix2 k d := fun k => by
    funext c; apply Fin.ext; fin_cases c <;> rfl
  exact congrArg (init ix0 + ·) (Finset.sum_congr rfl fun k _ => congrArg x (e k))

theorem red_F_cols (x : FVec Ideal S128x512 .f32) (init : S_.Idx → Ideal .f32) (d : Fin 512) :
    Host.reduceAdd x init reducesTo_S128x512_S512_d0 h_S_ (ix1 d) = init ix0 + ∑ k : Fin 128, x (ix2 k d) := by
  have h : S128x512.Reduces [0] S512 := let ⟨a, b⟩ := reducesTo_S128x512_S512_d0; ⟨a, by decide, b⟩
  rw [hostReduceAdd_apply, Ideal.hostReduceAdd_single _ h, eq_ix0 (Shape.Idx.first h_S_)]
  have e : ∀ k : Fin 128, h.lift (ix1 d) k = ix2 k d := fun k => by
    funext c; apply Fin.ext; fin_cases c <;> rfl
  exact congrArg (init ix0 + ·) (Finset.sum_congr rfl fun k _ => congrArg x (e k))

theorem red_R_rows (x : FVec Ideal S16x8x512 .f32) (init : S_.Idx → Ideal .f32) (b : Fin 16) (t : Fin 8) :
    Host.reduceAdd x init reducesTo_S16x8x512_S16x8_d2 h_S_ (ix2 b t) = init ix0 + ∑ k : Fin 512, x (ix3 b t k) := by
  have h : S16x8x512.Reduces [2] S16x8 := let ⟨a, b⟩ := reducesTo_S16x8x512_S16x8_d2; ⟨a, by decide, b⟩
  rw [hostReduceAdd_apply, Ideal.hostReduceAdd_single _ h, eq_ix0 (Shape.Idx.first h_S_)]
  have e : ∀ k : Fin 512, h.lift (ix2 b t) k = ix3 b t k := fun k => by
    funext c; apply Fin.ext; fin_cases c <;> rfl
  exact congrArg (init ix0 + ·) (Finset.sum_congr rfl fun k _ => congrArg x (e k))

theorem red_E_rows (x : FVec Ideal S49408x512 .f32) (init : S_.Idx → Ideal .f32) (v : Fin 49408) :
    Host.reduceAdd x init reducesTo_S49408x512_S49408_d1 h_S_ (ix1 v) = init ix0 + ∑ k : Fin 512, x (ix2 v k) := by
  have h : S49408x512.Reduces [1] S49408 := let ⟨a, b⟩ := reducesTo_S49408x512_S49408_d1; ⟨a, by decide, b⟩
  rw [hostReduceAdd_apply, Ideal.hostReduceAdd_single _ h, eq_ix0 (Shape.Idx.first h_S_)]
  have e : ∀ k : Fin 512, h.lift (ix1 v) k = ix2 v k := fun k => by
    funext c; apply Fin.ext; fin_cases c <;> rfl
  exact congrArg (init ix0 + ·) (Finset.sum_congr rfl fun k _ => congrArg x (e k))

theorem red_L_rows (x : FVec Ideal S16x8x49408 .f32) (init : S_.Idx → Ideal .f32) (b : Fin 16) (t : Fin 8) :
    Host.reduceAdd x init reducesTo_S16x8x49408_S16x8_d2 h_S_ (ix2 b t) = init ix0 + ∑ k : Fin 49408, x (ix3 b t k) := by
  have h : S16x8x49408.Reduces [2] S16x8 := let ⟨a, b⟩ := reducesTo_S16x8x49408_S16x8_d2; ⟨a, by decide, b⟩
  rw [hostReduceAdd_apply, Ideal.hostReduceAdd_single _ h, eq_ix0 (Shape.Idx.first h_S_)]
  have e : ∀ k : Fin 49408, h.lift (ix2 b t) k = ix3 b t k := fun k => by
    funext c; apply Fin.ext; fin_cases c <;> rfl
  exact congrArg (init ix0 + ·) (Finset.sum_congr rfl fun k _ => congrArg x (e k))

theorem redmax_L_rows (x : FVec Ideal S16x8x49408 .f32) (init : S_.Idx → Ideal .f32) (b : Fin 16) (t : Fin 8) :
    Host.reduce FloatOps.maximumf x init reducesTo_S16x8x49408_S16x8_d2 h_S_ (ix2 b t)
      = (Finset.univ : Finset (Fin 49408)).fold max (init ix0) (fun k => x (ix3 b t k)) := by
  have h : S16x8x49408.Reduces [2] S16x8 := let ⟨a, b⟩ := reducesTo_S16x8x49408_S16x8_d2; ⟨a, by decide, b⟩
  rw [Host.reduce_eq_fold_single FloatOps.maximumf x init _ h h_S_, eq_ix0 (Shape.Idx.first h_S_)]
  have e : (x ∘ h.lift (ix2 b t)) = fun k : Fin 49408 => x (ix3 b t k) := funext fun k => congrArg x (by
    funext c; apply Fin.ext; fin_cases c <;> rfl)
  rw [e]; rfl

theorem sc_flatten {α : Type} (x : S16x8x512.Idx → α) (p : Fin 128) (d : Fin 512) :
    shapeCast S128x512 x shapeCasts_S16x8x512_S128x512 (ix2 p d)
      = x (ix3 (⟨p.val / 8, by omega⟩ : Fin 16) (⟨p.val % 8, by omega⟩ : Fin 8) d) :=
  shapeCast_apply _ _ _ (ix3 (⟨p.val / 8, by omega⟩ : Fin 16) (⟨p.val % 8, by omega⟩ : Fin 8) d) (by
    rw [Shape.rowMajor_val_two, Shape.rowMajor_val_three]
    show (p.val / 8 * 8 + p.val % 8) * 512 + d.val = p.val * 512 + d.val
    omega)

theorem sc_unflatten {α : Type} (x : S128x512.Idx → α) (b : Fin 16) (t : Fin 8) (d : Fin 512) :
    shapeCast S16x8x512 x shapeCasts_S128x512_S16x8x512 (ix3 b t d) = x (ix2 (Cert.Spec.pq b t) d) :=
  shapeCast_apply _ _ _ (ix2 (Cert.Spec.pq b t) d) (by
    rw [Shape.rowMajor_val_two, Shape.rowMajor_val_three]
    show (8 * b.val + t.val) * 512 + d.val = (b.val * 8 + t.val) * 512 + d.val
    omega)

theorem dot_feat (l : FVec Ideal S16x8x768 .f32) (r : FVec Ideal S768x512 .f32) (b : Fin 16) (t : Fin 8) (d : Fin 512) :
    Host.dotGeneral dot_S16x8x768_S768x512_S16x8x512_2_0_01_1_n_n none l r (ix3 b t d) = ∑ k : Fin 768, l (ix3 b t k) * r (ix2 k d) := by
  rw [Host.dotGeneral, Ideal.dotGeneral_apply]
  rw [← Equiv.sum_comp (contrEquiv1 dot_S16x8x768_S768x512_S16x8x512_2_0_01_1_n_n 768 rfl rfl).symm]
  refine Finset.sum_congr rfl fun k _ => ?_
  have hk := contrEquiv1_symm_val dot_S16x8x768_S768x512_S16x8x512_2_0_01_1_n_n 768 rfl rfl k
  congr 2
  · funext c; apply Fin.ext; fin_cases c
    · rfl
    · rfl
    · exact hk
  · funext c; apply Fin.ext; fin_cases c
    · exact hk
    · rfl

theorem dot_cos (l : FVec Ideal S16x8x512 .f32) (r : FVec Ideal S49408x512 .f32) (b : Fin 16) (t : Fin 8) (v : Fin 49408) :
    Host.dotGeneral dot_S16x8x512_S49408x512_S16x8x49408_2_1_01_0_n_n none l r (ix3 b t v) = ∑ k : Fin 512, l (ix3 b t k) * r (ix2 v k) := by
  rw [Host.dotGeneral, Ideal.dotGeneral_apply]
  rw [← Equiv.sum_comp (contrEquiv1 dot_S16x8x512_S49408x512_S16x8x49408_2_1_01_0_n_n 512 rfl rfl).symm]
  refine Finset.sum_congr rfl fun k _ => ?_
  have hk := contrEquiv1_symm_val dot_S16x8x512_S49408x512_S16x8x49408_2_1_01_0_n_n 512 rfl rfl k
  congr 2
  · funext c; apply Fin.ext; fin_cases c
    · rfl
    · rfl
    · exact hk
  · funext c; apply Fin.ext; fin_cases c
    · rfl
    · exact hk

theorem dot_kw (l : FVec Ideal S16x8x49408 .f32) (r : FVec Ideal S49408x512 .f32) (b : Fin 16) (t : Fin 8) (d : Fin 512) :
    Host.dotGeneral dot_S16x8x49408_S49408x512_S16x8x512_2_0_01_1_n_n none l r (ix3 b t d) = ∑ k : Fin 49408, l (ix3 b t k) * r (ix2 k d) := by
  rw [Host.dotGeneral, Ideal.dotGeneral_apply]
  rw [← Equiv.sum_comp (contrEquiv1 dot_S16x8x49408_S49408x512_S16x8x512_2_0_01_1_n_n 49408 rfl rfl).symm]
  refine Finset.sum_congr rfl fun k _ => ?_
  have hk := contrEquiv1_symm_val dot_S16x8x49408_S49408x512_S16x8x512_2_0_01_1_n_n 49408 rfl rfl k
  congr 2
  · funext c; apply Fin.ext; fin_cases c
    · rfl
    · rfl
    · exact hk
  · funext c; apply Fin.ext; fin_cases c
    · exact hk
    · rfl

/-! ## Three more elementwise readings, and the two selections on a count's sign -/

theorem hostSqrt_apply {s : Shape} {φ : FTy} (x : FVec Ideal s φ) (i : s.Idx) : Host.sqrt x i = Ideal.sqrt (x i) := rfl
theorem hostExp_apply {s : Shape} {φ : FTy} (x : FVec Ideal s φ) (i : s.Idx) : Host.exp x i = Ideal.exp (x i) := rfl
theorem constantI_apply {s : Shape} {w : Nat} (b : BitVec w) (i : s.Idx) : constantI s w b i = b := rfl

/-- The integer zero converted is the real zero. -/
theorem sitofp_zero32 : (FloatOps.sitofp .f32 (0#32 : BitVec 32) : Ideal .f32) = 0 := by
  show ((((0#32 : BitVec 32).toInt : ℤ) : ℝ) : EReal) = 0
  simp

/-- The vocabulary size is positive: the reference's selection on `49408.0 - 0 > 0` keeps its first branch. -/
theorem gt_cV : FloatOps.cmpf .ogt (Ideal.ofBits .f32 0x47410000#32) (0 : Ideal .f32) = 1#1 := by
  rw [Cert.Consts.cV_eq]
  have h : (0 : EReal) < ((49408 : ℝ) : EReal) := by exact_mod_cast (by norm_num : (0 : ℝ) < 49408)
  show BitVec.ofBool (decide ((0 : EReal) < ((49408 : ℝ) : EReal))) = 1#1
  rw [decide_eq_true h]; rfl

/-- The row count is positive: the reference's selection on `128.0 - 0 > 0` keeps its first branch. -/
theorem gt_c128 : FloatOps.cmpf .ogt (Ideal.ofBits .f32 0x43000000#32) (0 : Ideal .f32) = 1#1 := by
  rw [Cert.Consts.c128_eq]
  have h : (0 : EReal) < ((128 : ℝ) : EReal) := by exact_mod_cast (by norm_num : (0 : ℝ) < 128)
  show BitVec.ofBool (decide ((0 : EReal) < ((128 : ℝ) : EReal))) = 1#1
  rw [decide_eq_true h]; rfl

/-- From the bottom element, the fold of `max` over all indices, once more against the bottom, is the supremum. -/
theorem max_bot_fold_max {n : Nat} (f : Fin n → EReal) :
    max (⊥ : EReal) ((Finset.univ : Finset (Fin n)).fold max ⊥ f) = Finset.univ.sup f := by
  rw [max_bot_left]; rfl

/-! ## The named intermediate arrays at an index -/

/-- The projected features at (batch, step, column). -/
theorem feat3_apply (A : (⟨S16x8x768, .f32⟩ : BufTy).Contents (Elt Ideal)) (W : (⟨S768x512, .f32⟩ : BufTy).Contents (Elt Ideal)) (B : (⟨S512, .f32⟩ : BufTy).Contents (Elt Ideal)) (b : Fin 16) (t : Fin 8) (d : Fin 512) :
    feat3 A W B (ix3 b t d) = (∑ k : Fin 768, A (ix3 b t k) * W (ix2 k d)) + B (ix1 d) := by
  unfold feat3
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one]
  first | done | rfl

/-- The flattened features at (row, column). -/
theorem featF_apply (A : (⟨S16x8x768, .f32⟩ : BufTy).Contents (Elt Ideal)) (W : (⟨S768x512, .f32⟩ : BufTy).Contents (Elt Ideal)) (B : (⟨S512, .f32⟩ : BufTy).Contents (Elt Ideal)) (p : Fin 128) (d : Fin 512) :
    featF A W B (ix2 p d) = Cert.Spec.feats (Cert.SpecAt.aOf A) (Cert.SpecAt.wOf W) (Cert.SpecAt.bOf B) p d := by
  unfold featF
  rw [sc_flatten, feat3_apply]
  first | done | rfl

/-- The codebook's column mean. -/
theorem emean_apply (E : (⟨S49408x512, .f32⟩ : BufTy).Contents (Elt Ideal)) (d : Fin 512) :
    emean E (ix1 d) = Cert.Spec.mean Cert.SpecAt.K0 (Cert.SpecAt.eOf E) d := by
  unfold emean
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one]
  first | done | rfl

/-- The centred codebook. -/
theorem ecent_apply (E : (⟨S49408x512, .f32⟩ : BufTy).Contents (Elt Ideal)) (v : Fin 49408) (d : Fin 512) :
    ecent E (ix2 v d) = Cert.SpecAt.eOf E v d - Cert.Spec.mean Cert.SpecAt.K0 (Cert.SpecAt.eOf E) d := by
  unfold ecent
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one]
  first | done | rfl

/-- The codebook's column variance. -/
theorem evar_apply (E : (⟨S49408x512, .f32⟩ : BufTy).Contents (Elt Ideal)) (d : Fin 512) :
    evar E (ix1 d) = Ideal.div (∑ v, (Cert.SpecAt.eOf E v d - Cert.Spec.mean Cert.SpecAt.K0 (Cert.SpecAt.eOf E) d) * (Cert.SpecAt.eOf E v d - Cert.Spec.mean Cert.SpecAt.K0 (Cert.SpecAt.eOf E) d)) (Cert.SpecAt.K0).cV := by
  unfold evar
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, ecent_apply]
  first | done | rfl

/-- The codebook's column deviation: the selection keeps the variance, the count being positive. -/
theorem esd_apply (E : (⟨S49408x512, .f32⟩ : BufTy).Contents (Elt Ideal)) (d : Fin 512) :
    esd E (ix1 d) = Cert.Spec.Ref.sd Cert.SpecAt.K0 (Cert.SpecAt.eOf E) d := by
  unfold esd
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, evar_apply]
  first | done | rfl

/-- The features' column mean. -/
theorem fmu_apply (A : (⟨S16x8x768, .f32⟩ : BufTy).Contents (Elt Ideal)) (W : (⟨S768x512, .f32⟩ : BufTy).Contents (Elt Ideal)) (B : (⟨S512, .f32⟩ : BufTy).Contents (Elt Ideal)) (d : Fin 512) :
    fmu A W B (ix1 d) = Cert.Spec.mu Cert.SpecAt.K0 (Cert.SpecAt.aOf A) (Cert.SpecAt.wOf W) (Cert.SpecAt.bOf B) d := by
  unfold fmu
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, featF_apply]
  first | done | rfl

/-- The centred features. -/
theorem fcent_apply (A : (⟨S16x8x768, .f32⟩ : BufTy).Contents (Elt Ideal)) (W : (⟨S768x512, .f32⟩ : BufTy).Contents (Elt Ideal)) (B : (⟨S512, .f32⟩ : BufTy).Contents (Elt Ideal)) (p : Fin 128) (d : Fin 512) :
    fcent A W B (ix2 p d) = Cert.Spec.feats (Cert.SpecAt.aOf A) (Cert.SpecAt.wOf W) (Cert.SpecAt.bOf B) p d - Cert.Spec.mu Cert.SpecAt.K0 (Cert.SpecAt.aOf A) (Cert.SpecAt.wOf W) (Cert.SpecAt.bOf B) d := by
  unfold fcent
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, featF_apply]
  first | done | rfl

/-- The features' column variance. -/
theorem fvar0_apply (A : (⟨S16x8x768, .f32⟩ : BufTy).Contents (Elt Ideal)) (W : (⟨S768x512, .f32⟩ : BufTy).Contents (Elt Ideal)) (B : (⟨S512, .f32⟩ : BufTy).Contents (Elt Ideal)) (d : Fin 512) :
    fvar0 A W B (ix1 d) = Cert.Spec.var Cert.SpecAt.K0 (Cert.SpecAt.aOf A) (Cert.SpecAt.wOf W) (Cert.SpecAt.bOf B) d := by
  unfold fvar0
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, fcent_apply]
  first | done | rfl

/-- The selection keeps the variance, the count being positive. -/
theorem fvar_apply (A : (⟨S16x8x768, .f32⟩ : BufTy).Contents (Elt Ideal)) (W : (⟨S768x512, .f32⟩ : BufTy).Contents (Elt Ideal)) (B : (⟨S512, .f32⟩ : BufTy).Contents (Elt Ideal)) (d : Fin 512) :
    fvar A W B (ix1 d) = Cert.Spec.var Cert.SpecAt.K0 (Cert.SpecAt.aOf A) (Cert.SpecAt.wOf W) (Cert.SpecAt.bOf B) d := by
  unfold fvar
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, fvar0_apply]
  first | done | rfl

/-- The batch-normalised features. -/
theorem normed_apply (A : (⟨S16x8x768, .f32⟩ : BufTy).Contents (Elt Ideal)) (W : (⟨S768x512, .f32⟩ : BufTy).Contents (Elt Ideal)) (B : (⟨S512, .f32⟩ : BufTy).Contents (Elt Ideal)) (p : Fin 128) (d : Fin 512) :
    normed A W B (ix2 p d) = Cert.Spec.normed Cert.SpecAt.K0 (Cert.SpecAt.aOf A) (Cert.SpecAt.wOf W) (Cert.SpecAt.bOf B) p d := by
  unfold normed
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, featF_apply, fmu_apply, fvar_apply]
  first | done | rfl

/-- The rescaled features at (batch, step, column): row `8 * b + t` of the flattened matrix. -/
theorem resc_apply (A : (⟨S16x8x768, .f32⟩ : BufTy).Contents (Elt Ideal)) (W : (⟨S768x512, .f32⟩ : BufTy).Contents (Elt Ideal)) (B : (⟨S512, .f32⟩ : BufTy).Contents (Elt Ideal)) (E : (⟨S49408x512, .f32⟩ : BufTy).Contents (Elt Ideal)) (b : Fin 16) (t : Fin 8) (d : Fin 512) :
    resc A W B E (ix3 b t d) = Cert.Spec.rescaled Cert.SpecAt.K0 (Cert.SpecAt.aOf A) (Cert.SpecAt.wOf W) (Cert.SpecAt.bOf B) (Cert.SpecAt.eOf E) (Cert.Spec.Ref.sd Cert.SpecAt.K0 (Cert.SpecAt.eOf E)) (Cert.Spec.pq b t) d := by
  unfold resc
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, normed_apply, esd_apply, emean_apply]
  first | done | rfl

/-- The row-normalised features. -/
theorem fnrm_apply (A : (⟨S16x8x768, .f32⟩ : BufTy).Contents (Elt Ideal)) (W : (⟨S768x512, .f32⟩ : BufTy).Contents (Elt Ideal)) (B : (⟨S512, .f32⟩ : BufTy).Contents (Elt Ideal)) (E : (⟨S49408x512, .f32⟩ : BufTy).Contents (Elt Ideal)) (b : Fin 16) (t : Fin 8) (d : Fin 512) :
    fnrm A W B E (ix3 b t d) = Cert.Spec.unit Cert.SpecAt.K0 (Cert.SpecAt.aOf A) (Cert.SpecAt.wOf W) (Cert.SpecAt.bOf B) (Cert.SpecAt.eOf E) (Cert.Spec.Ref.sd Cert.SpecAt.K0 (Cert.SpecAt.eOf E)) (Cert.Spec.pq b t) d := by
  unfold fnrm
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, resc_apply]
  first | done | rfl

/-- The row-normalised codebook. -/
theorem enrm_apply (E : (⟨S49408x512, .f32⟩ : BufTy).Contents (Elt Ideal)) (v : Fin 49408) (d : Fin 512) :
    enrm E (ix2 v d) = Ideal.div (Cert.SpecAt.eOf E v d) (Cert.Spec.cn Cert.SpecAt.K0 (Cert.SpecAt.eOf E) v) := by
  unfold enrm
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one]
  first | done | rfl

/-- The reference's cosine score at (batch, step, codebook row). -/
theorem cosOut_apply (A : (⟨S16x8x768, .f32⟩ : BufTy).Contents (Elt Ideal)) (W : (⟨S768x512, .f32⟩ : BufTy).Contents (Elt Ideal)) (B : (⟨S512, .f32⟩ : BufTy).Contents (Elt Ideal)) (E : (⟨S49408x512, .f32⟩ : BufTy).Contents (Elt Ideal)) (b : Fin 16) (t : Fin 8) (v : Fin 49408) :
    cosOut A W B E (ix3 b t v) = Cert.Spec.Ref.cos Cert.SpecAt.K0 (Cert.SpecAt.aOf A) (Cert.SpecAt.wOf W) (Cert.SpecAt.bOf B) (Cert.SpecAt.eOf E) (Cert.Spec.pq b t) v := by
  unfold cosOut
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, fnrm_apply, enrm_apply]
  first | done | rfl

/-- The logit: the score over the temperature. -/
theorem logit_apply (A : (⟨S16x8x768, .f32⟩ : BufTy).Contents (Elt Ideal)) (W : (⟨S768x512, .f32⟩ : BufTy).Contents (Elt Ideal)) (B : (⟨S512, .f32⟩ : BufTy).Contents (Elt Ideal)) (E : (⟨S49408x512, .f32⟩ : BufTy).Contents (Elt Ideal)) (b : Fin 16) (t : Fin 8) (v : Fin 49408) :
    logit A W B E (ix3 b t v) = Cert.Spec.Ref.logit Cert.SpecAt.K0 (Cert.SpecAt.aOf A) (Cert.SpecAt.wOf W) (Cert.SpecAt.bOf B) (Cert.SpecAt.eOf E) Cert.SpecAt.tau0 (Cert.Spec.pq b t) v := by
  unfold logit
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, cosOut_apply]
  first | done | rfl

/-- The row maximum of the logits: the host's maximum-reduce from minus infinity, and the maximum with minus infinity
    after it, are the supremum over the codebook rows. -/
theorem rmax_apply (A : (⟨S16x8x768, .f32⟩ : BufTy).Contents (Elt Ideal)) (W : (⟨S768x512, .f32⟩ : BufTy).Contents (Elt Ideal)) (B : (⟨S512, .f32⟩ : BufTy).Contents (Elt Ideal)) (E : (⟨S49408x512, .f32⟩ : BufTy).Contents (Elt Ideal)) (b : Fin 16) (t : Fin 8) :
    rmax A W B E (ix2 b t) = Cert.Spec.Ref.rowMax Cert.SpecAt.K0 (Cert.SpecAt.aOf A) (Cert.SpecAt.wOf W) (Cert.SpecAt.bOf B) (Cert.SpecAt.eOf E) Cert.SpecAt.tau0 (Cert.Spec.pq b t) := by
  unfold rmax
  beta_reduce
  rw [maximumf_apply, bc_scalar, redmax_L_rows, constant_apply, Cert.Consts.ninf_eq, max_bot_fold_max]
  simp only [logit_apply]
  first | done | rfl

/-- The shifted exponential. -/
theorem expo_apply (A : (⟨S16x8x768, .f32⟩ : BufTy).Contents (Elt Ideal)) (W : (⟨S768x512, .f32⟩ : BufTy).Contents (Elt Ideal)) (B : (⟨S512, .f32⟩ : BufTy).Contents (Elt Ideal)) (E : (⟨S49408x512, .f32⟩ : BufTy).Contents (Elt Ideal)) (b : Fin 16) (t : Fin 8) (v : Fin 49408) :
    expo A W B E (ix3 b t v) = Cert.Spec.Ref.ex Cert.SpecAt.K0 (Cert.SpecAt.aOf A) (Cert.SpecAt.wOf W) (Cert.SpecAt.bOf B) (Cert.SpecAt.eOf E) Cert.SpecAt.tau0 (Cert.Spec.pq b t) v := by
  unfold expo
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, logit_apply, rmax_apply]
  first | done | rfl

/-- The reference's keyword vector at (batch, step, column). -/
theorem kwOut_apply (A : (⟨S16x8x768, .f32⟩ : BufTy).Contents (Elt Ideal)) (W : (⟨S768x512, .f32⟩ : BufTy).Contents (Elt Ideal)) (B : (⟨S512, .f32⟩ : BufTy).Contents (Elt Ideal)) (E : (⟨S49408x512, .f32⟩ : BufTy).Contents (Elt Ideal)) (b : Fin 16) (t : Fin 8) (d : Fin 512) :
    kwOut A W B E (ix3 b t d) = Cert.Spec.Ref.kw Cert.SpecAt.K0 (Cert.SpecAt.aOf A) (Cert.SpecAt.wOf W) (Cert.SpecAt.bOf B) (Cert.SpecAt.eOf E) Cert.SpecAt.tau0 (Cert.Spec.pq b t) d := by
  unfold kwOut
  simp (disch := decide) only [addf_apply, subf_apply, mulf_apply, maximumf_apply, hostDivf_apply, hostSqrt_apply, hostExp_apply, select_apply, cmpf_apply, sitofp_apply, constant_apply, constantI_apply, bc_scalar, bc_512_1x1x512, bc_1x1x512_16x8x512, bc_512_1x512, bc_1x512_128x512, bc_1x512_49408x512, bc_16x8_16x8x1, bc_16x8x1_16x8x512, bc_49408_49408x1, bc_49408x1_49408x512, bc_16x8x1_16x8x49408, red_E_cols, red_F_cols, red_R_rows, red_E_rows, red_L_rows, redmax_L_rows, sc_flatten, sc_unflatten, dot_feat, dot_cos, dot_kw, Cert.Consts.c0_eq, sitofp_zero32, sub_zero, zero_add, id_eq, gt_cV, gt_c128, select_one, expo_apply]
  first | done | rfl

end Cert.RefValue

end
-- ==== Proof.Algebra.lean ====
/-
  The algebra of the two arrangements.

  Under the hypothesis that every input entry is a finite real and that the constants are the reals they spell, every
  quantity of `Cert.Spec` is the coercion of a real-valued twin (real sums, `Real.sqrt`, `Real.exp`, real
  division by a nonzero real). The two arrangements then agree by three identities over the reals:
  the mean squared distance from the mean is the mean of the squares minus the square of the mean (so the clamp
  `max · 0` is the identity and the two column deviations agree); a quotient of a sum is the sum of the quotients;
  and a softmax is unchanged by a common shift of its logits.
-/
import proofs.«131505_g24936580120849_cont_9to1_1340_2_alg».proof.Proof.Spec

noncomputable section

namespace Cert.Algebra

open Idealize.ShloMosaic
open Cert.Spec

/-! ## Coercion of the operations on finite values -/

/-- A finite sum of finite values is the coercion of the real sum. -/
theorem coe_sum {ι : Type*} (s : Finset ι) (f : ι → ℝ) :
    (∑ i ∈ s, ((f i : ℝ) : EReal)) = ((∑ i ∈ s, f i : ℝ) : EReal) := by
  classical
  refine Finset.induction_on s ?_ ?_
  · simp
  · intro i s hi ih
    rw [Finset.sum_insert hi, Finset.sum_insert hi, ih, EReal.coe_add]

/-- Division of finite values by a nonzero real is the real quotient. -/
theorem div_coe_coe (x y : ℝ) (hy : y ≠ 0) :
    Ideal.div (x : EReal) (y : EReal) = ((x / y : ℝ) : EReal) := by
  rw [Ideal.div_coe hy, ← EReal.coe_mul, mul_one_div]

/-- The square root of a nonnegative finite value is the real square root. -/
theorem sqrt_coe_nonneg (x : ℝ) (hx : 0 ≤ x) : Ideal.sqrt (x : EReal) = ((Real.sqrt x : ℝ) : EReal) := by
  rw [Ideal.sqrt_coe, if_neg (not_lt.mpr hx)]

/-- The maximum of two finite values is the coercion of the real maximum. -/
theorem max_coe (x y : ℝ) : max (x : EReal) (y : EReal) = ((max x y : ℝ) : EReal) :=
  (EReal.coe_strictMono.monotone.map_max).symm

/-! ## Three identities over the reals -/

/-- The mean squared distance from the mean is the mean of the squares minus the square of the mean. -/
theorem var_identity {ι : Type*} [Fintype ι] (x : ι → ℝ) (N : ℝ) (hN : N = (Fintype.card ι : ℝ)) (hN0 : N ≠ 0) :
    (∑ v, (x v - (∑ u, x u) / N) * (x v - (∑ u, x u) / N)) / N
      = (∑ v, x v * x v) / N - ((∑ u, x u) / N) * ((∑ u, x u) / N) := by
  obtain ⟨m, hm⟩ : ∃ m, m = (∑ u, x u) / N := ⟨_, rfl⟩
  rw [← hm]
  have hs : ∑ u, x u = N * m := by rw [hm]; field_simp
  have h1 : ∑ v, (x v - m) * (x v - m) = ∑ v, x v * x v - 2 * m * ∑ v, x v + N * (m * m) := by
    have : ∀ v, (x v - m) * (x v - m) = x v * x v - 2 * m * x v + m * m := fun v => by ring
    simp only [this, Finset.sum_add_distrib, Finset.sum_sub_distrib, ← Finset.mul_sum, Finset.sum_const,
      Finset.card_univ, nsmul_eq_mul, ← hN]
    ring
  rw [h1, hs]
  field_simp
  ring

/-- A quotient of a sum of products is the sum of the products with the quotients. -/
theorem sum_mul_div {ι : Type*} [Fintype ι] (f e : ι → ℝ) (c : ℝ) :
    (∑ d, f d * e d) / c = ∑ d, f d * (e d / c) := by
  rw [Finset.sum_div]
  exact Finset.sum_congr rfl fun d _ => mul_div_assoc _ _ _

/-- A softmax applied to a vector is unchanged by a common shift of its logits. -/
theorem softmax_shift {ι : Type*} [Fintype ι] (y e : ι → ℝ) (M : ℝ) (hS : (∑ u, Real.exp (y u)) ≠ 0) :
    ∑ v, (Real.exp (y v - M) / ∑ u, Real.exp (y u - M)) * e v
      = (∑ v, Real.exp (y v) * e v) / (∑ v, Real.exp (y v)) := by
  have h1 : ∀ v, Real.exp (y v - M) = Real.exp (y v) / Real.exp M := fun v => Real.exp_sub _ _
  have hM : Real.exp M ≠ 0 := Real.exp_ne_zero _
  have h2 : (∑ u, Real.exp (y u) / Real.exp M) = (∑ u, Real.exp (y u)) / Real.exp M :=
    (Finset.sum_div _ _ _).symm
  simp only [h1, h2]
  rw [Finset.sum_div _ _ (∑ v, Real.exp (y v))]
  refine Finset.sum_congr rfl fun v _ => ?_
  field_simp

/-! ## The real-valued twins -/

/-- What the constants are: the counts, two positive epsilons, one and zero. -/
structure KH (K : Consts) (r5 r8 : ℝ) : Prop where
  cV : K.cV = ((49408 : ℝ) : EReal)
  c128 : K.c128 = ((128 : ℝ) : EReal)
  e5 : K.e5 = (r5 : EReal)
  e8 : K.e8 = (r8 : EReal)
  c1 : K.c1 = 1
  c0 : K.c0 = 0
  p5 : 0 < r5
  p8 : 0 < r8

/-- A real matrix read as a matrix of finite values. -/
def up2 {m n : ℕ} (f : Fin m → Fin n → ℝ) : Fin m → Fin n → EReal := fun i j => ((f i j : ℝ) : EReal)
/-- A real vector read as a vector of finite values. -/
def up1 {n : ℕ} (f : Fin n → ℝ) : Fin n → EReal := fun i => ((f i : ℝ) : EReal)

theorem up2_apply {m n : ℕ} (f : Fin m → Fin n → ℝ) (i : Fin m) (j : Fin n) : up2 f i j = ((f i j : ℝ) : EReal) := rfl
theorem up1_apply {n : ℕ} (f : Fin n → ℝ) (i : Fin n) : up1 f i = ((f i : ℝ) : EReal) := rfl

section Twins

variable (r5 r8 : ℝ)
variable (ar : Fin 128 → Fin 768 → ℝ) (wr : Fin 768 → Fin 512 → ℝ) (br : Fin 512 → ℝ)
  (er : Fin 49408 → Fin 512 → ℝ)

def meanR (d : Fin 512) : ℝ := (∑ v, er v d) / 49408
def featsR (p : Fin 128) (d : Fin 512) : ℝ := (∑ k, ar p k * wr k d) + br d
def muR (d : Fin 512) : ℝ := (∑ p, featsR ar wr br p d) / 128
def varR (d : Fin 512) : ℝ :=
  (∑ p, (featsR ar wr br p d - muR ar wr br d) * (featsR ar wr br p d - muR ar wr br d)) / 128
def normedR (p : Fin 128) (d : Fin 512) : ℝ :=
  (featsR ar wr br p d - muR ar wr br d) / Real.sqrt (varR ar wr br d + r5)
def cnR (v : Fin 49408) : ℝ := Real.sqrt (∑ d, er v d * er v d) + r8
def rescaledR (sd : Fin 512 → ℝ) (p : Fin 128) (d : Fin 512) : ℝ :=
  normedR r5 ar wr br p d * sd d + meanR er d
def rowNormR (sd : Fin 512 → ℝ) (p : Fin 128) : ℝ :=
  Real.sqrt (∑ d, rescaledR r5 ar wr br er sd p d * rescaledR r5 ar wr br er sd p d) + r8
def unitR (sd : Fin 512 → ℝ) (p : Fin 128) (d : Fin 512) : ℝ :=
  rescaledR r5 ar wr br er sd p d / rowNormR r5 r8 ar wr br er sd p
/-- The column deviation: the square root of the mean squared distance from the mean. -/
def sdR (d : Fin 512) : ℝ :=
  Real.sqrt ((∑ v, (er v d - meanR er d) * (er v d - meanR er d)) / 49408)
/-- The cosine score. -/
def cosR (p : Fin 128) (v : Fin 49408) : ℝ :=
  (∑ d, unitR r5 r8 ar wr br er (sdR er) p d * er v d) / cnR r8 er v

variable {r5 r8} {ar wr br er}
variable {K : Consts} (hK : KH K r5 r8)
include hK

theorem mean_coe (d : Fin 512) : mean K (up2 er) d = ((meanR er d : ℝ) : EReal) := by
  simp only [mean, up2_apply, meanR, hK.cV]
  rw [coe_sum, div_coe_coe _ _ (by norm_num)]

omit hK in
theorem feats_coe (p : Fin 128) (d : Fin 512) :
    feats (up2 ar) (up2 wr) (up1 br) p d = ((featsR ar wr br p d : ℝ) : EReal) := by
  simp only [feats, up2_apply, up1_apply, featsR, ← EReal.coe_mul]
  rw [coe_sum, ← EReal.coe_add]

theorem mu_coe (d : Fin 512) :
    mu K (up2 ar) (up2 wr) (up1 br) d = ((muR ar wr br d : ℝ) : EReal) := by
  simp only [mu, feats_coe, muR, hK.c128]
  rw [coe_sum, div_coe_coe _ _ (by norm_num)]

theorem var_coe (d : Fin 512) :
    var K (up2 ar) (up2 wr) (up1 br) d = ((varR ar wr br d : ℝ) : EReal) := by
  simp only [var, feats_coe, mu_coe hK, varR, hK.c128, ← EReal.coe_sub, ← EReal.coe_mul]
  rw [coe_sum, div_coe_coe _ _ (by norm_num)]

omit hK in
theorem varR_nonneg (ar : Fin 128 → Fin 768 → ℝ) (wr : Fin 768 → Fin 512 → ℝ) (br : Fin 512 → ℝ) (d : Fin 512) :
    0 ≤ varR ar wr br d :=
  div_nonneg (Finset.sum_nonneg fun _ _ => mul_self_nonneg _) (by norm_num)

theorem normed_coe (p : Fin 128) (d : Fin 512) :
    normed K (up2 ar) (up2 wr) (up1 br) p d = ((normedR r5 ar wr br p d : ℝ) : EReal) := by
  have h0 : 0 < varR ar wr br d + r5 := add_pos_of_nonneg_of_pos (varR_nonneg ar wr br d) hK.p5
  simp only [normed, feats_coe, mu_coe hK, var_coe hK, normedR, hK.e5, ← EReal.coe_sub, ← EReal.coe_add]
  rw [sqrt_coe_nonneg _ h0.le, div_coe_coe _ _ (Real.sqrt_pos.mpr h0).ne']

omit hK in
theorem sumsq_nonneg {n : ℕ} (f : Fin n → ℝ) : 0 ≤ ∑ d, f d * f d :=
  Finset.sum_nonneg fun _ _ => mul_self_nonneg _

theorem cn_coe (v : Fin 49408) : cn K (up2 er) v = ((cnR r8 er v : ℝ) : EReal) := by
  simp only [cn, up2_apply, cnR, hK.e8, ← EReal.coe_mul]
  rw [coe_sum, sqrt_coe_nonneg _ (sumsq_nonneg _), ← EReal.coe_add]

theorem cnR_pos (er : Fin 49408 → Fin 512 → ℝ) (v : Fin 49408) : 0 < cnR r8 er v :=
  add_pos_of_nonneg_of_pos (Real.sqrt_nonneg _) hK.p8

theorem rescaled_coe (sd : Fin 512 → ℝ) (p : Fin 128) (d : Fin 512) :
    rescaled K (up2 ar) (up2 wr) (up1 br) (up2 er) (up1 sd) p d
      = ((rescaledR r5 ar wr br er sd p d : ℝ) : EReal) := by
  simp only [rescaled, normed_coe hK, mean_coe hK, rescaledR, hK.c1, mul_one, up1_apply, ← EReal.coe_mul,
    ← EReal.coe_add]

theorem rowNorm_coe (sd : Fin 512 → ℝ) (p : Fin 128) :
    rowNorm K (up2 ar) (up2 wr) (up1 br) (up2 er) (up1 sd) p
      = ((rowNormR r5 r8 ar wr br er sd p : ℝ) : EReal) := by
  simp only [rowNorm, rescaled_coe hK, rowNormR, hK.e8, ← EReal.coe_mul]
  rw [coe_sum, sqrt_coe_nonneg _ (sumsq_nonneg _), ← EReal.coe_add]

theorem rowNormR_pos (ar : Fin 128 → Fin 768 → ℝ) (wr : Fin 768 → Fin 512 → ℝ) (br : Fin 512 → ℝ)
    (er : Fin 49408 → Fin 512 → ℝ) (sd : Fin 512 → ℝ) (p : Fin 128) : 0 < rowNormR r5 r8 ar wr br er sd p :=
  add_pos_of_nonneg_of_pos (Real.sqrt_nonneg _) hK.p8

theorem unit_coe (sd : Fin 512 → ℝ) (p : Fin 128) (d : Fin 512) :
    unit K (up2 ar) (up2 wr) (up1 br) (up2 er) (up1 sd) p d
      = ((unitR r5 r8 ar wr br er sd p d : ℝ) : EReal) := by
  simp only [unit, rescaled_coe hK, rowNorm_coe hK, unitR]
  rw [div_coe_coe _ _ (rowNormR_pos hK ar wr br er sd p).ne']

end Twins

/-! ## The two column deviations, and the cosine scores -/

section Scores

variable {r5 r8 : ℝ}
variable {ar : Fin 128 → Fin 768 → ℝ} {wr : Fin 768 → Fin 512 → ℝ} {br : Fin 512 → ℝ}
  {er : Fin 49408 → Fin 512 → ℝ}
variable {K : Consts} (hK : KH K r5 r8)
include hK

omit hK in
theorem card_vocab : (49408 : ℝ) = (Fintype.card (Fin 49408) : ℝ) := by
  rw [Fintype.card_fin]; norm_num

omit hK in
theorem col_nonneg (er : Fin 49408 → Fin 512 → ℝ) (d : Fin 512) :
    0 ≤ (∑ v, (er v d - meanR er d) * (er v d - meanR er d)) / 49408 :=
  div_nonneg (Finset.sum_nonneg fun _ _ => mul_self_nonneg _) (by norm_num)

/-- The reference's column deviation. -/
theorem refSd_coe (d : Fin 512) : Ref.sd K (up2 er) d = ((sdR er d : ℝ) : EReal) := by
  simp only [Ref.sd, mean_coe hK, up2_apply, sdR, hK.cV, ← EReal.coe_sub, ← EReal.coe_mul]
  rw [coe_sum, div_coe_coe _ _ (by norm_num), sqrt_coe_nonneg _ (col_nonneg er d)]

omit hK in
/-- The mean of the squares minus the square of the mean is the mean squared distance from the mean. -/
theorem col_identity (er : Fin 49408 → Fin 512 → ℝ) (d : Fin 512) :
    (∑ v, er v d * er v d) / 49408 - meanR er d * meanR er d
      = (∑ v, (er v d - meanR er d) * (er v d - meanR er d)) / 49408 :=
  (var_identity (fun v => er v d) 49408 card_vocab (by norm_num)).symm

/-- The kernel's column deviation: the clamp at zero is the identity. -/
theorem kerSd_coe (d : Fin 512) : Ker.sd K (up2 er) d = ((sdR er d : ℝ) : EReal) := by
  simp only [Ker.sd, Ker.ex2, mean_coe hK, up2_apply, sdR, hK.cV, hK.c0, ← EReal.coe_mul]
  rw [coe_sum, div_coe_coe _ _ (by norm_num), ← EReal.coe_sub, ← EReal.coe_zero, max_coe, col_identity,
    max_eq_left (col_nonneg er d), sqrt_coe_nonneg _ (col_nonneg er d)]

theorem kerSd_eq : Ker.sd K (up2 er) = up1 (sdR er) := funext fun d => kerSd_coe hK d
theorem refSd_eq : Ref.sd K (up2 er) = up1 (sdR er) := funext fun d => refSd_coe hK d

/-- The kernel's cosine score. -/
theorem kerCos_coe (p : Fin 128) (v : Fin 49408) :
    Ker.cos K (up2 ar) (up2 wr) (up1 br) (up2 er) p v = ((cosR r5 r8 ar wr br er p v : ℝ) : EReal) := by
  simp only [Ker.cos, kerSd_eq hK, unit_coe hK, cn_coe hK, up2_apply, cosR, ← EReal.coe_mul]
  rw [coe_sum, div_coe_coe _ _ (cnR_pos hK er v).ne']

/-- The reference's cosine score. -/
theorem refCos_coe (p : Fin 128) (v : Fin 49408) :
    Ref.cos K (up2 ar) (up2 wr) (up1 br) (up2 er) p v = ((cosR r5 r8 ar wr br er p v : ℝ) : EReal) := by
  have hc : ∀ d, Ideal.div (((er v d : ℝ) : EReal)) ((cnR r8 er v : ℝ) : EReal)
      = ((er v d / cnR r8 er v : ℝ) : EReal) := fun d => div_coe_coe _ _ (cnR_pos hK er v).ne'
  simp only [Ref.cos, refSd_eq hK, unit_coe hK, cn_coe hK, up2_apply, hc, cosR, ← EReal.coe_mul]
  rw [coe_sum, sum_mul_div]

end Scores

/-! ## The keyword vectors -/

section Keywords

variable {r5 r8 : ℝ}
variable {ar : Fin 128 → Fin 768 → ℝ} {wr : Fin 768 → Fin 512 → ℝ} {br : Fin 512 → ℝ}
  {er : Fin 49408 → Fin 512 → ℝ}
variable {K : Consts} (hK : KH K r5 r8)

/-- A sum of exponentials over the vocabulary is positive. -/
theorem sum_exp_pos (y : Fin 49408 → ℝ) : 0 < ∑ v, Real.exp (y v) :=
  Finset.sum_pos (fun _ _ => Real.exp_pos _) ⟨⟨0, by norm_num⟩, Finset.mem_univ _⟩

include hK

/-- The kernel's keyword vector, its multiplier the reciprocal of a real. -/
theorem kerKw_coe (r : ℝ) (p : Fin 128) (d : Fin 512) :
    Ker.kw K (up2 ar) (up2 wr) (up1 br) (up2 er) ((1 / r : ℝ) : EReal) p d
      = (((∑ v, Real.exp (cosR r5 r8 ar wr br er p v * (1 / r)) * er v d)
          / (∑ v, Real.exp (cosR r5 r8 ar wr br er p v * (1 / r))) : ℝ) : EReal) := by
  simp only [Ker.kw, Ker.wt, kerCos_coe hK, up2_apply, ← EReal.coe_mul, Ideal.exp_coe]
  rw [coe_sum, coe_sum, div_coe_coe _ _ (sum_exp_pos _).ne']

/-- The reference's logit, its divisor a positive real. -/
theorem refLogit_coe {r : ℝ} (hr : 0 < r) (p : Fin 128) (v : Fin 49408) :
    Ref.logit K (up2 ar) (up2 wr) (up1 br) (up2 er) (r : EReal) p v
      = ((cosR r5 r8 ar wr br er p v * (1 / r) : ℝ) : EReal) := by
  rw [Ref.logit, refCos_coe hK, Ideal.div_coe hr.ne', ← EReal.coe_mul]

/-- The row maximum of the logits is one of them, hence finite. -/
theorem refRowMax_coe {r : ℝ} (hr : 0 < r) (p : Fin 128) :
    ∃ M : ℝ, Ref.rowMax K (up2 ar) (up2 wr) (up1 br) (up2 er) (r : EReal) p = (M : EReal) := by
  obtain ⟨v, -, hv⟩ := Finset.exists_mem_eq_sup Finset.univ ⟨⟨0, by norm_num⟩, Finset.mem_univ _⟩
    (fun v => Ref.logit K (up2 ar) (up2 wr) (up1 br) (up2 er) (r : EReal) p v)
  exact ⟨_, by rw [Ref.rowMax, hv, refLogit_coe hK hr]⟩

/-- The reference's keyword vector: a softmax of logits shifted by some real. -/
theorem refKw_coe {r : ℝ} (hr : 0 < r) (p : Fin 128) (d : Fin 512) :
    ∃ M : ℝ, Ref.kw K (up2 ar) (up2 wr) (up1 br) (up2 er) (r : EReal) p d
      = ((∑ v, (Real.exp (cosR r5 r8 ar wr br er p v * (1 / r) - M)
          / ∑ u, Real.exp (cosR r5 r8 ar wr br er p u * (1 / r) - M)) * er v d : ℝ) : EReal) := by
  obtain ⟨M, hM⟩ := refRowMax_coe (ar := ar) (wr := wr) (br := br) (er := er) hK hr p
  refine ⟨M, ?_⟩
  have hpos : (∑ u, Real.exp (cosR r5 r8 ar wr br er p u * (1 / r) - M)) ≠ 0 := (sum_exp_pos _).ne'
  have hin : (∑ u, ((Real.exp (cosR r5 r8 ar wr br er p u * (1 / r) - M) : ℝ) : EReal))
      = ((∑ u, Real.exp (cosR r5 r8 ar wr br er p u * (1 / r) - M) : ℝ) : EReal) := coe_sum _ _
  simp only [Ref.kw, Ref.prob, Ref.ex, refLogit_coe hK hr, hM, up2_apply, ← EReal.coe_sub, Ideal.exp_coe, hin,
    div_coe_coe _ _ hpos, ← EReal.coe_mul]
  rw [coe_sum]

end Keywords

/-! ## The two theorems -/

/-- What is assumed: the constants are the reals they spell, the multiplier is the exact reciprocal of the
    positive temperature, and every input entry is finite. -/
structure Hyp (K : Cert.Spec.Consts) (a : Fin 128 → Fin 768 → EReal) (w : Fin 768 → Fin 512 → EReal)
    (b : Fin 512 → EReal) (e : Fin 49408 → Fin 512 → EReal) (κ τ : EReal) : Prop where
  cV : K.cV = ((49408 : ℝ) : EReal)
  c128 : K.c128 = ((128 : ℝ) : EReal)
  e5 : ∃ r : ℝ, 0 < r ∧ K.e5 = (r : EReal)
  e8 : ∃ r : ℝ, 0 < r ∧ K.e8 = (r : EReal)
  c1 : K.c1 = 1
  c0 : K.c0 = 0
  tau : ∃ r : ℝ, 0 < r ∧ τ = (r : EReal) ∧ κ = ((1 / r : ℝ) : EReal)
  fa : ∀ p k, ∃ r : ℝ, a p k = (r : EReal)
  fw : ∀ k d, ∃ r : ℝ, w k d = (r : EReal)
  fb : ∀ d, ∃ r : ℝ, b d = (r : EReal)
  fe : ∀ v d, ∃ r : ℝ, e v d = (r : EReal)

/-- Under the hypothesis the constants and the arrays are coercions of reals. -/
theorem Hyp.reals {K : Cert.Spec.Consts} {a : Fin 128 → Fin 768 → EReal} {w : Fin 768 → Fin 512 → EReal}
    {b : Fin 512 → EReal} {e : Fin 49408 → Fin 512 → EReal} {κ τ : EReal} (h : Hyp K a w b e κ τ) :
    ∃ (r5 r8 : ℝ) (ar : Fin 128 → Fin 768 → ℝ) (wr : Fin 768 → Fin 512 → ℝ) (br : Fin 512 → ℝ)
      (er : Fin 49408 → Fin 512 → ℝ),
      KH K r5 r8 ∧ a = up2 ar ∧ w = up2 wr ∧ b = up1 br ∧ e = up2 er := by
  obtain ⟨r5, h5, he5⟩ := h.e5
  obtain ⟨r8, h8, he8⟩ := h.e8
  choose ar har using h.fa
  choose wr hwr using h.fw
  choose br hbr using h.fb
  choose er her using h.fe
  exact ⟨r5, r8, ar, wr, br, er, ⟨h.cV, h.c128, he5, he8, h.c1, h.c0, h5, h8⟩,
    funext fun p => funext fun k => har p k, funext fun k => funext fun d => hwr k d,
    funext fun d => hbr d, funext fun v => funext fun d => her v d⟩

/-- The two cosine scores agree. -/
theorem cos_eq {K : Cert.Spec.Consts} {a : Fin 128 → Fin 768 → EReal} {w : Fin 768 → Fin 512 → EReal}
    {b : Fin 512 → EReal} {e : Fin 49408 → Fin 512 → EReal} {κ τ : EReal}
    (h : Hyp K a w b e κ τ) (p : Fin 128) (v : Fin 49408) :
    Cert.Spec.Ker.cos K a w b e p v = Cert.Spec.Ref.cos K a w b e p v := by
  obtain ⟨r5, r8, ar, wr, br, er, hK, rfl, rfl, rfl, rfl⟩ := h.reals
  rw [kerCos_coe hK, refCos_coe hK]

/-- The two keyword vectors agree. -/
theorem kw_eq {K : Cert.Spec.Consts} {a : Fin 128 → Fin 768 → EReal} {w : Fin 768 → Fin 512 → EReal}
    {b : Fin 512 → EReal} {e : Fin 49408 → Fin 512 → EReal} {κ τ : EReal}
    (h : Hyp K a w b e κ τ) (p : Fin 128) (d : Fin 512) :
    Cert.Spec.Ker.kw K a w b e κ p d = Cert.Spec.Ref.kw K a w b e τ p d := by
  obtain ⟨r, hr, rfl, rfl⟩ := h.tau
  obtain ⟨r5, r8, ar, wr, br, er, hK, rfl, rfl, rfl, rfl⟩ := h.reals
  obtain ⟨M, hM⟩ := refKw_coe (ar := ar) (wr := wr) (br := br) (er := er) hK hr p d
  rw [kerKw_coe hK r p d, hM]
  exact congrArg _ (softmax_shift (fun v => cosR r5 r8 ar wr br er p v * (1 / r)) (fun v => er v d) M
    (sum_exp_pos _).ne').symm

end Cert.Algebra

end
-- ==== Proof.Finite.lean ====
/-
  The precondition read: every entry of the four argument arrays is a real number.

  The printed predicate is the conjunction of four tests "every entry's absolute value is below plus infinity". An
  extended real whose absolute value `max x (-x)` is below the top element is neither infinity.
-/
import proofs.«131505_g24936580120849_cont_9to1_1340_2_alg».proof.Pre_finite_inputs
import proofs.«131505_g24936580120849_cont_9to1_1340_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- The pattern of plus infinity denotes the top element. -/
theorem ofBits_pinf : Ideal.ofBits .f32 0x7F800000#32 = ⊤ := by
  simp [Ideal.ofBits, Ideal.ieee]

/-- An extended real whose absolute value is below the top element is a real number. -/
theorem real_of_abs_lt_top (x : EReal) (h : Ideal.cmp .olt (max x (-x)) ⊤ = 1#1) : ∃ r : ℝ, x = (r : EReal) := by
  have h' : max x (-x) < ⊤ := by
    unfold Ideal.cmp at h
    by_contra hc
    simp [hc] at h
  induction x using EReal.rec with
  | bot => simp at h'
  | coe r => exact ⟨r, rfl⟩
  | top => simp at h'

/-- One test: every entry of the array is a real number. -/
theorem all_real {s : Shape} (X : FVec Ideal s .f32) (bc : S_.BroadcastsInDim s (![] : Fin 0 → Fin s.rank)) (i : s.Idx)
    (hx : cmpf .olt (Host.absf X) (broadcastInDim s ![] bc (constant (F := Ideal) S_ .f32 0x7F800000#32)) i = 1#1) :
    ∃ r : ℝ, X i = (r : EReal) := by
  have hx' : Ideal.cmp .olt (max (X i) (-(X i))) (Ideal.ofBits .f32 0x7F800000#32) = 1#1 := hx
  rw [ofBits_pinf] at hx'
  exact real_of_abs_lt_top _ hx'

/-- The precondition gives finiteness of all four arrays. -/
theorem finite_of_pre (A : FVec Ideal S16x8x768 .f32) (W : FVec Ideal S768x512 .f32) (B : FVec Ideal S512 .f32) (E : FVec Ideal S49408x512 .f32)
    (h : Cert.Pre_finite_inputs.fn (F := Ideal) A W B E = fun _ => 1#1) :
    (∀ i, ∃ r : ℝ, A i = (r : EReal)) ∧ (∀ i, ∃ r : ℝ, W i = (r : EReal)) ∧ (∀ i, ∃ r : ℝ, B i = (r : EReal))
      ∧ (∀ i, ∃ r : ℝ, E i = (r : EReal)) := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨hA, hW⟩ := IntOp.andi_eq_one.mp h01
  exact ⟨fun i => all_real A _ i (Host.reduce_andi_all _ _ _ _ _ hA i),
    fun i => all_real W _ i (Host.reduce_andi_all _ _ _ _ _ hW i),
    fun i => all_real B _ i (Host.reduce_andi_all _ _ _ _ _ h2 i),
    fun i => all_real E _ i (Host.reduce_andi_all _ _ _ _ _ h3 i)⟩

end Cert.Finite

end
-- ==== Proof.lean ====
/-
  A two-pass keyword scorer against its array-library reference, over the extended reals.

  Both programs project 128 audio feature rows into the codebook's space, batch-normalise them, rescale them by the
  codebook's column deviation and mean, normalise each row to unit length, score every row against every one of the
  49408 codebook rows by the cosine, and return the scores and the softmax-weighted mixture of codebook rows.

  The kernel streams the codebook twice in 193 tiles of 256 rows. Its first pass accumulates each column's sum and sum
  of squares; its second pass computes the normalised rows once, then per tile the scores, the exponentiated scores'
  sum and their product with the tile. The reference works on whole arrays. They differ in three arrangements, all
  equal on real numbers: the deviation as sqrt(E[x^2] - E[x]^2) against sqrt(E[(x - E x)^2]); the score as a quotient
  of a dot product against a dot product of quotients; the softmax as a ratio of plain exponential sums against the
  maximum-shifted form. The kernel's temperature multiplier is named the exact reciprocal of the reference's divisor,
  so the two logits agree. Every input entry being a real number, every intermediate is one, and the three identities
  apply.

  The frames of the two kernel programs come from the run of @main's four segments (two reshapes, the two regions, two
  reshapes); the reference's from its run.
-/
import proofs.«131505_g24936580120849_cont_9to1_1340_2_alg».proof.Defs
import proofs.«131505_g24936580120849_cont_9to1_1340_2_alg».proof.Proof.Gen.Kernel
import proofs.«131505_g24936580120849_cont_9to1_1340_2_alg».proof.Proof.Gen.KernelIdeal
import proofs.«131505_g24936580120849_cont_9to1_1340_2_alg».proof.Proof.Gen.ReferenceIdeal
import proofs.«131505_g24936580120849_cont_9to1_1340_2_alg».proof.Proof.Gen.Pre_finite_inputs
import proofs.«131505_g24936580120849_cont_9to1_1340_2_alg».proof.Proof.Frames
import proofs.«131505_g24936580120849_cont_9to1_1340_2_alg».proof.Proof.OutI
import proofs.«131505_g24936580120849_cont_9to1_1340_2_alg».proof.Proof.RefRun
import proofs.«131505_g24936580120849_cont_9to1_1340_2_alg».proof.Proof.RefRead
import proofs.«131505_g24936580120849_cont_9to1_1340_2_alg».proof.Proof.Algebra
import proofs.«131505_g24936580120849_cont_9to1_1340_2_alg».proof.Proof.Finite
import proofs.«131505_g24936580120849_cont_9to1_1340_2_alg».proof.Proof.Consts
import proofs.«131505_g24936580120849_cont_9to1_1340_2_alg».proof.Proof.SpecAt
import Idealize.ShloMosaic.Adequacy
import Idealize.ShloMosaic.Init

noncomputable section

namespace Cert.Proof

open Idealize.ShloMosaic Idealize.SL.Sem Idealize.ShloMosaic.ValueIdx
open Cert.Spec Cert.SpecAt

/-- The constants' values and the inputs' finiteness: what the three real identities need. -/
theorem hyp (A : (⟨3, ![16, 8, 768]⟩ : Shape).Idx → EReal) (W : (⟨2, ![768, 512]⟩ : Shape).Idx → EReal)
    (B : (⟨1, ![512]⟩ : Shape).Idx → EReal) (E : (⟨2, ![49408, 512]⟩ : Shape).Idx → EReal)
    (hA : ∀ i, ∃ r : ℝ, A i = (r : EReal)) (hW : ∀ i, ∃ r : ℝ, W i = (r : EReal)) (hB : ∀ i, ∃ r : ℝ, B i = (r : EReal))
    (hE : ∀ i, ∃ r : ℝ, E i = (r : EReal)) :
    Cert.Algebra.Hyp K0 (aOf A) (wOf W) (bOf B) (eOf E) kappa0 tau0 where
  cV := Cert.Consts.cV_eq
  c128 := Cert.Consts.c128_eq
  e5 := Cert.Consts.e5_pos
  e8 := Cert.Consts.e8_pos
  c1 := Cert.Consts.c1_eq
  c0 := Cert.Consts.c0_eq
  tau := ⟨13421773 / 134217728, by norm_num, Cert.Consts.tau_eq, by unfold kappa0; congr 1; norm_num⟩
  fa := fun _ _ => hA _
  fw := fun _ _ => hW _
  fb := fun _ => hB _
  fe := fun _ _ => hE _

theorem frame_ri : Cert.frame_ReferenceIdeal := fun m ρ _ =>
  (θ_run (Cert.ReferenceIdeal.defs (F := Ideal)) _ _).mono (fun _ h c => (h c).2.2) (Cert.RefValue.run m ρ)

/-- The one ledger entry: the multiplier 10.0 is named the exact reciprocal of the float nearest 0.1. -/
theorem preserves : Cert.preserves_Kernel_KernelIdeal :=
  IdealRules.named_const.statement Cert.KernelIdeal.κ "inv_tau" .f32 0x41200000#32 ((134217728 / 13421773 : ℝ) : EReal) rfl

/-- The two idealized programs end with equal results: the kernel's arrangement of the specification and the
    reference's agree on finite inputs. -/
theorem algebraic : Cert.algebraic_KernelIdeal_ReferenceIdeal := by
  intro m ρ m' ρ' hpre hagree
  refine ⟨fun c => Cert.KernelIdeal.Out.kwOut (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)),
    fun c => Cert.KernelIdeal.Out.cosOut (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)),
    Cert.KernelIdeal.Out.run m ρ, ?_⟩
  refine (θ_run (Cert.ReferenceIdeal.defs (F := Ideal)) _ _).mono (fun _ h c => ?_) (Cert.RefValue.run m' ρ')
  obtain ⟨hk, hc, h0, h1, h2, h3⟩ := h c
  obtain ⟨hA, hW, hB, hE⟩ := Cert.Finite.finite_of_pre _ _ _ _ (hpre c)
  have hH := hyp _ _ _ _ hA hW hB hE
  refine ⟨hk.trans ?_, hc.trans ?_, h0, h1, h2, h3⟩
  · rw [(hagree c).1, (hagree c).2.1, (hagree c).2.2.1, (hagree c).2.2.2]
    funext i
    obtain ⟨b, t, d, rfl⟩ : ∃ (b : Fin 16) (t : Fin 8) (d : Fin 512), i = ix3 b t d := ⟨i 0, i 1, i 2, eq_ix3 i⟩
    rw [Cert.RefValue.kwOut_apply]
    exact (Cert.Algebra.kw_eq hH (pq b t) d).symm
  · rw [(hagree c).1, (hagree c).2.1, (hagree c).2.2.1, (hagree c).2.2.2]
    funext i
    obtain ⟨b, t, v, rfl⟩ : ∃ (b : Fin 16) (t : Fin 8) (v : Fin 49408), i = ix3 b t v := ⟨i 0, i 1, i 2, eq_ix3 i⟩
    rw [Cert.RefValue.cosOut_apply]
    exact (Cert.Algebra.cos_eq hH (pq b t) v).symm

theorem claim : Cert.Claim := ⟨Cert.Kernel.Gen.facts, Cert.KernelIdeal.Gen.facts, Cert.ReferenceIdeal.Gen.facts, Cert.Pre_finite_inputs.Gen.facts,
  Frames.frame_k, Frames.frame_ki, frame_ri, preserves, algebraic⟩

end Cert.Proof

end
